-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x1024 : Shape := ⟨3, ![8, 2048, 1024]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn {F : FTy → Type} [FloatOps F] (main_arg0 : FVec F S8x2048x2048 .f32) (main_arg1 : FVec F S8x2048x2048 .f32) (main_arg2 : FVec F S8x2048x1024 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  main_v13
-- ==== Kernel.lean ====
abbrev S8x2048x2048 : Shape := ⟨3, ![8, 2048, 2048]⟩
abbrev S8x2048x1024 : Shape := ⟨3, ![8, 2048, 1024]⟩
abbrev S8x1x2048 : Shape := ⟨3, ![8, 1, 2048]⟩
abbrev S1x256x2048 : Shape := ⟨3, ![1, 256, 2048]⟩
abbrev S1x1x2048 : Shape := ⟨3, ![1, 1, 2048]⟩
abbrev S1x2048 : Shape := ⟨2, ![1, 2048]⟩
abbrev S256x2048 : Shape := ⟨2, ![256, 2048]⟩
abbrev S2048 : Shape := ⟨1, ![2048]⟩
abbrev S_ : Shape := ⟨0, ![]⟩
abbrev S1x1x256 : Shape := ⟨3, ![1, 1, 256]⟩
abbrev S256 : Shape := ⟨1, ![256]⟩
abbrev S256x1 : Shape := ⟨2, ![256, 1]⟩
abbrev S1x256 : Shape := ⟨2, ![1, 256]⟩
abbrev S8x1x1024 : Shape := ⟨3, ![8, 1, 1024]⟩
abbrev S1x2048x2048 : Shape := ⟨3, ![1, 2048, 2048]⟩
abbrev S1x256x1024 : Shape := ⟨3, ![1, 256, 1024]⟩
abbrev S1x1x1024 : Shape := ⟨3, ![1, 1, 1024]⟩
abbrev S1x1024 : Shape := ⟨2, ![1, 1024]⟩
abbrev S2048x2048 : Shape := ⟨2, ![2048, 2048]⟩
abbrev S256x1024 : Shape := ⟨2, ![256, 1024]⟩
abbrev S1024 : Shape := ⟨1, ![1024]⟩
abbrev S1x2048x1024 : Shape := ⟨3, ![1, 2048, 1024]⟩
abbrev S2048x1024 : Shape := ⟨2, ![2048, 1024]⟩

abbrev nBuf : Space → Nat
  | .hbm => 35
  | .vmem => 50
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x1024, .f32⟩
  | .hbm, ⟨3, _⟩ => ⟨S8x1x2048, .f32⟩
  | .hbm, ⟨4, _⟩ => ⟨S8x1x2048, .f32⟩
  | .hbm, ⟨5, _⟩ => ⟨S_, .f32⟩
  | .hbm, ⟨6, _⟩ => ⟨S8x1x2048, .f32⟩
  | .hbm, ⟨7, _⟩ => ⟨S8x1x2048, .f32⟩
  | .hbm, ⟨8, _⟩ => ⟨S_, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S_, .f32⟩
  | .hbm, ⟨14, _⟩ => ⟨S8x1x2048, .f32⟩
  | .hbm, ⟨15, _⟩ => ⟨S8x1x2048, .f32⟩
  | .hbm, ⟨16, _⟩ => ⟨S8x2048x2048, .bf16⟩
  | .hbm, ⟨17, _⟩ => ⟨S8x1x2048, .f32⟩
  | .hbm, ⟨18, _⟩ => ⟨S8x2048x1024, .f32⟩
  | .hbm, ⟨19, _⟩ => ⟨S8x1x1024, .f32⟩
  | .hbm, ⟨20, _⟩ => ⟨S8x1x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x1x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .bf16⟩
  | .hbm, ⟨33, _⟩ => ⟨S8x1x2048, .f32⟩
  | .hbm, ⟨34, _⟩ => ⟨S8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x256x2048, .bf16⟩
  | .local _ .vmem, ⟨13, _⟩ => ⟨S1x256x2048, .bf16⟩
  | .local _ .vmem, ⟨14, _⟩ => ⟨S1x1x256, .f32⟩
  | .local _ .vmem, ⟨15, _⟩ => ⟨S1x1x256, .f32⟩
  | .local _ .vmem, ⟨16, _⟩ => ⟨S1x256x2048, .f32⟩
  | .local _ .vmem, ⟨17, _⟩ => ⟨S1x256x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x2048x2048, .bf16⟩
  | .local _ .vmem, ⟨21, _⟩ => ⟨S1x2048x2048, .bf16⟩
  | .local _ .vmem, ⟨22, _⟩ => ⟨S1x1x2048, .f32⟩
  | .local _ .vmem, ⟨23, _⟩ => ⟨S1x1x2048, .f32⟩
  | .local _ .vmem, ⟨24, _⟩ => ⟨S1x256x1024, .f32⟩
  | .local _ .vmem, ⟨25, _⟩ => ⟨S1x256x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x1x1024, .f32⟩
  | .local _ .vmem, ⟨31, _⟩ => ⟨S1x1x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x1x1024, .f32⟩
  | .local _ .vmem, ⟨35, _⟩ => ⟨S1x1x1024, .f32⟩
  | .local _ .vmem, ⟨36, _⟩ => ⟨S1x256x1024, .bf16⟩
  | .local _ .vmem, ⟨37, _⟩ => ⟨S1x256x1024, .bf16⟩
  | .local _ .vmem, ⟨38, _⟩ => ⟨S1x1x256, .f32⟩
  | .local _ .vmem, ⟨39, _⟩ => ⟨S1x1x256, .f32⟩
  | .local _ .vmem, ⟨40, _⟩ => ⟨S1x256x1024, .f32⟩
  | .local _ .vmem, ⟨41, _⟩ => ⟨S1x256x1024, .f32⟩
  | .local _ .vmem, ⟨42, _⟩ => ⟨S1x1x1024, .f32⟩
  | .local _ .vmem, ⟨43, _⟩ => ⟨S1x1x1024, .f32⟩
  | .local _ .vmem, ⟨44, _⟩ => ⟨S1x2048x1024, .bf16⟩
  | .local _ .vmem, ⟨45, _⟩ => ⟨S1x2048x1024, .bf16⟩
  | .local _ .vmem, ⟨46, _⟩ => ⟨S1x1x2048, .f32⟩
  | .local _ .vmem, ⟨47, _⟩ => ⟨S1x1x2048, .f32⟩
  | .local _ .vmem, ⟨48, _⟩ => ⟨S1x256x2048, .f32⟩
  | .local _ .vmem, ⟨49, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc5_stg4_0 : Ref sig .tc := ⟨.vmem, 48, rfl⟩
abbrev cc5_stg4_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47
abbrev cc5_sem4_0 : DmaSem sig := 48
abbrev cc5_sem4_1 : DmaSem sig := 49

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev grid4 : Pipeline.Grid := ⟨2, ![8, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x1x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![8, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x2048x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x1x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S1x256x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S2048 : S256x2048.Reduces [0] S2048
  shapeCasts_S2048_S1x2048 : S2048.ShapeCasts S1x2048
  bcast_S_S8x1x2048 : S_.BroadcastsInDim S8x1x2048 (![] : Fin 0 → Fin S8x1x2048.rank)
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  transposes_S256x1_p1_0_S1x256 : S256x1.Transposes [1, 0] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  slices_S256x2048_o0_0_S256x1024 : S256x2048.Slices ![0, 0] S256x1024
  slices_S256x2048_o0_1024_S256x1024 : S256x2048.Slices ![0, 1024] S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  reduces_S256x1024_S1024 : S256x1024.Reduces [0] S1024
  shapeCasts_S1024_S1x1024 : S1024.ShapeCasts S1x1024
  bcast_S_S8x1x1024 : S_.BroadcastsInDim S8x1x1024 (![] : Fin 0 → Fin S8x1x1024.rank)
  broadcasts_S1x1024_S256x1024 : S1x1024.Broadcasts S256x1024
  reduces_S256x1024_S256 : S256x1024.Reduces [1] S256
  broadcasts_S256x1_S256x1024 : S256x1.Broadcasts S256x1024
  packedbf16_S1x256x1024_S1x256x1024_0_0_0 : (Rect.unit (s := S1x256x1024) ![0, 0, 0] S1x256x1024.size inb_S1x256x1024_S1x256x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  dot_S256x2048_S2048x2048_S256x2048_1_1_0_0_n_n_wf : DotDims.WF S256x2048 S2048x2048 S256x2048 [1] [1] [0] [0] [] []
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .f32 = 32 ∨ (Rect.block (s := S8x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S8x2048x2048.size a
  hwx0_1 : ∀ i : grid0.Coords, EltTy.bits .f32 = 32 ∨ (Rect.block (s := S8x2048x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S8x2048x2048.size a
  hwx1_0 : ∀ i : grid1.Coords, EltTy.bits .f32 = 32 ∨ (Rect.block (s := S8x2048x2048) S1x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048.size a ≤ S8x1x2048.size a
  hwx1_1 : ∀ i : grid1.Coords, EltTy.bits .f32 = 32 ∨ (Rect.block (s := S8x1x2048) S1x1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S8x2048x2048.size a
  hwx1_2 : ∀ i : grid1.Coords, EltTy.bits .bf16 = 32 ∨ (Rect.block (s := S8x2048x2048) S1x256x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S8x1x2048.size a
  hwx1_3 : ∀ i : grid1.Coords, EltTy.bits .f32 = 32 ∨ (Rect.block (s := S8x1x2048) S1x1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x2048.size a ≤ S8x2048x2048.size a
  hwx2_0 : ∀ i : grid2.Coords, EltTy.bits .f32 = 32 ∨ (Rect.block (s := S8x2048x2048) S1x256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x2048.size a ≤ S8x1x2048.size a
  hwx2_1 : ∀ i : grid2.Coords, EltTy.bits .f32 = 32 ∨ (Rect.block (s := S8x1x2048) S1x1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x2048.size a ≤ S8x2048x2048.size a
  hwx2_2 : ∀ i : grid2.Coords, EltTy.bits .bf16 = 32 ∨ (Rect.block (s := S8x2048x2048) S1x2048x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x2048.size a ≤ S8x1x2048.size a
  hwx2_3 : ∀ i : grid2.Coords, EltTy.bits .f32 = 32 ∨ (Rect.block (s := S8x1x2048) S1x1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x1024.size a ≤ S8x2048x1024.size a
  hwx2_4 : ∀ i : grid2.Coords, EltTy.bits .f32 = 32 ∨ (Rect.block (s := S8x2048x1024) S1x256x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x1024.size a ≤ S8x1x1024.size a
  hwx2_5 : ∀ i : grid2.Coords, EltTy.bits .f32 = 32 ∨ (Rect.block (s := S8x1x1024) S1x1x1024.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S8x2048x1024.size a
  hwx3_0 : ∀ i : grid3.Coords, EltTy.bits .f32 = 32 ∨ (Rect.block (s := S8x2048x1024) S1x256x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x1024.size a ≤ S8x1x1024.size a
  hwx3_1 : ∀ i : grid3.Coords, EltTy.bits .f32 = 32 ∨ (Rect.block (s := S8x1x1024) S1x1x1024.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x1024.size a ≤ S8x2048x1024.size a
  hwx4_0 : ∀ i : grid4.Coords, EltTy.bits .f32 = 32 ∨ (Rect.block (s := S8x2048x1024) S1x256x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x1024.size a ≤ S8x1x1024.size a
  hwx4_1 : ∀ i : grid4.Coords, EltTy.bits .f32 = 32 ∨ (Rect.block (s := S8x1x1024) S1x1x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x256x1024.size a ≤ S8x2048x1024.size a
  hwx4_2 : ∀ i : grid4.Coords, EltTy.bits .bf16 = 32 ∨ (Rect.block (s := S8x2048x1024) S1x256x1024.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x256.size a ≤ S8x1x2048.size a
  hwx4_3 : ∀ i : grid4.Coords, EltTy.bits .f32 = 32 ∨ (Rect.block (s := S8x1x2048) S1x1x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x256x1024.size a ≤ S8x2048x1024.size a
  hwx5_0 : ∀ i : grid5.Coords, EltTy.bits .f32 = 32 ∨ (Rect.block (s := S8x2048x1024) S1x256x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x1024.size a ≤ S8x1x1024.size a
  hwx5_1 : ∀ i : grid5.Coords, EltTy.bits .f32 = 32 ∨ (Rect.block (s := S8x1x1024) S1x1x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x2048x1024.size a ≤ S8x2048x1024.size a
  hwx5_2 : ∀ i : grid5.Coords, EltTy.bits .bf16 = 32 ∨ (Rect.block (s := S8x2048x1024) S1x2048x1024.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1x2048.size a ≤ S8x1x2048.size a
  hwx5_3 : ∀ i : grid5.Coords, EltTy.bits .f32 = 32 ∨ (Rect.block (s := S8x1x2048) S1x1x2048.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x256x2048.size a ≤ S8x2048x2048.size a
  hwx5_4 : ∀ i : grid5.Coords, EltTy.bits .f32 = 32 ∨ (Rect.block (s := S8x2048x2048) S1x256x2048.size (cc5_transform_4 i) (hinb5_4 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S1x256x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S1x1x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9_0) S1x2048x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9_1) S1x1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10_0) S1x256x1024.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v10_1) S1x1x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg2) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x1x1024.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_arg2) S1x256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S1x1x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20_0) S1x256x1024.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v20_1) S1x1x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v10_0) S1x256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v19) S1x1x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v20_0) S1x2048x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v20_1) S1x1x2048.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v21) S1x256x2048.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S8x2048x2048 : Shape := ⟨3, ![8, 2048, 2048]⟩
abbrev S8x2048x1024 : Shape := ⟨3, ![8, 2048, 1024]⟩
abbrev S_ : Shape := ⟨0, ![]⟩
abbrev S8x2048 : Shape := ⟨2, ![8, 2048]⟩
abbrev S8x1x2048 : Shape := ⟨3, ![8, 1, 2048]⟩
abbrev S8x2048x1 : Shape := ⟨3, ![8, 2048, 1]⟩
abbrev S8x1024 : Shape := ⟨2, ![8, 1024]⟩
abbrev S8x1x1024 : Shape := ⟨3, ![8, 1, 1024]⟩
abbrev S8x1024x2048 : Shape := ⟨3, ![8, 1024, 2048]⟩

abbrev nBuf : Space → Nat
  | .hbm => 159
  | .vmem => 0
  | .smem => 0
  | _ => 0

abbrev hbmTy0_0 (i : Nat) : BufTy := match i % 128 with
  | 0 => ⟨S8x2048x2048, .f32⟩
  | 1 => ⟨S8x2048x2048, .f32⟩
  | 2 => ⟨S8x2048x1024, .f32⟩
  | 3 => ⟨S8x2048x2048, .f32⟩
  | 4 => ⟨S_, .f32⟩
  | 5 => ⟨S8x2048, .f32⟩
  | 6 => ⟨S8x2048x2048, .f32⟩
  | 7 => ⟨S_, .f32⟩
  | 8 => ⟨S8x2048, .f32⟩
  | 9 => ⟨S_, .f32⟩
  | 10 => ⟨S8x2048, .f32⟩
  | 11 => ⟨S8x2048, .f32⟩
  | 12 => ⟨S_, .f32⟩
  | 13 => ⟨S8x2048, .f32⟩
  | 14 => ⟨S8x2048, .f32⟩
  | 15 => ⟨S8x2048, .f32⟩
  | 16 => ⟨S8x2048, .f32⟩
  | 17 => ⟨S_, .f32⟩
  | 18 => ⟨S8x2048, .f32⟩
  | 19 => ⟨S8x2048, .f32⟩
  | 20 => ⟨S8x1x2048, .f32⟩
  | 21 => ⟨S8x2048x2048, .f32⟩
  | 22 => ⟨S8x2048x2048, .f32⟩
  | 23 => ⟨S8x1x2048, .f32⟩
  | 24 => ⟨S8x2048x2048, .f32⟩
  | 25 => ⟨S8x2048x2048, .f32⟩
  | 26 => ⟨S8x2048x2048, .f32⟩
  | 27 => ⟨S_, .f32⟩
  | 28 => ⟨S8x2048, .f32⟩
  | 29 => ⟨S8x2048x1, .f32⟩
  | 30 => ⟨S_, .f32⟩
  | 31 => ⟨S8x2048x1, .f32⟩
  | 32 => ⟨S8x2048x1, .f32⟩
  | 33 => ⟨S_, .f32⟩
  | 34 => ⟨S8x2048x1, .f32⟩
  | 35 => ⟨S8x2048x1, .f32⟩
  | 36 => ⟨S8x2048x2048, .f32⟩
  | 37 => ⟨S_, .f32⟩
  | 38 => ⟨S8x2048, .f32⟩
  | 39 => ⟨S8x2048x1, .f32⟩
  | 40 => ⟨S_, .f32⟩
  | 41 => ⟨S8x2048x1, .f32⟩
  | 42 => ⟨S8x2048x1, .f32⟩
  | 43 => ⟨S_, .f32⟩
  | 44 => ⟨S8x2048x1, .f32⟩
  | 45 => ⟨S8x2048x1, .f32⟩
  | 46 => ⟨S8x2048x2048, .f32⟩
  | 47 => ⟨S8x2048x2048, .f32⟩
  | 48 => ⟨S8x2048x2048, .f32⟩
  | 49 => ⟨S_, .f32⟩
  | 50 => ⟨S_, .f32⟩
  | 51 => ⟨S_, .f32⟩
  | 52 => ⟨S8x2048x2048, .f32⟩
  | 53 => ⟨S8x2048x2048, .f32⟩
  | 54 => ⟨S_, .f32⟩
  | 55 => ⟨S8x2048x2048, .f32⟩
  | 56 => ⟨S8x2048x2048, .f32⟩
  | 57 => ⟨S8x2048x2048, .f32⟩
  | 58 => ⟨S8x2048x2048, .f32⟩
  | 59 => ⟨S8x2048x2048, .f32⟩
  | 60 => ⟨S_, .f32⟩
  | 61 => ⟨S_, .f32⟩
  | 62 => ⟨S_, .f32⟩
  | 63 => ⟨S8x2048x2048, .f32⟩
  | 64 => ⟨S8x2048x2048, .f32⟩
  | 65 => ⟨S_, .f32⟩
  | 66 => ⟨S8x2048x2048, .f32⟩
  | 67 => ⟨S8x2048x2048, .f32⟩
  | 68 => ⟨S8x2048x2048, .f32⟩
  | 69 => ⟨S8x2048x2048, .f32⟩
  | 70 => ⟨S8x2048x2048, .f32⟩
  | 71 => ⟨S8x2048x2048, .f32⟩
  | 72 => ⟨S8x1x2048, .f32⟩
  | 73 => ⟨S8x2048x2048, .f32⟩
  | 74 => ⟨S8x2048x2048, .f32⟩
  | 75 => ⟨S8x2048x1024, .f32⟩
  | 76 => ⟨S8x2048x1024, .f32⟩
  | 77 => ⟨S8x2048x1024, .f32⟩
  | 78 => ⟨S8x2048x1024, .f32⟩
  | 79 => ⟨S_, .f32⟩
  | 80 => ⟨S8x2048x1024, .f32⟩
  | 81 => ⟨S8x2048x1024, .f32⟩
  | 82 => ⟨S_, .f32⟩
  | 83 => ⟨S8x2048x1024, .f32⟩
  | 84 => ⟨S8x2048x1024, .f32⟩
  | 85 => ⟨S8x2048x1024, .f32⟩
  | 86 => ⟨S8x2048x1024, .f32⟩
  | 87 => ⟨S8x2048x1024, .f32⟩
  | 88 => ⟨S_, .f32⟩
  | 89 => ⟨S8x1024, .f32⟩
  | 90 => ⟨S8x2048x1024, .f32⟩
  | 91 => ⟨S_, .f32⟩
  | 92 => ⟨S8x1024, .f32⟩
  | 93 => ⟨S_, .f32⟩
  | 94 => ⟨S8x1024, .f32⟩
  | 95 => ⟨S8x1024, .f32⟩
  | 96 => ⟨S_, .f32⟩
  | 97 => ⟨S8x1024, .f32⟩
  | 98 => ⟨S8x1024, .f32⟩
  | 99 => ⟨S8x1024, .f32⟩
  | 100 => ⟨S8x1024, .f32⟩
  | 101 => ⟨S_, .f32⟩
  | 102 => ⟨S8x1024, .f32⟩
  | 103 => ⟨S8x1024, .f32⟩
  | 104 => ⟨S8x1x1024, .f32⟩
  | 105 => ⟨S8x2048x1024, .f32⟩
  | 106 => ⟨S8x2048x1024, .f32⟩
  | 107 => ⟨S8x1x1024, .f32⟩
  | 108 => ⟨S8x2048x1024, .f32⟩
  | 109 => ⟨S8x2048x1024, .f32⟩
  | 110 => ⟨S8x2048x1024, .f32⟩
  | 111 => ⟨S_, .f32⟩
  | 112 => ⟨S8x2048, .f32⟩
  | 113 => ⟨S8x2048x1, .f32⟩
  | 114 => ⟨S_, .f32⟩
  | 115 => ⟨S8x2048x1, .f32⟩
  | 116 => ⟨S8x2048x1, .f32⟩
  | 117 => ⟨S_, .f32⟩
  | 118 => ⟨S8x2048x1, .f32⟩
  | 119 => ⟨S8x2048x1, .f32⟩
  | 120 => ⟨S8x2048x1024, .f32⟩
  | 121 => ⟨S_, .f32⟩
  | 122 => ⟨S8x2048, .f32⟩
  | 123 => ⟨S8x2048x1, .f32⟩
  | 124 => ⟨S_, .f32⟩
  | 125 => ⟨S8x2048x1, .f32⟩
  | 126 => ⟨S8x2048x1, .f32⟩
  | 127 => ⟨S_, .f32⟩
  | _ => ⟨S8x2048x2048, .f32⟩

abbrev hbmTy0_1 (i : Nat) : BufTy := match i % 128 with
  | 0 => ⟨S8x2048x1, .f32⟩
  | 1 => ⟨S8x2048x1, .f32⟩
  | 2 => ⟨S8x2048x1024, .f32⟩
  | 3 => ⟨S8x2048x1024, .f32⟩
  | 4 => ⟨S8x2048x1024, .f32⟩
  | 5 => ⟨S_, .f32⟩
  | 6 => ⟨S_, .f32⟩
  | 7 => ⟨S_, .f32⟩
  | 8 => ⟨S8x2048x1024, .f32⟩
  | 9 => ⟨S8x2048x1024, .f32⟩
  | 10 => ⟨S_, .f32⟩
  | 11 => ⟨S8x2048x1024, .f32⟩
  | 12 => ⟨S8x2048x1024, .f32⟩
  | 13 => ⟨S8x2048x1024, .f32⟩
  | 14 => ⟨S8x2048x1024, .f32⟩
  | 15 => ⟨S8x2048x1024, .f32⟩
  | 16 => ⟨S_, .f32⟩
  | 17 => ⟨S_, .f32⟩
  | 18 => ⟨S_, .f32⟩
  | 19 => ⟨S8x2048x1024, .f32⟩
  | 20 => ⟨S8x2048x1024, .f32⟩
  | 21 => ⟨S_, .f32⟩
  | 22 => ⟨S8x2048x1024, .f32⟩
  | 23 => ⟨S8x2048x1024, .f32⟩
  | 24 => ⟨S8x1024x2048, .f32⟩
  | 25 => ⟨S8x2048x2048, .f32⟩
  | 26 => ⟨S8x2048x2048, .f32⟩
  | 27 => ⟨S8x2048x2048, .f32⟩
  | 28 => ⟨S8x1x2048, .f32⟩
  | 29 => ⟨S8x2048x2048, .f32⟩
  | 30 => ⟨S8x2048x2048, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_cst_11 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_cst_13 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call4_v0 : Ref sig .tc := ⟨.hbm, 77, rfl⟩
abbrev main_call4_v1 : Ref sig .tc := ⟨.hbm, 78, rfl⟩
abbrev main_call4_cst : Ref sig .tc := ⟨.hbm, 79, rfl⟩
abbrev main_call4_v2 : Ref sig .tc := ⟨.hbm, 80, rfl⟩
abbrev main_call4_v3 : Ref sig .tc := ⟨.hbm, 81, rfl⟩
abbrev main_call4_cst_0 : Ref sig .tc := ⟨.hbm, 82, rfl⟩
abbrev main_call4_v4 : Ref sig .tc := ⟨.hbm, 83, rfl⟩
abbrev main_call4_v5 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_v53 : Ref sig .tc := ⟨.hbm, 90, rfl⟩
abbrev main_cst_15 : Ref sig .tc := ⟨.hbm, 91, rfl⟩
abbrev main_v54 : Ref sig .tc := ⟨.hbm, 92, rfl⟩
abbrev main_cst_16 : Ref sig .tc := ⟨.hbm, 93, rfl⟩
abbrev main_v55 : Ref sig .tc := ⟨.hbm, 94, rfl⟩
abbrev main_v56 : Ref sig .tc := ⟨.hbm, 95, rfl⟩
abbrev main_cst_17 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_18 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_19 : Ref sig .tc := ⟨.hbm, 111, rfl⟩
abbrev main_v70 : Ref sig .tc := ⟨.hbm, 112, rfl⟩
abbrev main_v71 : Ref sig .tc := ⟨.hbm, 113, rfl⟩
abbrev main_cst_20 : Ref sig .tc := ⟨.hbm, 114, rfl⟩
abbrev main_v72 : Ref sig .tc := ⟨.hbm, 115, rfl⟩
abbrev main_v73 : Ref sig .tc := ⟨.hbm, 116, rfl⟩
abbrev main_cst_21 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_22 : Ref sig .tc := ⟨.hbm, 121, rfl⟩
abbrev main_v77 : Ref sig .tc := ⟨.hbm, 122, rfl⟩
abbrev main_v78 : Ref sig .tc := ⟨.hbm, 123, rfl⟩
abbrev main_cst_23 : Ref sig .tc := ⟨.hbm, 124, rfl⟩
abbrev main_v79 : Ref sig .tc := ⟨.hbm, 125, rfl⟩
abbrev main_v80 : Ref sig .tc := ⟨.hbm, 126, rfl⟩
abbrev main_cst_24 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_25 : Ref sig .tc := ⟨.hbm, 133, rfl⟩
abbrev main_cst_26 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_27 : Ref sig .tc := ⟨.hbm, 144, rfl⟩
abbrev main_cst_28 : Ref sig .tc := ⟨.hbm, 145, rfl⟩
abbrev main_call8_v0 : Ref sig .tc := ⟨.hbm, 146, rfl⟩
abbrev main_call8_v1 : Ref sig .tc := ⟨.hbm, 147, rfl⟩
abbrev main_call8_v2 : Ref sig .tc := ⟨.hbm, 148, rfl⟩
abbrev main_call8_v3 : Ref sig .tc := ⟨.hbm, 149, rfl⟩
abbrev main_call8_v4 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S_S8x2048x2048 : S_.BroadcastsInDim S8x2048x2048 (![] : Fin 0 → Fin S8x2048x2048.rank)
  transposes_S8x2048x2048_S8x2048x2048_0_2_1 : S8x2048x2048.Transposes [0, 2, 1] S8x2048x2048
  transposes_S8x2048x1_S8x1x2048_0_2_1 : S8x2048x1.Transposes [0, 2, 1] S8x1x2048
  slices_S8x2048x2048_S8x2048x1024_0_0_0 : S8x2048x2048.Slices ![0, 0, 0] S8x2048x1024
  slices_S8x2048x2048_S8x2048x1024_0_0_1024 : S8x2048x2048.Slices ![0, 0, 1024] S8x2048x1024
  bcast_S_S8x2048x1024 : S_.BroadcastsInDim S8x2048x1024 (![] : Fin 0 → Fin S8x2048x1024.rank)
  reducesTo_S8x2048x1024_S8x1024_d1 : S8x2048x1024.ReducesTo [1] S8x1024
  bcast_S_S8x1024 : S_.BroadcastsInDim S8x1024 (![] : Fin 0 → Fin S8x1024.rank)
  bcast_S8x1024_S8x1x1024_0_2 : S8x1024.BroadcastsInDim S8x1x1024 (![0, 2] : Fin 2 → Fin S8x1x1024.rank)
  bcast_S8x1x1024_S8x2048x1024_0_1_2 : S8x1x1024.BroadcastsInDim S8x2048x1024 (![0, 1, 2] : Fin 3 → Fin S8x2048x1024.rank)
  reducesTo_S8x2048x1024_S8x2048_d2 : S8x2048x1024.ReducesTo [2] S8x2048
  bcast_S8x2048x1_S8x2048x1024_0_1_2 : S8x2048x1.BroadcastsInDim S8x2048x1024 (![0, 1, 2] : Fin 3 → Fin S8x2048x1024.rank)
  transposes_S8x2048x1024_S8x1024x2048_0_2_1 : S8x2048x1024.Transposes [0, 2, 1] S8x1024x2048
  dot_S8x2048x2048_S8x2048x2048_S8x2048x2048_2_1_1_2_0_0_wf : DotDims.WF S8x2048x2048 S8x2048x2048 S8x2048x2048 [2] [1] [1] [2] [0] [0]
  dot_S8x2048x1024_S8x1024x2048_S8x2048x2048_2_1_1_2_0_0_wf : DotDims.WF S8x2048x1024 S8x1024x2048 S8x2048x2048 [2] [1] [1] [2] [0] [0]

variable [Facts₀]

def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf
def dot_S8x2048x1024_S8x1024x2048_S8x2048x2048_2_1_1_2_0_0 : DotDims S8x2048x1024 S8x1024x2048 S8x2048x2048 where
  lhsContracting := [2]
  rhsContracting := [1]
  lhsNonContracting := [1]
  rhsNonContracting := [2]
  lhsBatch := [0]
  rhsBatch := [0]
  wf := dot_S8x2048x1024_S8x1024x2048_S8x2048x2048_2_1_1_2_0_0_wf

class Facts : Prop extends Facts₀ where

variable [Facts]
-- ==== Proof.KernelRun.lean ====
/-
  The idealized kernel's run with its result named. @main is eight segments: six kernel regions and two stretches of
  host operations. The contents of every buffer at each segment boundary form a fold from the launch memory: a region
  leaves each of its output arrays at what its write-backs leave and every other buffer as it found it, a host stretch
  leaves the buffers its operations write at their values. Every weakly fair execution terminates in a state where each
  unscoped buffer holds the last boundary's contents; read at the result buffer this names the result, and read at the
  three argument buffers it gives them back as launched.
-/
import proofs.«179826_j42494406426926_2_alg».proof.Proof.Gen.KernelIdeal.Frame

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result buffer at the last
    boundary's contents and the three arguments as launched. -/
theorem run_result : θ_run defs (onTc (τ := τ) (main (F := F))) ⟨m, fun _ => 0, ρ⟩ (fun r => ∀ c : Dev nD,
      r.2.mem ((c.tc : Thread nD τ).loc main_v21) = W8 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v21 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c)⟩)

end Cert.KernelIdeal.Bridge

end
-- ==== Proof.Boundaries.lean ====
/-
  What each buffer holds at each boundary between the segments of the idealized kernel's run, for the buffers a later
  segment reads. A region leaves a buffer that is none of its arrays as it found it, leaves each of its input arrays
  as it found it, and a stretch of host operations leaves a buffer none of them writes as it found it. Chaining these
  from the launch: each argument array is still the launched one wherever a region reads it, the first smoothing scale
  survives the first quantizer, the SwiGLU activations and their column maxima survive the second statistics pass, the
  host stretch and the second quantizer, and the second smoothing scale survives the second quantizer.
-/
import proofs.«179826_j42494406426926_2_alg».proof.Proof.Gen.KernelIdeal.Frame

set_option maxRecDepth 16384

noncomputable section

namespace Cert.KernelIdeal.Bridge

open Idealize.ShloMosaic Idealize.ShloMosaic.TcCoe Idealize.SL.Sem
open Idealize.ShloMosaic.Pipeline (Dat)
open Cert.KernelIdeal Cert.KernelIdeal.Gen

variable {F : FTy → Type} [FloatOps F]

/-! ## A host stretch leaves what it does not write -/

theorem hostFirst_keeps_arg0 (W : Valuation τ sig (Elt F)) :
    StableHlo.after (hostOps1 (F := F)) W (Proc.devRef .tc main_arg0) = W (Proc.devRef .tc main_arg0) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostFirst_keeps_arg1 (W : Valuation τ sig (Elt F)) :
    StableHlo.after (hostOps1 (F := F)) W (Proc.devRef .tc main_arg1) = W (Proc.devRef .tc main_arg1) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostFirst_keeps_arg2 (W : Valuation τ sig (Elt F)) :
    StableHlo.after (hostOps1 (F := F)) W (Proc.devRef .tc main_arg2) = W (Proc.devRef .tc main_arg2) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostSecond_keeps_arg2 (W : Valuation τ sig (Elt F)) :
    StableHlo.after (hostOps4 (F := F)) W (Proc.devRef .tc main_arg2) = W (Proc.devRef .tc main_arg2) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem hostSecond_keeps_act (W : Valuation τ sig (Elt F)) :
    StableHlo.after (hostOps4 (F := F)) W (Proc.devRef .tc main_v10_0) = W (Proc.devRef .tc main_v10_0) :=
  StableHlo.after_of_forall_not_mem _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

variable (m : (ℓ : Loc nD τ sig) → Buf (Elt F) ℓ) (ρ : Dev nD → PrngReg) (c : Dev nD)

/-! ## The arguments, boundary by boundary -/

theorem W1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_arg2 : W1 m ρ c (Proc.devRef .tc main_arg2) = m ((c : Thread nD τ).loc main_arg2) :=
  W1_of_ne m ρ c main_arg2 (by decide)

theorem W2_arg0 : W2 m ρ c (Proc.devRef .tc main_arg0) = m ((c : Thread nD τ).loc main_arg0) :=
  (hostFirst_keeps_arg0 _).trans (W1_arg0 m ρ c)
theorem W2_arg1 : W2 m ρ c (Proc.devRef .tc main_arg1) = m ((c : Thread nD τ).loc main_arg1) :=
  (hostFirst_keeps_arg1 _).trans (W1_arg1 m ρ c)
theorem W2_arg2 : W2 m ρ c (Proc.devRef .tc main_arg2) = m ((c : Thread nD τ).loc main_arg2) :=
  (hostFirst_keeps_arg2 _).trans (W1_arg2 m ρ c)

theorem W3_arg0 : W3 m ρ c (Proc.devRef .tc main_arg0) = m ((c : Thread nD τ).loc main_arg0) :=
  (W3_of_ne m ρ c main_arg0 (by decide)).trans (W2_arg0 m ρ c)
theorem W3_arg2 : W3 m ρ c (Proc.devRef .tc main_arg2) = m ((c : Thread nD τ).loc main_arg2) :=
  (W3_of_ne m ρ c main_arg2 (by decide)).trans (W2_arg2 m ρ c)
/-- The first smoothing scale is an input array of the first quantizer: it leaves it as found. -/
theorem W3_scale : W3 m ρ c (Proc.devRef .tc main_v8) = W2 m ρ c (Proc.devRef .tc main_v8) :=
  (W3_arr m ρ c 1).trans (((dat1 (V2 m ρ) c).arrAt_in 1 rfl _).trans (A_eq1 (V2 m ρ) c 1))

theorem W4_arg2 : W4 m ρ c (Proc.devRef .tc main_arg2) = m ((c : Thread nD τ).loc main_arg2) :=
  (W4_of_ne m ρ c main_arg2 (by decide)).trans (W3_arg2 m ρ c)

theorem W5_arg2 : W5 m ρ c (Proc.devRef .tc main_arg2) = m ((c : Thread nD τ).loc main_arg2) :=
  ((W5_arr m ρ c 0).trans (((dat3 (V4 m ρ) c).arrAt_in 0 rfl _).trans (A_eq3 (V4 m ρ) c 0))).trans (W4_arg2 m ρ c)
theorem W5_act : W5 m ρ c (Proc.devRef .tc main_v10_0) = W4 m ρ c (Proc.devRef .tc main_v10_0) :=
  W5_of_ne m ρ c main_v10_0 (by decide)
theorem W5_actMax : W5 m ρ c (Proc.devRef .tc main_v10_1) = W4 m ρ c (Proc.devRef .tc main_v10_1) :=
  W5_of_ne m ρ c main_v10_1 (by decide)

theorem W6_arg2 : W6 m ρ c (Proc.devRef .tc main_arg2) = m ((c : Thread nD τ).loc main_arg2) :=
  (hostSecond_keeps_arg2 _).trans (W5_arg2 m ρ c)
theorem W6_act : W6 m ρ c (Proc.devRef .tc main_v10_0) = W4 m ρ c (Proc.devRef .tc main_v10_0) :=
  (hostSecond_keeps_act _).trans (W5_act m ρ c)

theorem W7_act : W7 m ρ c (Proc.devRef .tc main_v10_0) = W4 m ρ c (Proc.devRef .tc main_v10_0) :=
  (W7_of_ne m ρ c main_v10_0 (by decide)).trans (W6_act m ρ c)
/-- The second smoothing scale is an input array of the second quantizer: it leaves it as found. -/
theorem W7_scale : W7 m ρ c (Proc.devRef .tc main_v19) = W6 m ρ c (Proc.devRef .tc main_v19) :=
  (W7_arr m ρ c 1).trans (((dat4 (V6 m ρ) c).arrAt_in 1 rfl _).trans (A_eq4 (V6 m ρ) c 1))

end Cert.KernelIdeal.Bridge

end
-- ==== Proof.LibLayout.lean ====
/-
  A few layout operations read at an index, for the shapes a row-wise reduction kept as a column meets: a vector made a
  column, a column spread over the columns of a matrix, a matrix given a middle unit axis, and the two ways a rank-3 array
  with one unit axis is spread over that axis; and a sum over the last axis of a matrix or of a rank-3 array as a plain
  finite sum.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Dist

open Idealize.ShloMosaic Idealize.ShloMosaic.ValueIdx
open scoped BigOperators

variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A matrix [a, b] cast to [a, 1, b] reads, at (i, u, j), the matrix at (i, j). -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An array [a, 1, b] broadcast to [a, c, b] reads, at (i, q, j), the array at (i, 0, j). -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (q : Fin c) (j : Fin b) :
    broadcastTo ⟨3, ![a, c, b]⟩ v h (ix3 i q j) = v (ix3 i (0 : Fin 1) j) := by
  refine broadcastTo_apply v h (ix3 i q j) (ix3 i (0 : Fin 1) j) fun ax => ?_
  match ax with
  | ⟨0, _⟩ =>
    show i.val = if a = 1 then 0 else i.val
    split
    · have := i.isLt; omega
    · rfl
  | ⟨1, _⟩ =>
    show 0 = if (1 : ℕ) = 1 then 0 else q.val
    rw [if_pos rfl]
  | ⟨2, _⟩ =>
    show j.val = if b = 1 then 0 else j.val
    split
    · have := j.isLt; omega
    · rfl

/-- An array [1, c, b] broadcast to [a, c, b] reads, at (i, q, j), the array at (0, q, j). -/
theorem broadcastTo_1cb_acb_apply {a c b : ℕ} (v : (⟨3, ![1, c, b]⟩ : Shape).Idx → α)
    (h : (⟨3, ![1, c, b]⟩ : Shape).Broadcasts ⟨3, ![a, c, b]⟩) (i : Fin a) (q : Fin c) (j : Fin b) :
    broadcastTo ⟨3, ![a, c, b]⟩ v h (ix3 i q j) = v (ix3 (0 : Fin 1) q j) := by
  refine broadcastTo_apply v h (ix3 i q j) (ix3 (0 : Fin 1) q j) fun ax => ?_
  match ax with
  | ⟨0, _⟩ =>
    show 0 = if (1 : ℕ) = 1 then 0 else i.val
    rw [if_pos rfl]
  | ⟨1, _⟩ =>
    show q.val = if c = 1 then 0 else q.val
    split
    · have := q.isLt; omega
    · rfl
  | ⟨2, _⟩ =>
    show j.val = if b = 1 then 0 else j.val
    split
    · have := j.isLt; omega
    · rfl

/-- A sum over the columns of a 256 × 128 matrix, from the zero word, read at row i. -/
theorem sum_cols_256x128 (src : FVec Ideal ⟨2, ![256, 128]⟩ .f32) (h : (⟨2, ![256, 128]⟩ : Shape).Reduces [1] ⟨1, ![256]⟩)
    (hφ : FKind.Formats .f32) (hacc : (0x00000000#32 : BitVec 32) = 0x00000000#32) (i : Fin 256) :
    multiReduction (F := Ideal) .add [1] ⟨1, ![256]⟩ src 0x00000000#32 h hφ hacc (ix1 i) = ∑ k : Fin 128, src (ix2 i k) := by
  refine (Ideal.multiReduction_add_single src 0x00000000#32 h hφ hacc (ix1 i)).trans ?_
  refine Finset.sum_congr rfl fun k _ => congrArg src (funext fun ax => Fin.ext ?_)
  match ax with
  | ⟨0, _⟩ => rfl
  | ⟨1, _⟩ => rfl

/-- A sum over the last axis of a 256 × 64 × 128 array, from the zero word, read at (i, q). -/
theorem sum_last_256x64x128 (src : FVec Ideal ⟨3, ![256, 64, 128]⟩ .f32) (h : (⟨3, ![256, 64, 128]⟩ : Shape).Reduces [2] ⟨2, ![256, 64]⟩)
    (hφ : FKind.Formats .f32) (hacc : (0x00000000#32 : BitVec 32) = 0x00000000#32) (i : Fin 256) (q : Fin 64) :
    multiReduction (F := Ideal) .add [2] ⟨2, ![256, 64]⟩ src 0x00000000#32 h hφ hacc (ix2 i q) = ∑ k : Fin 128, src (ix3 i q k) := by
  refine (Ideal.multiReduction_add_single src 0x00000000#32 h hφ hacc (ix2 i q)).trans ?_
  refine Finset.sum_congr rfl fun k _ => congrArg src (funext fun ax => Fin.ext ?_)
  match ax with
  | ⟨0, _⟩ => rfl
  | ⟨1, _⟩ => rfl
  | ⟨2, _⟩ => rfl

end Cert.Dist

end
-- ==== Proof.HostScales.lean ====
/-
  The smoothing scales between the regions.
  After the first region the host computes, elementwise over [8, 1, 2048],
     s = max(sqrt(max(amax_x, eps) / max(amax_w, eps)), eps)
  from the two column maxima, and likewise over [8, 1, 1024] after the fourth region. The reference computes the same
  expression over [8, 2048] and [8, 1024]. Read at (e, 0, d) against (e, d) the two are one term.
-/
import proofs.«179826_j42494406426926_2_alg».proof.Proof.Gen.KernelIdeal.Skeleton
import proofs.«179826_j42494406426926_2_alg».proof.Proof.LibLayout
import proofs.«179826_j42494406426926_2_alg».proof.Proof.Gen.KernelIdeal.Frame
import proofs.«179826_j42494406426926_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.SL.Sem
open Cert.KernelIdeal Cert.KernelIdeal.Gen Cert.Dist

open Cert.ReferenceIdeal.Read
open Idealize.ShloMosaic.TcCoe Idealize.ShloMosaic.StableHlo

abbrev epsB1 : FVec Ideal S8x1x2048 .f32 := broadcastInDim S8x1x2048 ![] bcast_S_S8x1x2048 (constant (F := Ideal) S_ .f32 0x358637BD#32)

/-- The first stretch's last value as one term of the two column maxima it starts from. -/
theorem host1_term (W : Valuation τ sig (Elt Ideal)) :
    (StableHlo.after (hostOps1 (F := Ideal)) W (Proc.devRef .tc main_v8) : S8x1x2048.Idx → EReal)
      = maximumf (Host.sqrt (Host.divf (maximumf (W (Proc.devRef .tc main_v0_0)) epsB1) (maximumf (W (Proc.devRef .tc main_v0_1)) epsB1))) epsB1 := by
  after_results

/-- Read at (e, 0, d): when the two column maxima the stretch starts from are the reference's (over [8, 2048]), its result
    is the reference's first smoothing scale at (e, d). -/
theorem host1_apply (W : Valuation τ sig (Elt Ideal))
    (x0 x1 : (⟨Cert.ReferenceIdeal.S8x2048x2048, .f32⟩ : BufTy).Contents (Elt Ideal))
    (hx : ∀ (e : Fin 8) (d : Fin 2048), (W (Proc.devRef .tc main_v0_0) : S8x1x2048.Idx → EReal) (ix3 e (0 : Fin 1) d) = val_main_v1 (F := Ideal) x0 (ix2 e d))
    (hw : ∀ (e : Fin 8) (d : Fin 2048), (W (Proc.devRef .tc main_v0_1) : S8x1x2048.Idx → EReal) (ix3 e (0 : Fin 1) d) = val_main_v3 (F := Ideal) x1 (ix2 e d))
    (e : Fin 8) (d : Fin 2048) :
    (StableHlo.after (hostOps1 (F := Ideal)) W (Proc.devRef .tc main_v8) : S8x1x2048.Idx → EReal) (ix3 e (0 : Fin 1) d)
      = val_main_v11 (F := Ideal) x0 x1 (ix2 e d) := by
  rw [host1_term, val_main_v11_apply, val_main_v9_apply, val_main_v8_apply, val_main_v5_apply, val_main_v7_apply]
  show FloatOps.maximumf (FloatOps.hostUnary .sqrt (FloatOps.hostDivf
        (FloatOps.maximumf ((W (Proc.devRef .tc main_v0_0) : S8x1x2048.Idx → EReal) (ix3 e (0 : Fin 1) d)) (epsB1 (ix3 e (0 : Fin 1) d)))
        (FloatOps.maximumf ((W (Proc.devRef .tc main_v0_1) : S8x1x2048.Idx → EReal) (ix3 e (0 : Fin 1) d)) (epsB1 (ix3 e (0 : Fin 1) d)))))
      (epsB1 (ix3 e (0 : Fin 1) d)) = _
  rw [hx, hw]
  rfl

abbrev epsB4 : FVec Ideal S8x1x1024 .f32 := broadcastInDim S8x1x1024 ![] bcast_S_S8x1x1024 (constant (F := Ideal) S_ .f32 0x358637BD#32)

/-- The second stretch's last value as one term of the two column maxima it starts from. -/
theorem host4_term (W : Valuation τ sig (Elt Ideal)) :
    (StableHlo.after (hostOps4 (F := Ideal)) W (Proc.devRef .tc main_v19) : S8x1x1024.Idx → EReal)
      = maximumf (Host.sqrt (Host.divf (maximumf (W (Proc.devRef .tc main_v10_1)) epsB4) (maximumf (W (Proc.devRef .tc main_v11)) epsB4))) epsB4 := by
  after_results

/-- Read at (e, 0, i): when the two column maxima the stretch starts from are the reference's (over [8, 1024]), its result
    is the reference's second smoothing scale at (e, i). -/
theorem host4_apply (W : Valuation τ sig (Elt Ideal))
    (x0 x1 : (⟨Cert.ReferenceIdeal.S8x2048x2048, .f32⟩ : BufTy).Contents (Elt Ideal)) (x2 : (⟨Cert.ReferenceIdeal.S8x2048x1024, .f32⟩ : BufTy).Contents (Elt Ideal))
    (ha : ∀ (e : Fin 8) (i : Fin 1024), (W (Proc.devRef .tc main_v10_1) : S8x1x1024.Idx → EReal) (ix3 e (0 : Fin 1) i) = val_main_v52 (F := Ideal) x0 x1 (ix2 e i))
    (hw : ∀ (e : Fin 8) (i : Fin 1024), (W (Proc.devRef .tc main_v11) : S8x1x1024.Idx → EReal) (ix3 e (0 : Fin 1) i) = val_main_v54 (F := Ideal) x2 (ix2 e i))
    (e : Fin 8) (i : Fin 1024) :
    (StableHlo.after (hostOps4 (F := Ideal)) W (Proc.devRef .tc main_v19) : S8x1x1024.Idx → EReal) (ix3 e (0 : Fin 1) i)
      = val_main_v62 (F := Ideal) x0 x1 x2 (ix2 e i) := by
  rw [host4_term, val_main_v62_apply, val_main_v60_apply, val_main_v59_apply, val_main_v56_apply, val_main_v58_apply]
  show FloatOps.maximumf (FloatOps.hostUnary .sqrt (FloatOps.hostDivf
        (FloatOps.maximumf ((W (Proc.devRef .tc main_v10_1) : S8x1x1024.Idx → EReal) (ix3 e (0 : Fin 1) i)) (epsB4 (ix3 e (0 : Fin 1) i)))
        (FloatOps.maximumf ((W (Proc.devRef .tc main_v11) : S8x1x1024.Idx → EReal) (ix3 e (0 : Fin 1) i)) (epsB4 (ix3 e (0 : Fin 1) i)))))
      (epsB4 (ix3 e (0 : Fin 1) i)) = _
  rw [ha, hw]
  rfl

end Cert.KernelIdeal.Bridge

end
-- ==== Proof.Linear2Payload.lean ====
/-
  The second quantized product, one block of 256 token rows at a time, read at an index.
  For a block of activations a[r, k] (256 rows, 1024 columns), the smoothing scale s[k], the quantized weight
  wq[o, k] (2048 rows) and its per-row scale ws[o]:
    xs[r, k] = a[r, k] / s[k]
    sc[r]    = max(max over k of |xs[r, k]|, eps) / 127
    q[r, k]  = min(127, max(-127, roundeven(xs[r, k] / sc[r])))
    out[r, o] = ((sum over k of q[r, k] * wq[o, k]) * sc[r]) * ws[o].
  The row maximum is kept as the fold of max from -infinity over the 1024 columns; nothing here needs a finite input.
-/
import proofs.«179826_j42494406426926_2_alg».proof.Proof.Gen.KernelIdeal.Skeleton
import proofs.«179826_j42494406426926_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.SL.Sem
open Cert.KernelIdeal Cert.KernelIdeal.Gen Cert.Dist

/-- The three float words of the quantizer: the floor eps of a scale, the largest quantized magnitude 127 and its negative. -/
abbrev epsW : Ideal .f32 := Ideal.ofBits .f32 0x358637BD#32
abbrev qmaxW : Ideal .f32 := Ideal.ofBits .f32 0x42FE0000#32
abbrev qminW : Ideal .f32 := Ideal.ofBits .f32 0xC2FE0000#32
abbrev negInfW : Ideal .f32 := Ideal.ofBits .f32 0xFF800000#32

/-- Row r of a matrix reduced over its columns: the column k put back is (r, k). -/
theorem lift_row_1024 (h : S256x1024.Reduces [1] S256) (r : Fin 256) (k : Fin (S256x1024.size 1)) :
    h.lift (ix1 r) k = ix2 r (⟨k.val, k.isLt⟩ : Fin 1024) := by
  funext c; apply Fin.ext
  fin_cases c <;> rfl

/-- The maximum over a row of a 256 x 1024 block, as the fold of max from -infinity over its 1024 columns. -/
theorem rowMax_1024 (v : FVec Ideal S256x1024 .f32) (h : S256x1024.Reduces [1] S256) (hφ : FKind.Formats FTy.f32)
    (hacc : (0xFF800000#32 : BitVec 32) = 0xFF800000#32) (r : Fin 256) :
    multiReduction (F := Ideal) .maximumf [1] S256 v 0xFF800000#32 h hφ hacc (ix1 r)
      = (Finset.univ : Finset (Fin 1024)).fold max negInfW (fun k => v (ix2 r k)) := by
  refine (Ideal.multiReduction_maximumf_single v 0xFF800000#32 h hφ hacc (ix1 r)).trans ?_
  have hf : (v ∘ h.lift (ix1 r)) = fun k : Fin 1024 => v (ix2 r k) :=
    funext fun k => congrArg v (lift_row_1024 h r k)
  exact congrArg (fun f => Finset.fold max negInfW f (Finset.univ : Finset (Fin 1024))) hf

/-- xs: the block of activations divided, column by column, by the smoothing scale. -/
def smoothed5 (s : Vec Ideal S1x1x1024 .f32) (a : Vec Ideal S1x256x1024 .f32) : FVec Ideal S256x1024 .f32 :=
  divf (shapeCast S256x1024 a shapeCasts_S1x256x1024_S256x1024)
    (broadcastTo S256x1024 (shapeCast S1x1024 s shapeCasts_S1x1x1024_S1x1024) broadcasts_S1x1024_S256x1024)

theorem smoothed5_apply (s : Vec Ideal S1x1x1024 .f32) (a : Vec Ideal S1x256x1024 .f32) (r : Fin 256) (k : Fin 1024) :
    smoothed5 s a (ix2 r k) = Ideal.div (a (ix3 (0 : Fin 1) r k)) (s (ix3 (0 : Fin 1) (0 : Fin 1) k)) := by
  unfold smoothed5
  rw [divf_apply, shapeCast_1ab_ab_apply, broadcastTo_1b_ab_apply, shapeCast_1ab_ab_apply]

/-- sc as the body computes it: a column of 256 per-row scales. -/
def rowScale5 (s : Vec Ideal S1x1x1024 .f32) (a : Vec Ideal S1x256x1024 .f32) : FVec Ideal S256x1 .f32 :=
  divf (maximumf (shapeCast S256x1 (multiReduction .maximumf [1] S256 (absf (smoothed5 s a)) 0xFF800000#32 reduces_S256x1024_S256 (.inl rfl) rfl) shapeCasts_S256_S256x1)
      (broadcast S256x1 (Scalar.ofBits .f32 0x358637BD#32)))
    (broadcast S256x1 (Scalar.ofBits .f32 0x42FE0000#32))

/-- sc[r] as a number. -/
def rowScaleAt5 (s : Vec Ideal S1x1x1024 .f32) (a : Vec Ideal S1x256x1024 .f32) (r : Fin 256) : Ideal .f32 :=
  Ideal.div (max ((Finset.univ : Finset (Fin 1024)).fold max negInfW
      (fun k => FloatOps.absf (F := Ideal) (φ := .f32) (Ideal.div (a (ix3 (0 : Fin 1) r k)) (s (ix3 (0 : Fin 1) (0 : Fin 1) k))))) epsW) qmaxW

theorem rowScale5_apply (s : Vec Ideal S1x1x1024 .f32) (a : Vec Ideal S1x256x1024 .f32) (r : Fin 256) (u : Fin 1) :
    rowScale5 s a (ix2 r u) = rowScaleAt5 s a r := by
  unfold rowScale5 rowScaleAt5
  rw [divf_apply, maximumf_apply, shapeCast_a_a1_apply, rowMax_1024]
  have hf : (fun k : Fin 1024 => absf (smoothed5 s a) (ix2 r k))
      = fun k : Fin 1024 => FloatOps.absf (F := Ideal) (φ := .f32) (Ideal.div (a (ix3 (0 : Fin 1) r k)) (s (ix3 (0 : Fin 1) (0 : Fin 1) k))) :=
    funext fun k => congrArg (FloatOps.absf (F := Ideal) (φ := .f32)) (smoothed5_apply s a r k)
  rw [hf]
  rfl

/-- q: the rounded, clipped quantized activations of the block. -/
def quant5 (s : Vec Ideal S1x1x1024 .f32) (a : Vec Ideal S1x256x1024 .f32) : FVec Ideal S256x1024 .bf16 :=
  truncf .bf16 (minimumf (broadcast S256x1024 (Scalar.ofBits .f32 0x42FE0000#32))
    (maximumf (broadcast S256x1024 (Scalar.ofBits .f32 0xC2FE0000#32))
      (roundeven (divf (smoothed5 s a) (broadcastTo S256x1024 (rowScale5 s a) broadcasts_S256x1_S256x1024))))) bitsLt_bf16_f32

/-- q[r, k] as a number. -/
def quantAt5 (s : Vec Ideal S1x1x1024 .f32) (a : Vec Ideal S1x256x1024 .f32) (r : Fin 256) (k : Fin 1024) : EReal :=
  min qmaxW (max qminW (Ideal.liftRound Ideal.roundHalfEven
    (Ideal.div (Ideal.div (a (ix3 (0 : Fin 1) r k)) (s (ix3 (0 : Fin 1) (0 : Fin 1) k))) (rowScaleAt5 s a r))))

theorem quant5_apply (s : Vec Ideal S1x1x1024 .f32) (a : Vec Ideal S1x256x1024 .f32) (r : Fin 256) (k : Fin 1024) :
    quant5 s a (ix2 r k) = quantAt5 s a r k := by
  unfold quant5 quantAt5
  rw [truncf_apply, minimumf_apply, maximumf_apply]
  show min _ (max _ (FloatOps.roundeven (divf (smoothed5 s a) (broadcastTo S256x1024 (rowScale5 s a) broadcasts_S256x1_S256x1024) (ix2 r k)))) = _
  rw [divf_apply, smoothed5_apply, broadcastTo_a1_ab_apply, rowScale5_apply]
  rfl

/-! ## The product -/

/-- The body's product contracts the 1024 columns of both operands: at (r, o) it reads the left operand along row r
    and the right operand along row o. -/
abbrev dot5 : DotDims S256x1024 S2048x1024 S256x2048 := dot_S256x1024_S2048x1024_S256x2048_1_1_0_0_n_n

theorem dot5_lhs0 (i : S256x2048.Idx) (q : dot5.contr.Idx) : (dot5.lhsIdx i q 0).val = (i 0).val := by
  unfold DotDims.lhsIdx
  rw [dif_neg (show ¬(0 : Fin S256x1024.rank) ∈ dot5.lhsBatch by decide), dif_pos (show (0 : Fin S256x1024.rank) ∈ dot5.lhsNonContracting by decide)]
  rfl
theorem dot5_lhs1 (i : S256x2048.Idx) (q : dot5.contr.Idx) : (dot5.lhsIdx i q 1).val = (q ⟨0, by decide⟩).val :=
  dot5.lhsIdx_val_of_single rfl i q
theorem dot5_rhs0 (i : S256x2048.Idx) (q : dot5.contr.Idx) : (dot5.rhsIdx i q 0).val = (i 1).val := by
  unfold DotDims.rhsIdx
  rw [dif_neg (show ¬(0 : Fin S2048x1024.rank) ∈ dot5.rhsBatch by decide), dif_pos (show (0 : Fin S2048x1024.rank) ∈ dot5.rhsNonContracting by decide)]
  rfl
theorem dot5_rhs1 (i : S256x2048.Idx) (q : dot5.contr.Idx) : (dot5.rhsIdx i q 1).val = (q ⟨0, by decide⟩).val :=
  dot5.rhsIdx_val_of_single rfl i q

/-- Into a zero accumulator the product at (r, o) is the sum over the 1024 columns k of l[r, k] * w[o, k]. -/
theorem matmul5_apply (l : FVec Ideal S256x1024 .bf16) (w : FVec Ideal S2048x1024 .bf16) (r : Fin 256) (o : Fin 2048) :
    matmul (F := Ideal) dot5 none l w (constant S256x2048 .f32 0x00000000#32) (ix2 r o)
      = ∑ k : Fin 1024, l (ix2 r k) * w (ix2 o k) := by
  refine (Ideal.matmul_constant_zero_apply dot5 none l w (ix2 r o)).trans ?_
  rw [← Equiv.sum_comp (ValueIdx.contrEquiv1 dot5 1024 rfl rfl).symm]
  refine Finset.sum_congr rfl fun k _ => ?_
  have hk := ValueIdx.contrEquiv1_symm_val dot5 1024 rfl rfl k
  have el : dot5.lhsIdx (ix2 r o) ((ValueIdx.contrEquiv1 dot5 1024 rfl rfl).symm k) = ix2 r k := funext fun a => Fin.ext (by
    match a with
    | ⟨0, _⟩ => exact dot5_lhs0 _ _
    | ⟨1, _⟩ => exact (dot5_lhs1 _ _).trans hk)
  have er : dot5.rhsIdx (ix2 r o) ((ValueIdx.contrEquiv1 dot5 1024 rfl rfl).symm k) = ix2 o k := funext fun a => Fin.ext (by
    match a with
    | ⟨0, _⟩ => exact dot5_rhs0 _ _
    | ⟨1, _⟩ => exact (dot5_rhs1 _ _).trans hk)
  rw [el, er]

/-! ## The block the body stores -/

/-- The stored block is the staged term: the product of the quantized activations with the quantized weight, times the
    column of row scales, times the row of weight scales. -/
theorem k5_pay1_eq (s : Vec Ideal S1x1x1024 .f32) (a : Vec Ideal S1x256x1024 .f32) (wq : Vec Ideal S1x2048x1024 .bf16)
    (ws : Vec Ideal S1x1x2048 .f32) :
    k5_pay1 (F := Ideal) s a wq ws = shapeCast S1x256x2048
      (mulf (mulf (matmul dot5 none (quant5 s a) (shapeCast S2048x1024 wq shapeCasts_S1x2048x1024_S2048x1024 : FVec Ideal S2048x1024 .bf16) (constant S256x2048 .f32 0x00000000#32))
          (broadcastTo S256x2048 (rowScale5 s a) broadcasts_S256x1_S256x2048))
        (broadcastTo S256x2048 (shapeCast S1x2048 ws shapeCasts_S1x1x2048_S1x2048) broadcasts_S1x2048_S256x2048))
      shapeCasts_S256x2048_S1x256x2048 := rfl

/-- out[r, o] as a number. -/
def outAt5 (s : Vec Ideal S1x1x1024 .f32) (a : Vec Ideal S1x256x1024 .f32) (wq : Vec Ideal S1x2048x1024 .bf16)
    (ws : Vec Ideal S1x1x2048 .f32) (r : Fin 256) (o : Fin 2048) : EReal :=
  ((∑ k : Fin 1024, quantAt5 s a r k * wq (ix3 (0 : Fin 1) o k)) * rowScaleAt5 s a r) * ws (ix3 (0 : Fin 1) (0 : Fin 1) o)

theorem k5_pay1_apply (s : Vec Ideal S1x1x1024 .f32) (a : Vec Ideal S1x256x1024 .f32) (wq : Vec Ideal S1x2048x1024 .bf16)
    (ws : Vec Ideal S1x1x2048 .f32) (u : Fin 1) (r : Fin 256) (o : Fin 2048) :
    k5_pay1 (F := Ideal) s a wq ws (ix3 u r o) = outAt5 s a wq ws r o := by
  rw [k5_pay1_eq, shapeCast_ab_1ab_apply, mulf_apply, mulf_apply, matmul5_apply, broadcastTo_a1_ab_apply, rowScale5_apply,
    broadcastTo_1b_ab_apply, shapeCast_1ab_ab_apply]
  unfold outAt5
  have hs : (fun k : Fin 1024 => quant5 s a (ix2 r k) * (shapeCast S2048x1024 wq shapeCasts_S1x2048x1024_S2048x1024 : FVec Ideal S2048x1024 .bf16) (ix2 o k))
      = fun k : Fin 1024 => quantAt5 s a r k * wq (ix3 (0 : Fin 1) o k) :=
    funext fun k => by rw [quant5_apply, shapeCast_1ab_ab_apply]
  rw [hs]

end Cert.KernelIdeal.Bridge

end
-- ==== Proof.Linear2Ref.lean ====
/-
  The reference's second quantized product read at an index, in the kernel's own terms.
  Token row 256*kk + r of expert e is row r of the kk-th block of 256 rows. Cutting that block out of the reference's
  SwiGLU activations, and expert e's row out of its smoothing scale, quantized weight and weight scale, the
  reference's result at (e, 256*kk + r, o) is the block formula of the kernel body at (r, o): the same divisions,
  the same row maximum over the 1024 columns from -infinity, the same rounding and clipping, the same sum over the
  1024 columns, the same two scalings. No law of arithmetic is used: the two sides are one expression.
-/
import proofs.«179826_j42494406426926_2_alg».proof.Proof.Gen.KernelIdeal.Skeleton
import proofs.«179826_j42494406426926_2_alg».proof.Proof.LibLayout
import proofs.«179826_j42494406426926_2_alg».proof.Proof.Linear2Payload
import proofs.«179826_j42494406426926_2_alg».proof.Proof.Gen.ReferenceIdeal.Read
import Idealize.ShloMosaic.PureOps.Reduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.SL.Sem
open Cert.KernelIdeal Cert.KernelIdeal.Gen Cert.Dist

open Cert.ReferenceIdeal.Read

/-- Row r of the kk-th block of 256 rows. -/
def blockRow (kk : Fin 8) (r : Fin 256) : Fin 2048 := ⟨256 * kk.val + r.val, by have := kk.isLt; have := r.isLt; omega⟩

variable (x0 x1 : (⟨Cert.ReferenceIdeal.S8x2048x2048, .f32⟩ : BufTy).Contents (Elt Ideal)) (x2 : (⟨Cert.ReferenceIdeal.S8x2048x1024, .f32⟩ : BufTy).Contents (Elt Ideal))

/-- The kk-th block of 256 rows of expert e's SwiGLU activations. -/
def actBlock (e kk : Fin 8) : Vec Ideal S1x256x1024 .f32 :=
  fun y => val_main_v50 (F := Ideal) x0 x1 (ix3 e (blockRow kk ⟨(y 1).val, (y 1).isLt⟩) (⟨(y 2).val, (y 2).isLt⟩ : Fin 1024))
/-- Expert e's second smoothing scale, as a row. -/
def smoothRow (e : Fin 8) : Vec Ideal S1x1x1024 .f32 :=
  fun y => val_main_v62 (F := Ideal) x0 x1 x2 (ix2 e (⟨(y 2).val, (y 2).isLt⟩ : Fin 1024))
/-- Expert e's quantized down-projection weight. -/
def weightBlock (e : Fin 8) : Vec Ideal S1x2048x1024 .bf16 :=
  fun y => val_main_v90 (F := Ideal) x0 x1 x2 (ix3 e (⟨(y 1).val, (y 1).isLt⟩ : Fin 2048) (⟨(y 2).val, (y 2).isLt⟩ : Fin 1024))
/-- Expert e's per-row weight scales, as a row. -/
def weightScaleRow (e : Fin 8) : Vec Ideal S1x1x2048 .f32 :=
  fun y => val_main_v82 (F := Ideal) x0 x1 x2 (ix3 e (⟨(y 2).val, (y 2).isLt⟩ : Fin 2048) (0 : Fin 1))

/-- Column k put back into row (e, t) of a rank-3 array reduced over its last axis is (e, t, k). -/
theorem lift_last_1024 (h : Cert.ReferenceIdeal.S8x2048x1024.Reduces [2] Cert.ReferenceIdeal.S8x2048) (e : Fin 8) (t : Fin 2048)
    (k : Fin (Cert.ReferenceIdeal.S8x2048x1024.size 2)) : h.lift (ix2 e t) k = ix3 e t (⟨k.val, k.isLt⟩ : Fin 1024) := by
  funext c; apply Fin.ext
  fin_cases c <;> rfl

/-- The host's maximum over the last axis of a rank-3 array from -infinity, at row (e, t): the fold of max over its
    1024 columns. -/
theorem hostRowMax_1024 (x : Cert.ReferenceIdeal.S8x2048x1024.Idx → Ideal .f32) (e : Fin 8) (t : Fin 2048) :
    Host.reduce (FloatOps.maximumf (F := Ideal) (φ := .f32)) x (constant (F := Ideal) Cert.ReferenceIdeal.S_ .f32 0xFF800000#32)
        Cert.ReferenceIdeal.Gen.reducesTo_S8x2048x1024_S8x2048_d2 Cert.ReferenceIdeal.Gen.h_S_ (ix2 e t)
      = (Finset.univ : Finset (Fin 1024)).fold max negInfW (fun k => x (ix3 e t k)) := by
  have h : Cert.ReferenceIdeal.S8x2048x1024.Reduces [2] Cert.ReferenceIdeal.S8x2048 := by decide
  refine (Host.reduce_eq_fold_single (s := Cert.ReferenceIdeal.S8x2048x1024) (t := Cert.ReferenceIdeal.S8x2048) (a := 2)
    (u := Cert.ReferenceIdeal.S_) (FloatOps.maximumf (F := Ideal) (φ := .f32)) x _
    Cert.ReferenceIdeal.Gen.reducesTo_S8x2048x1024_S8x2048_d2 h Cert.ReferenceIdeal.Gen.h_S_ (ix2 e t)).trans ?_
  have hf : (x ∘ h.lift (ix2 e t)) = fun k : Fin 1024 => x (ix3 e t k) :=
    funext fun k => congrArg x (lift_last_1024 h e t k)
  exact congrArg (fun f => Finset.fold max negInfW f (Finset.univ : Finset (Fin 1024))) hf

/-- The reference's smoothed activation at (e, 256*kk + r, k) is the block's at (r, k). -/
theorem ref_smoothed (e kk : Fin 8) (r : Fin 256) (k : Fin 1024) :
    val_main_v65 (F := Ideal) x0 x1 x2 (ix3 e (blockRow kk r) k)
      = Ideal.div (actBlock x0 x1 e kk (ix3 (0 : Fin 1) r k)) (smoothRow x0 x1 x2 e (ix3 (0 : Fin 1) (0 : Fin 1) k)) := by
  rw [val_main_v65_apply, val_main_v64_apply, val_main_v63_apply]
  have hi : idx_main_v63 (idx_main_v64 (ix3 e (blockRow kk r) k)) = ix2 e k :=
    funext fun a => Fin.ext (by match a with | ⟨0, _⟩ => rfl | ⟨1, _⟩ => rfl)
  rw [hi]
  rfl

/-- The reference's per-token scale at (e, 256*kk + r) is the block's row scale at r. -/
theorem ref_rowScale (e kk : Fin 8) (r : Fin 256) (u : Fin 1) :
    val_main_v75 (F := Ideal) x0 x1 x2 (ix3 e (blockRow kk r) u) = rowScaleAt5 (smoothRow x0 x1 x2 e) (actBlock x0 x1 e kk) r := by
  rw [val_main_v75_apply, val_main_v73_apply, val_main_v71_apply, val_main_v72_apply, val_main_v74_apply]
  have hi : idx_main_v71 (ix3 e (blockRow kk r) u) = ix2 e (blockRow kk r) :=
    funext fun a => Fin.ext (by match a with | ⟨0, _⟩ => rfl | ⟨1, _⟩ => rfl)
  rw [hi]
  have hred : val_main_v70 (F := Ideal) x0 x1 x2 (ix2 e (blockRow kk r))
      = (Finset.univ : Finset (Fin 1024)).fold max negInfW
          (fun k => FloatOps.absf (F := Ideal) (φ := .f32) (Ideal.div (actBlock x0 x1 e kk (ix3 (0 : Fin 1) r k)) (smoothRow x0 x1 x2 e (ix3 (0 : Fin 1) (0 : Fin 1) k)))) := by
    unfold val_main_v70 val_main_cst_19
    refine (hostRowMax_1024 (val_main_v69 (F := Ideal) x0 x1 x2) e (blockRow kk r)).trans ?_
    have hf : (fun k : Fin 1024 => val_main_v69 (F := Ideal) x0 x1 x2 (ix3 e (blockRow kk r) k))
        = fun k => FloatOps.absf (F := Ideal) (φ := .f32) (Ideal.div (actBlock x0 x1 e kk (ix3 (0 : Fin 1) r k)) (smoothRow x0 x1 x2 e (ix3 (0 : Fin 1) (0 : Fin 1) k))) :=
      funext fun k => by rw [val_main_v69_apply, ref_smoothed]; rfl
    rw [hf]
  rw [hred]
  rfl

/-- The reference's quantized activation at (e, 256*kk + r, k) is the block's at (r, k). -/
theorem ref_quant (e kk : Fin 8) (r : Fin 256) (k : Fin 1024) :
    val_main_v86 (F := Ideal) x0 x1 x2 (ix3 e (blockRow kk r) k) = quantAt5 (smoothRow x0 x1 x2 e) (actBlock x0 x1 e kk) r k := by
  rw [val_main_v86_apply, val_main_call6_v4_apply, val_main_call6_v3_apply, val_main_cst_26_apply, val_main_call6_v2_apply,
    val_main_call6_v1_apply, val_main_call6_v0_apply, val_main_cst_25_apply, val_main_v85_apply, val_main_v84_apply,
    val_main_v83_apply, ref_smoothed]
  have hi : idx_main_v83 (ix3 e (blockRow kk r) k) = ix3 e (blockRow kk r) (0 : Fin 1) :=
    funext fun a => Fin.ext (by match a with | ⟨0, _⟩ => rfl | ⟨1, _⟩ => rfl | ⟨2, _⟩ => rfl)
  rw [hi, ref_rowScale]
  rfl

/-- THE REFERENCE'S RESULT at (e, 256*kk + r, o) is the kernel body's block formula at (r, o), over the blocks cut
    from the reference's own earlier stages. -/
theorem ref_result (e kk : Fin 8) (r : Fin 256) (o : Fin 2048) :
    val_main_v97 (F := Ideal) x0 x1 x2 (ix3 e (blockRow kk r) o)
      = outAt5 (smoothRow x0 x1 x2 e) (actBlock x0 x1 e kk) (weightBlock x0 x1 x2 e) (weightScaleRow x0 x1 x2 e) r o := by
  rw [val_main_v97_apply, val_main_v94_apply, val_main_v92_apply, val_main_v93_apply, val_main_v96_apply, val_main_v95_apply]
  have h93 : idx_main_v93 (ix3 e (blockRow kk r) o) = ix3 e (blockRow kk r) (0 : Fin 1) :=
    funext fun a => Fin.ext (by match a with | ⟨0, _⟩ => rfl | ⟨1, _⟩ => rfl | ⟨2, _⟩ => rfl)
  have h95 : idx_main_v95 (idx_main_v96 (ix3 e (blockRow kk r) o)) = ix3 e o (0 : Fin 1) :=
    funext fun a => Fin.ext (by match a with | ⟨0, _⟩ => rfl | ⟨1, _⟩ => rfl | ⟨2, _⟩ => rfl)
  rw [h93, h95, ref_rowScale]
  have hs : (fun k : Fin 1024 => val_main_v86 (F := Ideal) x0 x1 x2 (lidx_main_v92 (ix3 e (blockRow kk r) o) k)
        * val_main_v91 (F := Ideal) x0 x1 x2 (ridx_main_v92 (ix3 e (blockRow kk r) o) k))
      = fun k : Fin 1024 => quantAt5 (smoothRow x0 x1 x2 e) (actBlock x0 x1 e kk) r k * weightBlock x0 x1 x2 e (ix3 (0 : Fin 1) o k) :=
    funext fun k => by
      have hl : lidx_main_v92 (ix3 e (blockRow kk r) o) k = ix3 e (blockRow kk r) k :=
        funext fun a => Fin.ext (by match a with | ⟨0, _⟩ => rfl | ⟨1, _⟩ => rfl | ⟨2, _⟩ => rfl)
      have hr : idx_main_v91 (ridx_main_v92 (ix3 e (blockRow kk r) o) k) = ix3 e o k :=
        funext fun a => Fin.ext (by match a with | ⟨0, _⟩ => rfl | ⟨1, _⟩ => rfl | ⟨2, _⟩ => rfl)
      rw [hl, ref_quant, val_main_v91_apply, hr]
      rfl
  rw [hs]
  rfl

end Cert.KernelIdeal.Bridge

end
-- ==== Proof.Linear2Array.lean ====
/-
  The second quantized product as an array.
  Grid point t = 8 e + kk handles expert e and its kk-th block of 256 token rows. The body's four input blocks there
  are cut from the arrays the region finds; when those arrays are the reference's SwiGLU activations, second smoothing
  scale, quantized down-projection weight and weight scales, the block the body writes back is block (e, kk) of the
  reference's result. The 64 blocks tile the result array, so the array ends equal to the reference's result.
-/
import proofs.«179826_j42494406426926_2_alg».proof.Proof.Gen.KernelIdeal.Skeleton
import proofs.«179826_j42494406426926_2_alg».proof.Proof.LibLayout
import proofs.«179826_j42494406426926_2_alg».proof.Proof.Linear2Ref
import proofs.«179826_j42494406426926_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.SL.Sem
open Cert.KernelIdeal Cert.KernelIdeal.Gen Cert.Dist

open Cert.ReferenceIdeal.Read
open Idealize.ShloMosaic.TcCoe
open Idealize.ShloMosaic.Pipeline (Dat)

variable (V : (c : Dev nD) → (b : Ref sig .tc) → Buf (Elt Ideal) ((c : Thread nD τ).loc b))
variable (x0 x1 : (⟨Cert.ReferenceIdeal.S8x2048x2048, .f32⟩ : BufTy).Contents (Elt Ideal)) (x2 : (⟨Cert.ReferenceIdeal.S8x2048x1024, .f32⟩ : BufTy).Contents (Elt Ideal))

theorem zeroOffsets3 : (![0, 0, 0] : Fin 3 → Nat) = fun _ => 0 := funext fun a => by fin_cases a <;> rfl

/-- The five index maps over the grid: the activations' and the result's block is (e, kk, 0), the three per-expert
    operands' is (e, 0, 0), where e = t / 8 and kk = t % 8. -/
theorem idx5 : ∀ t : Fin cfg5.N,
    win5_0.index t (0 : Fin 3) = t.val / 8 ∧ win5_0.index t (1 : Fin 3) = t.val % 8 ∧ win5_0.index t (2 : Fin 3) = 0
    ∧ win5_1.index t (0 : Fin 3) = t.val / 8 ∧ win5_1.index t (1 : Fin 3) = 0 ∧ win5_1.index t (2 : Fin 3) = 0
    ∧ win5_2.index t (0 : Fin 3) = t.val / 8 ∧ win5_2.index t (1 : Fin 3) = 0 ∧ win5_2.index t (2 : Fin 3) = 0
    ∧ win5_3.index t (0 : Fin 3) = t.val / 8 ∧ win5_3.index t (1 : Fin 3) = 0 ∧ win5_3.index t (2 : Fin 3) = 0
    ∧ win5_4.index t (0 : Fin 3) = t.val / 8 ∧ win5_4.index t (1 : Fin 3) = t.val % 8 ∧ win5_4.index t (2 : Fin 3) = 0 :=
  (by decide +kernel : ∀ t : Fin grid5.N, _)

/-- The expert and the row block of a grid point. -/
def expertOf (t : Fin cfg5.N) : Fin 8 := ⟨t.val / 8, by have := t.isLt; have hN : cfg5.N = 64 := N_5; omega⟩
def tileOf (t : Fin cfg5.N) : Fin 8 := ⟨t.val % 8, by omega⟩

/-- The activations' block at point t is the block cut from the reference's activations. -/
theorem iblk5_act (c : Dev nD) (ha : V c main_v10_0 = val_main_v50 (F := Ideal) x0 x1) (t : Fin cfg5.N) :
    (iblk5 V c 0 t : Vec Ideal S1x256x1024 .f32) = actBlock x0 x1 (expertOf t) (tileOf t) := by
  obtain ⟨a0, a1, a2, -⟩ := idx5 t
  funext y
  unfold iblk5 actBlock
  rw [View.read_apply]
  show V c main_v10_0 (((cfg5.win 0).blk t).view.emb y) = _
  rw [ha]
  refine congrArg _ (funext fun a => Fin.ext ?_)
  match a with
  | ⟨0, _⟩ => show win5_0.index t (0 : Fin 3) * 1 + 1 * (y 0).val = t.val / 8; have hy : (y 0).val < 1 := (y 0).isLt; omega
  | ⟨1, _⟩ => show win5_0.index t (1 : Fin 3) * 256 + 1 * (y 1).val = 256 * (t.val % 8) + (y 1).val; omega
  | ⟨2, _⟩ => show win5_0.index t (2 : Fin 3) * 1024 + 1 * (y 2).val = (y 2).val; omega

/-- The smoothing scale's block at point t is expert e's row of the reference's scale. -/
theorem iblk5_smooth (c : Dev nD)
    (hs : ∀ (e : Fin 8) (k : Fin 1024), V c main_v19 (ix3 e (0 : Fin 1) k) = val_main_v62 (F := Ideal) x0 x1 x2 (ix2 e k))
    (t : Fin cfg5.N) : (iblk5 V c 1 t : Vec Ideal S1x1x1024 .f32) = smoothRow x0 x1 x2 (expertOf t) := by
  obtain ⟨-, -, -, b0, b1, b2, -⟩ := idx5 t
  funext y
  unfold iblk5 smoothRow
  rw [View.read_apply]
  show V c main_v19 (((cfg5.win 1).blk t).view.emb y) = _
  have he : ((cfg5.win 1).blk t).view.emb y = ix3 (expertOf t) (0 : Fin 1) (⟨(y 2).val, (y 2).isLt⟩ : Fin 1024) :=
    funext fun a => Fin.ext (by
      match a with
      | ⟨0, _⟩ => show win5_1.index t (0 : Fin 3) * 1 + 1 * (y 0).val = t.val / 8; have hy : (y 0).val < 1 := (y 0).isLt; omega
      | ⟨1, _⟩ => show win5_1.index t (1 : Fin 3) * 1 + 1 * (y 1).val = 0; have hy : (y 1).val < 1 := (y 1).isLt; omega
      | ⟨2, _⟩ => show win5_1.index t (2 : Fin 3) * 1024 + 1 * (y 2).val = (y 2).val; omega)
  rw [he, hs]

/-- The quantized weight's block at point t is expert e's weight. -/
theorem iblk5_weight (c : Dev nD) (hq : V c main_v20_0 = val_main_v90 (F := Ideal) x0 x1 x2) (t : Fin cfg5.N) :
    (iblk5 V c 2 t : Vec Ideal S1x2048x1024 .bf16) = weightBlock x0 x1 x2 (expertOf t) := by
  obtain ⟨-, -, -, -, -, -, w0, w1, w2, -⟩ := idx5 t
  funext y
  unfold iblk5 weightBlock
  rw [View.read_apply]
  show V c main_v20_0 (((cfg5.win 2).blk t).view.emb y) = _
  rw [hq]
  refine congrArg _ (funext fun a => Fin.ext ?_)
  match a with
  | ⟨0, _⟩ => show win5_2.index t (0 : Fin 3) * 1 + 1 * (y 0).val = t.val / 8; have hy : (y 0).val < 1 := (y 0).isLt; omega
  | ⟨1, _⟩ => show win5_2.index t (1 : Fin 3) * 2048 + 1 * (y 1).val = (y 1).val; omega
  | ⟨2, _⟩ => show win5_2.index t (2 : Fin 3) * 1024 + 1 * (y 2).val = (y 2).val; omega

/-- The weight scales' block at point t is expert e's row of scales. -/
theorem iblk5_wscale (c : Dev nD)
    (hsc : ∀ (e : Fin 8) (o : Fin 2048), V c main_v20_1 (ix3 e (0 : Fin 1) o) = val_main_v82 (F := Ideal) x0 x1 x2 (ix3 e o (0 : Fin 1)))
    (t : Fin cfg5.N) : (iblk5 V c 3 t : Vec Ideal S1x1x2048 .f32) = weightScaleRow x0 x1 x2 (expertOf t) := by
  obtain ⟨-, -, -, -, -, -, -, -, -, s0, s1, s2, -⟩ := idx5 t
  funext y
  unfold iblk5 weightScaleRow
  rw [View.read_apply]
  show V c main_v20_1 (((cfg5.win 3).blk t).view.emb y) = _
  have he : ((cfg5.win 3).blk t).view.emb y = ix3 (expertOf t) (0 : Fin 1) (⟨(y 2).val, (y 2).isLt⟩ : Fin 2048) :=
    funext fun a => Fin.ext (by
      match a with
      | ⟨0, _⟩ => show win5_3.index t (0 : Fin 3) * 1 + 1 * (y 0).val = t.val / 8; have hy : (y 0).val < 1 := (y 0).isLt; omega
      | ⟨1, _⟩ => show win5_3.index t (1 : Fin 3) * 1 + 1 * (y 1).val = 0; have hy : (y 1).val < 1 := (y 1).isLt; omega
      | ⟨2, _⟩ => show win5_3.index t (2 : Fin 3) * 2048 + 1 * (y 2).val = (y 2).val; omega)
  rw [he, hsc]

/-- WHAT POINT t WRITES BACK is block (e, kk) of the reference's result. -/
theorem flushed5 (c : Dev nD) (ha : V c main_v10_0 = val_main_v50 (F := Ideal) x0 x1)
    (hs : ∀ (e : Fin 8) (k : Fin 1024), V c main_v19 (ix3 e (0 : Fin 1) k) = val_main_v62 (F := Ideal) x0 x1 x2 (ix2 e k))
    (hq : V c main_v20_0 = val_main_v90 (F := Ideal) x0 x1 x2)
    (hsc : ∀ (e : Fin 8) (o : Fin 2048), V c main_v20_1 (ix3 e (0 : Fin 1) o) = val_main_v82 (F := Ideal) x0 x1 x2 (ix3 e o (0 : Fin 1)))
    (t : Fin cfg5.N) :
    (dat5 (F := Ideal) V c).flushed 4 t = ((cfg5.win 4).blk t).view.read (Elt Ideal) (val_main_v97 (F := Ideal) x0 x1 x2) := by
  show (cfg5.win 4).cut (grid5.coords t) ((dat5 V c).after 4 t) = _
  rw [after5_4]
  unfold out5_4
  rw [View.canon_unit_zero zeroOffsets3]
  simp only [View.ld_unit_zero (S := S1x256x1024) zeroOffsets3, View.ld_unit_zero (S := S1x1x1024) zeroOffsets3,
    View.ld_unit_zero (S := S1x2048x1024) zeroOffsets3, View.ld_unit_zero (S := S1x1x2048) zeroOffsets3]
  rw [iblk5_act V x0 x1 c ha t, iblk5_smooth V x0 x1 x2 c hs t, iblk5_weight V x0 x1 x2 c hq t, iblk5_wscale V x0 x1 x2 c hsc t]
  obtain ⟨-, -, -, -, -, -, -, -, -, -, -, -, o0, o1, o2⟩ := idx5 t
  refine funext fun (y : S1x256x2048.Idx) => ?_
  show k5_pay1 (F := Ideal) (smoothRow x0 x1 x2 (expertOf t)) (actBlock x0 x1 (expertOf t) (tileOf t)) (weightBlock x0 x1 x2 (expertOf t))
      (weightScaleRow x0 x1 x2 (expertOf t)) y = val_main_v97 (F := Ideal) x0 x1 x2 (((cfg5.win 4).blk t).view.emb y)
  have hy : y = ix3 (⟨(y 0).val, (y 0).isLt⟩ : Fin 1) (⟨(y 1).val, (y 1).isLt⟩ : Fin 256) (⟨(y 2).val, (y 2).isLt⟩ : Fin 2048) :=
    funext fun a => by match a with | ⟨0, _⟩ => rfl | ⟨1, _⟩ => rfl | ⟨2, _⟩ => rfl
  have he : ((cfg5.win 4).blk t).view.emb y
      = ix3 (expertOf t) (blockRow (tileOf t) (⟨(y 1).val, (y 1).isLt⟩ : Fin 256)) (⟨(y 2).val, (y 2).isLt⟩ : Fin 2048) :=
    funext fun a => Fin.ext (by
      match a with
      | ⟨0, _⟩ => show win5_4.index t (0 : Fin 3) * 1 + 1 * (y 0).val = t.val / 8; have h0 : (y 0).val < 1 := (y 0).isLt; omega
      | ⟨1, _⟩ => show win5_4.index t (1 : Fin 3) * 256 + 1 * (y 1).val = 256 * (t.val % 8) + (y 1).val; omega
      | ⟨2, _⟩ => show win5_4.index t (2 : Fin 3) * 2048 + 1 * (y 2).val = (y 2).val; omega)
  rw [he, ref_result, hy, k5_pay1_apply]

/-- THE RESULT ARRAY after the last region is the reference's result, when the region finds the reference's
    activations, smoothing scale, quantized weight and weight scales in its four input arrays. Every index (e, t, o) of the
    result lies in the block of point 8 e + t / 256, so the 64 blocks cover the array. -/
theorem linear2_array (c : Dev nD) (ha : V c main_v10_0 = val_main_v50 (F := Ideal) x0 x1)
    (hs : ∀ (e : Fin 8) (k : Fin 1024), V c main_v19 (ix3 e (0 : Fin 1) k) = val_main_v62 (F := Ideal) x0 x1 x2 (ix2 e k))
    (hq : V c main_v20_0 = val_main_v90 (F := Ideal) x0 x1 x2)
    (hsc : ∀ (e : Fin 8) (o : Fin 2048), V c main_v20_1 (ix3 e (0 : Fin 1) o) = val_main_v82 (F := Ideal) x0 x1 x2 (ix3 e o (0 : Fin 1))) :
    (dat5 (F := Ideal) V c).arrAt 4 cfg5.N = val_main_v97 (F := Ideal) x0 x1 x2 :=
  (dat5 (F := Ideal) V c).arrAt_eq_of_cover 4 (val_main_v97 (F := Ideal) x0 x1 x2)
    (fun t _ => flushed5 V x0 x1 x2 c ha hs hq hsc t) fun i => by
      have hN : cfg5.N = 64 := N_5
      have h0 : (i 0).val < 8 := (i 0).isLt
      have h1 : (i 1).val < 2048 := (i 1).isLt
      have h2 : (i 2).val < 2048 := (i 2).isLt
      have hlt : 8 * (i 0).val + (i 1).val / 256 < cfg5.N := by omega
      refine ⟨⟨8 * (i 0).val + (i 1).val / 256, hlt⟩, flush5_4 _, ?_⟩
      obtain ⟨-, -, -, -, -, -, -, -, -, -, -, -, o0, o1, o2⟩ := idx5 ⟨8 * (i 0).val + (i 1).val / 256, hlt⟩
      show i ∈ ((View.whole main_v21).slice (win5_4.rect ⟨8 * (i 0).val + (i 1).val / 256, hlt⟩)).set
      rw [View.set_slice_whole, Rect.mem_set_unit]
      intro a
      match a with
      | ⟨0, _⟩ =>
        show win5_4.index ⟨8 * (i 0).val + (i 1).val / 256, hlt⟩ (0 : Fin 3) * 1 ≤ (i 0).val ∧ (i 0).val < win5_4.index ⟨8 * (i 0).val + (i 1).val / 256, hlt⟩ (0 : Fin 3) * 1 + 1
        rw [o0]; dsimp only; omega
      | ⟨1, _⟩ =>
        show win5_4.index ⟨8 * (i 0).val + (i 1).val / 256, hlt⟩ (1 : Fin 3) * 256 ≤ (i 1).val ∧ (i 1).val < win5_4.index ⟨8 * (i 0).val + (i 1).val / 256, hlt⟩ (1 : Fin 3) * 256 + 256
        rw [o1]; dsimp only; omega
      | ⟨2, _⟩ =>
        show win5_4.index ⟨8 * (i 0).val + (i 1).val / 256, hlt⟩ (2 : Fin 3) * 2048 ≤ (i 2).val ∧ (i 2).val < win5_4.index ⟨8 * (i 0).val + (i 1).val / 256, hlt⟩ (2 : Fin 3) * 2048 + 2048
        rw [o2]; omega

end Cert.KernelIdeal.Bridge

end
-- ==== Proof.QuantGateUp.lean ====
/-
  The first weight quantizer (the gate/up projection's weights), as values on the extended reals.

  Per expert e, row o and column d the region forms the scaled weight ws = w[e,o,d] · s[e,d], the row's scale
  max(max_d |ws|, floor) / 127, and the quantized weight min(127, max(-127, roundeven(ws / scale))). It does so one block of
  256 rows at a time; a row's maximum runs over all the columns of that row and every row lies in exactly one block, so
  nothing is rearranged: each block is the restriction of one function of the whole arrays, and the blocks tile both
  outputs. The reference takes the same maximum as a reduction over the last axis, from minus infinity. Both read as the
  same fold of max over the 2048 columns, so the two sides are the same term; no finiteness of the inputs is used.

  Contents: the body's four stored or shared values read at explicit coordinates; the reference's stages read at explicit
  coordinates; the outputs as functions of the entry arrays (what a point writes back, the tiling, the whole arrays); the
  two outputs against the reference's stages.
-/
import proofs.«179826_j42494406426926_2_alg».proof.Proof.Gen.KernelIdeal.Frame
import proofs.«179826_j42494406426926_2_alg».proof.Proof.Gen.ReferenceIdeal.Read
import proofs.«179826_j42494406426926_2_alg».proof.Proof.LibLayout
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Bridge.QuantGateUp

open Idealize.ShloMosaic Idealize.ShloMosaic.TcCoe Idealize.ShloMosaic.ValueIdx Idealize.SL.Sem
open Idealize.ShloMosaic.Pipeline (Dat)
open Cert.KernelIdeal Cert.KernelIdeal.Gen Cert.Dist

/-! ## The body's arithmetic, element by element -/

/-- A row index of a matrix with the column put back on the reduced axis. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The scaled weight inside a block: row r, column d of the block times the scale's column d. -/
theorem scaled_apply (v0 : Vec Ideal S1x1x2048 .f32) (v2 : Vec Ideal S1x256x2048 .f32) (r : Fin 256) (d : Fin 2048) :
    k1_pay1 (F := Ideal) v0 v2 (ix2 r d) = v2 (ix3 (0 : Fin 1) r d) * v0 (ix3 (0 : Fin 1) (0 : Fin 1) d) := by
  unfold k1_pay1
  show (shapeCast S256x2048 v2 shapeCasts_S1x256x2048_S256x2048 (ix2 r d) : EReal)
      * broadcastTo S256x2048 (shapeCast S1x2048 v0 shapeCasts_S1x1x2048_S1x2048) broadcasts_S1x2048_S256x2048 (ix2 r d) = _
  exact congrArg₂ (· * ·) (shapeCast_1ab_ab_apply v2 _ r d)
    ((broadcastTo_1b_ab_apply _ _ r d).trans (shapeCast_1ab_ab_apply v0 _ (0 : Fin 1) d))

/-- The scale of row r of a block: the largest magnitude of the row's scaled weights, at least the floor, over 127. -/
theorem rowScale_apply (v0 : Vec Ideal S1x1x2048 .f32) (v2 : Vec Ideal S1x256x2048 .f32) (r : Fin 256) (u : Fin 1) :
    k1_pay2 (F := Ideal) v0 v2 (ix2 r u)
      = Ideal.div (max ((Finset.univ : Finset (Fin 2048)).fold max (Ideal.ofBits .f32 0xFF800000#32)
            (fun d => max (k1_pay1 (F := Ideal) v0 v2 (ix2 r d)) (-(k1_pay1 (F := Ideal) v0 v2 (ix2 r d)))))
          (Ideal.ofBits .f32 0x358637BD#32)) (Ideal.ofBits .f32 0x42FE0000#32) := by
  unfold k1_pay2
  show Ideal.div (max (shapeCast S256x1 (multiReduction (F := Ideal) .maximumf [1] S256 (absf (k1_pay1 (F := Ideal) v0 v2)) 0xFF800000#32
      reduces_S256x2048_S256 (.inl rfl) rfl) shapeCasts_S256_S256x1 (ix2 r u)) (Ideal.ofBits .f32 0x358637BD#32)) (Ideal.ofBits .f32 0x42FE0000#32) = _
  refine congrArg (fun z => Ideal.div (max z (Ideal.ofBits .f32 0x358637BD#32)) (Ideal.ofBits .f32 0x42FE0000#32)) ?_
  refine (shapeCast_a_a1_apply _ _ r u).trans ?_
  refine (Ideal.multiReduction_maximumf_single _ _ _ _ _ (ix1 r)).trans ?_
  refine congrArg (fun f => Finset.fold max (Ideal.ofBits .f32 0xFF800000#32) f (Finset.univ : Finset (Fin 2048))) (funext fun d => ?_)
  show FloatOps.absf (k1_pay1 (F := Ideal) v0 v2 (reduces_S256x2048_S256.lift (ix1 r) d)) = _
  rw [lift_row reduces_S256x2048_S256 r d]
  rfl

/-- The quantized weight inside a block: the scaled weight over its row's scale, rounded to the nearest integer (ties
    to even) and clipped to [-127, 127]. -/
theorem quant_apply (v0 : Vec Ideal S1x1x2048 .f32) (v2 : Vec Ideal S1x256x2048 .f32) (u : Fin 1) (r : Fin 256) (d : Fin 2048) :
    k1_pay3 (F := Ideal) v0 v2 (ix3 u r d)
      = min (Ideal.ofBits .f32 0x42FE0000#32) (max (Ideal.ofBits .f32 0xC2FE0000#32)
          (Ideal.liftRound Ideal.roundHalfEven (Ideal.div (k1_pay1 (F := Ideal) v0 v2 (ix2 r d)) (k1_pay2 (F := Ideal) v0 v2 (ix2 r (0 : Fin 1)))))) := by
  unfold k1_pay3
  refine (shapeCast_ab_1ab_apply _ _ u r d).trans ?_
  show min (Ideal.ofBits .f32 0x42FE0000#32) (max (Ideal.ofBits .f32 0xC2FE0000#32)
          (Ideal.liftRound Ideal.roundHalfEven (Ideal.div (k1_pay1 (F := Ideal) v0 v2 (ix2 r d))
            (broadcastTo S256x2048 (k1_pay2 (F := Ideal) v0 v2) broadcasts_S256x1_S256x2048 (ix2 r d))))) = _
  rw [broadcastTo_a1_ab_apply (k1_pay2 (F := Ideal) v0 v2) broadcasts_S256x1_S256x2048 r d]

/-- The block of row scales the body stores, laid along the lanes: entry r is row r's scale. -/
theorem rowScaleT_apply (v0 : Vec Ideal S1x1x2048 .f32) (v2 : Vec Ideal S1x256x2048 .f32) (u0 u1 : Fin 1) (r : Fin 256) :
    k1_pay4 (F := Ideal) v0 v2 (ix3 u0 u1 r) = k1_pay2 (F := Ideal) v0 v2 (ix2 r (0 : Fin 1)) := by
  unfold k1_pay4
  refine (shapeCast_ab_1ab_apply _ _ u0 u1 r).trans ?_
  refine (transpose_ix2_apply (k1_pay2 (F := Ideal) v0 v2) transposes_S256x1_p1_0_S1x256 u1 r).trans ?_
  have hu : u1 = (0 : Fin 1) := Subsingleton.elim _ _
  rw [hu]

/-! ## The reference's stages, element by element -/

/-- An index of the reduced array with the coordinate of the reduced last axis put back. -/
theorem lift_last {a b c : ℕ} (h : (⟨3, ![a, b, c]⟩ : Shape).Reduces [2] (⟨2, ![a, b]⟩ : Shape)) (e : Fin a) (o : Fin b)
    (k : Fin ((⟨3, ![a, b, c]⟩ : Shape).size 2)) : h.lift (ix2 e o) k = ix3 e o (⟨k.val, k.isLt⟩ : Fin c) := by
  funext x; apply Fin.ext
  fin_cases x <;> rfl

theorem reduces_last : Cert.ReferenceIdeal.S8x2048x2048.Reduces [2] Cert.ReferenceIdeal.S8x2048 := by decide

open Cert.ReferenceIdeal.Read in
/-- The reference's scaled weight. -/
theorem ref_scaled_apply (x0 x1 : Cert.ReferenceIdeal.S8x2048x2048.Idx → EReal) (e : Fin 8) (o : Fin 2048) (d : Fin 2048) :
    val_main_v17 (F := Ideal) x0 x1 (ix3 e o d) = x1 (ix3 e o d) * val_main_v11 (F := Ideal) x0 x1 (ix2 e d) := by
  rw [val_main_v17_apply, val_main_v16_apply, val_main_v15_apply]
  refine congrArg (fun z => x1 (ix3 e o d) * val_main_v11 (F := Ideal) x0 x1 z) ?_
  funext a; apply Fin.ext
  match a with
  | ⟨0, _⟩ => rfl
  | ⟨1, _⟩ => rfl

open Cert.ReferenceIdeal.Read in
/-- The reference's row scale. -/
theorem ref_rowScale_apply (x0 x1 : Cert.ReferenceIdeal.S8x2048x2048.Idx → EReal) (e : Fin 8) (o : Fin 2048) (u : Fin 1) :
    val_main_v31 (F := Ideal) x0 x1 (ix3 e o u)
      = Ideal.div (max ((Finset.univ : Finset (Fin 2048)).fold max (Ideal.ofBits .f32 0xFF800000#32)
            (fun d => max (val_main_v17 (F := Ideal) x0 x1 (ix3 e o d)) (-(val_main_v17 (F := Ideal) x0 x1 (ix3 e o d)))))
          (Ideal.ofBits .f32 0x358637BD#32)) (Ideal.ofBits .f32 0x42FE0000#32) := by
  rw [val_main_v31_apply, val_main_v29_apply, val_main_v27_apply, val_main_v28_apply, val_main_v30_apply]
  show Ideal.div (max (val_main_v26 (F := Ideal) x0 x1 (idx_main_v27 (ix3 e o u))) (Ideal.ofBits .f32 0x358637BD#32)) (Ideal.ofBits .f32 0x42FE0000#32) = _
  refine congrArg (fun z => Ideal.div (max z (Ideal.ofBits .f32 0x358637BD#32)) (Ideal.ofBits .f32 0x42FE0000#32)) ?_
  have hi : idx_main_v27 (ix3 e o u) = ix2 e o := by
    funext a; apply Fin.ext
    match a with
    | ⟨0, _⟩ => rfl
    | ⟨1, _⟩ => rfl
  rw [hi]
  unfold val_main_v26
  refine (Host.reduce_eq_fold_single FloatOps.maximumf _ _ _ reduces_last _ (ix2 e o)).trans ?_
  refine congrArg (fun f => Finset.fold max (Ideal.ofBits .f32 0xFF800000#32) f (Finset.univ : Finset (Fin 2048))) (funext fun d => ?_)
  show max (val_main_v17 (F := Ideal) x0 x1 (reduces_last.lift (ix2 e o) d) : EReal) (-(val_main_v17 (F := Ideal) x0 x1 (reduces_last.lift (ix2 e o) d) : EReal)) = _
  rw [lift_last reduces_last e o d]
  rfl

open Cert.ReferenceIdeal.Read in
/-- The reference's quantized weight. -/
theorem ref_quant_apply (x0 x1 : Cert.ReferenceIdeal.S8x2048x2048.Idx → EReal) (e : Fin 8) (o : Fin 2048) (d : Fin 2048) :
    val_main_v39 (F := Ideal) x0 x1 (ix3 e o d)
      = min (Ideal.ofBits .f32 0x42FE0000#32) (max (Ideal.ofBits .f32 0xC2FE0000#32)
          (Ideal.liftRound Ideal.roundHalfEven (Ideal.div (val_main_v17 (F := Ideal) x0 x1 (ix3 e o d)) (val_main_v31 (F := Ideal) x0 x1 (ix3 e o (0 : Fin 1)))))) := by
  rw [val_main_v39_apply, val_main_call3_v4_apply, val_main_call3_v2_apply, val_main_call3_v1_apply, val_main_v38_apply, val_main_v37_apply, val_main_v36_apply]
  show min (Ideal.ofBits .f32 0x42FE0000#32) (max (Ideal.ofBits .f32 0xC2FE0000#32)
          (Ideal.liftRound Ideal.roundHalfEven (Ideal.div (val_main_v17 (F := Ideal) x0 x1 (ix3 e o d)) (val_main_v31 (F := Ideal) x0 x1 (idx_main_v36 (ix3 e o d)))))) = _
  have hi : idx_main_v36 (ix3 e o d) = ix3 e o (0 : Fin 1) := by
    funext a; apply Fin.ext
    match a with
    | ⟨0, _⟩ => rfl
    | ⟨1, _⟩ => rfl
    | ⟨2, _⟩ => rfl
  rw [hi]

/-! ## The two quantizer outputs as functions of the whole arrays -/

/-- The scaled weight at expert e, row o, column d: the weight times the smoothing scale of its column. -/
def scaledW (w : S8x2048x2048.Idx → EReal) (s : S8x1x2048.Idx → EReal) (e : Fin 8) (o d : Fin 2048) : EReal :=
  w (ix3 e o d) * s (ix3 e (0 : Fin 1) d)

/-- The scale of row o of expert e: the largest magnitude along the row, at least the floor, over 127. -/
def rowScaleW (w : S8x2048x2048.Idx → EReal) (s : S8x1x2048.Idx → EReal) (e : Fin 8) (o : Fin 2048) : EReal :=
  Ideal.div (max ((Finset.univ : Finset (Fin 2048)).fold max (Ideal.ofBits .f32 0xFF800000#32)
      (fun d => max (scaledW w s e o d) (-(scaledW w s e o d))))
    (Ideal.ofBits .f32 0x358637BD#32)) (Ideal.ofBits .f32 0x42FE0000#32)

/-- The quantized weight: the scaled weight over its row's scale, rounded (ties to even), clipped to [-127, 127]. -/
def quantW (w : S8x2048x2048.Idx → EReal) (s : S8x1x2048.Idx → EReal) (e : Fin 8) (o d : Fin 2048) : EReal :=
  min (Ideal.ofBits .f32 0x42FE0000#32) (max (Ideal.ofBits .f32 0xC2FE0000#32)
    (Ideal.liftRound Ideal.roundHalfEven (Ideal.div (scaledW w s e o d) (rowScaleW w s e o))))

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: the weight block and the quantized block sit at the same place (expert, row
    tile), the smoothing scale's block is the expert's, and the row scales' block is (expert, 0, row tile). -/
theorem idx_facts : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 3) = win1_2.index t (0 : Fin 3) ∧ win1_1.index t (1 : Fin 3) = 0 ∧ win1_1.index t (2 : Fin 3) = 0
    ∧ win1_3.index t (0 : Fin 3) = win1_2.index t (0 : Fin 3) ∧ win1_3.index t (1 : Fin 3) = 0
    ∧ win1_3.index t (2 : Fin 3) = win1_2.index t (1 : Fin 3)
    ∧ win1_2.index t (0 : Fin 3) ≤ 7 ∧ win1_2.index t (1 : Fin 3) ≤ 7 ∧ win1_2.index t (2 : Fin 3) = 0 :=
  (by decide +kernel : ∀ t : Fin grid1.N, _)

/-- Every (expert, row tile) is some point's. -/
theorem idx_onto : ∀ (q0 : Fin 8) (q1 : Fin 8), ∃ t : Fin cfg1.N, win1_2.index t = ![q0.val, q1.val, 0] :=
  (by decide +kernel : ∀ (q0 : Fin 8) (q1 : Fin 8), ∃ t : Fin grid1.N, win1_2.index t = ![q0.val, q1.val, 0])

/-- The weight block at point t, at (0, r, d), is the weight array at (expert, 256·tile + r, d). -/
theorem wblock_apply (c : Dev nD) (t : Fin cfg1.N) (u : Fin 1) (r : Fin 256) (d : Fin 2048) (e : Fin 8) (o : Fin 2048)
    (he : e.val = win1_2.index t (0 : Fin 3)) (ho : o.val = win1_2.index t (1 : Fin 3) * 256 + r.val) :
    (iblk1 V c 0 t : Vec Ideal S1x256x2048 .f32) (ix3 u r d) = (V c main_arg1 : S8x2048x2048.Idx → EReal) (ix3 e o d) := by
  obtain ⟨e0, e1, e2, -⟩ := idx_facts t
  unfold iblk1
  rw [View.read_apply]
  show (V c main_arg1 : S8x2048x2048.Idx → EReal) _ = _
  congr 1
  funext a; apply Fin.ext
  have hu : u.val = 0 := by omega
  match a with
  | ⟨0, _⟩ => show win1_0.index t (0 : Fin 3) * 1 + 1 * u.val = e.val; omega
  | ⟨1, _⟩ => show win1_0.index t (1 : Fin 3) * 256 + 1 * r.val = o.val; omega
  | ⟨2, _⟩ => show win1_0.index t (2 : Fin 3) * 2048 + 1 * d.val = d.val; omega

/-- The smoothing scale's block at point t, at (0, 0, d), is the scale array at (expert, 0, d). -/
theorem sblock_apply (c : Dev nD) (t : Fin cfg1.N) (u0 u1 : Fin 1) (d : Fin 2048) (e : Fin 8)
    (he : e.val = win1_2.index t (0 : Fin 3)) :
    (iblk1 V c 1 t : Vec Ideal S1x1x2048 .f32) (ix3 u0 u1 d) = (V c main_v8 : S8x1x2048.Idx → EReal) (ix3 e (0 : Fin 1) d) := by
  obtain ⟨-, -, -, e3, e4, e5, -⟩ := idx_facts t
  unfold iblk1
  rw [View.read_apply]
  show (V c main_v8 : S8x1x2048.Idx → EReal) _ = _
  congr 1
  funext a; apply Fin.ext
  have hu0 : u0.val = 0 := by omega
  have hu1 : u1.val = 0 := by omega
  match a with
  | ⟨0, _⟩ => show win1_1.index t (0 : Fin 3) * 1 + 1 * u0.val = e.val; omega
  | ⟨1, _⟩ => show win1_1.index t (1 : Fin 3) * 1 + 1 * u1.val = 0; omega
  | ⟨2, _⟩ => show win1_1.index t (2 : Fin 3) * 2048 + 1 * d.val = d.val; omega

/-- The scaled weight the body forms at point t, at (r, d), is the whole arrays' at (expert, 256·tile + r, d). -/
theorem scaled_blk (c : Dev nD) (t : Fin cfg1.N) (r : Fin 256) (d : Fin 2048) (e : Fin 8) (o : Fin 2048)
    (he : e.val = win1_2.index t (0 : Fin 3)) (ho : o.val = win1_2.index t (1 : Fin 3) * 256 + r.val) :
    k1_pay1 (F := Ideal) (iblk1 V c 1 t) (iblk1 V c 0 t) (ix2 r d) = scaledW (V c main_arg1) (V c main_v8) e o d :=
  (scaled_apply (iblk1 V c 1 t) (iblk1 V c 0 t) r d).trans
    (congrArg₂ (· * ·) (wblock_apply V c t (0 : Fin 1) r d e o he ho) (sblock_apply V c t (0 : Fin 1) (0 : Fin 1) d e he))

/-- The row scale the body forms at point t, for row r of its block, is the whole arrays' row scale of row 256·tile + r. -/
theorem rowScale_blk (c : Dev nD) (t : Fin cfg1.N) (r : Fin 256) (u : Fin 1) (e : Fin 8) (o : Fin 2048)
    (he : e.val = win1_2.index t (0 : Fin 3)) (ho : o.val = win1_2.index t (1 : Fin 3) * 256 + r.val) :
    k1_pay2 (F := Ideal) (iblk1 V c 1 t) (iblk1 V c 0 t) (ix2 r u) = rowScaleW (V c main_arg1) (V c main_v8) e o :=
  (rowScale_apply (iblk1 V c 1 t) (iblk1 V c 0 t) r u).trans
    (congrArg (fun f => Ideal.div (max ((Finset.univ : Finset (Fin 2048)).fold max (Ideal.ofBits .f32 0xFF800000#32) f)
        (Ideal.ofBits .f32 0x358637BD#32)) (Ideal.ofBits .f32 0x42FE0000#32))
      (funext fun d => by rw [scaled_blk V c t r d e o he ho]))

/-- WHAT POINT t WRITES BACK to the quantized weights is block t of the quantized weight of the whole arrays. -/
theorem flushed_quant (c : Dev nD) (t : Fin cfg1.N) :
    (dat1 (F := Ideal) V c).flushed 2 t
      = ((cfg1.win 2).blk t).view.read (Elt Ideal) (fun j : S8x2048x2048.Idx => quantW (V c main_arg1) (V c main_v8) (j 0) (j 1) (j 2)) := by
  show (cfg1.win 2).cut (grid1.coords t) ((dat1 V c).after 2 t) = _
  rw [after1_2]
  unfold out1_2
  rw [View.canon_unit_zero hz3]
  simp only [View.ld_unit_zero (S := S1x256x2048) hz3, View.ld_unit_zero (S := S1x1x2048) hz3]
  funext j
  obtain ⟨u, r, d, rfl⟩ : ∃ (u : Fin 1) (r : Fin 256) (d : Fin 2048), j = ix3 u r d := ⟨j 0, j 1, j 2, eq_ix3 j⟩
  obtain ⟨-, -, -, -, -, -, -, -, -, b0, b1, b2⟩ := idx_facts t
  have hu : u.val = 0 := by omega
  have he : (((cfg1.win 2).blk t).view.emb (ix3 u r d) (0 : Fin 3)).val = win1_2.index t (0 : Fin 3) := by
    show win1_2.index t (0 : Fin 3) * 1 + 1 * u.val = _; omega
  have ho : (((cfg1.win 2).blk t).view.emb (ix3 u r d) (1 : Fin 3)).val = win1_2.index t (1 : Fin 3) * 256 + r.val := by
    show win1_2.index t (1 : Fin 3) * 256 + 1 * r.val = _; omega
  have hd : ((cfg1.win 2).blk t).view.emb (ix3 u r d) (2 : Fin 3) = d := by
    apply Fin.ext; show win1_2.index t (2 : Fin 3) * 2048 + 1 * d.val = _; omega
  show k1_pay3 (F := Ideal) (iblk1 V c 1 t) (iblk1 V c 0 t) (ix3 u r d)
    = quantW (V c main_arg1) (V c main_v8) (((cfg1.win 2).blk t).view.emb (ix3 u r d) (0 : Fin 3))
        (((cfg1.win 2).blk t).view.emb (ix3 u r d) (1 : Fin 3)) (((cfg1.win 2).blk t).view.emb (ix3 u r d) (2 : Fin 3))
  refine (quant_apply (iblk1 V c 1 t) (iblk1 V c 0 t) u r d).trans ?_
  rw [hd]
  unfold quantW
  rw [scaled_blk V c t r d _ _ he ho, rowScale_blk V c t r (0 : Fin 1) _ _ he ho]

/-- An index of the quantized weights is in point t's block iff each coordinate is in the block's range. -/
theorem mem_blk_quant (t : Fin cfg1.N) (i : S8x2048x2048.Idx) :
    i ∈ ((cfg1.win 2).blk t).view.set ↔ ∀ a : Fin 3, win1_2.index t a * S1x256x2048.size a ≤ (i a).val ∧ (i a).val < win1_2.index t a * S1x256x2048.size a + S1x256x2048.size a := by
  show i ∈ ((View.whole main_v9_0).slice (win1_2.rect t)).set ↔ _
  rw [View.set_slice_whole, Rect.mem_set_unit]
  exact Iff.rfl

/-- Every index of the quantized weights is in the block of the point of its expert and row tile. -/
theorem cover_quant (i : S8x2048x2048.Idx) :
    ∃ t : Fin cfg1.N, (cfg1.win 2).flush t = true ∧ i ∈ ((cfg1.win 2).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win1_2.index t (0 : Fin 3) = (i 0).val := congrFun ht 0
  have q1 : win1_2.index t (1 : Fin 3) = (i 1).val / 256 := congrFun ht 1
  have q2 : win1_2.index t (2 : Fin 3) = 0 := congrFun ht 2
  refine ⟨t, flush1_2 t, ?_⟩
  rw [mem_blk_quant]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 256 ≤ (i 1).val ∧ (i 1).val < win1_2.index t (1 : Fin 3) * 256 + 256; omega
  | ⟨2, _⟩ => show win1_2.index t (2 : Fin 3) * 2048 ≤ (i 2).val ∧ (i 2).val < win1_2.index t (2 : Fin 3) * 2048 + 2048; omega

/-- THE QUANTIZED WEIGHTS after the region: the quantized weight of the entry arrays, index by index. -/
theorem quant_array (c : Dev nD) :
    (dat1 (F := Ideal) V c).arrAt 2 cfg1.N = fun j : S8x2048x2048.Idx => quantW (V c main_arg1) (V c main_v8) (j 0) (j 1) (j 2) :=
  (dat1 (F := Ideal) V c).arrAt_eq_of_cover 2 _ (fun t _ => flushed_quant V c t) cover_quant

/-- WHAT POINT t WRITES BACK to the row scales is block t of the row scale of the whole arrays, laid along the lanes. -/
theorem flushed_rowScale (c : Dev nD) (t : Fin cfg1.N) :
    (dat1 (F := Ideal) V c).flushed 3 t
      = ((cfg1.win 3).blk t).view.read (Elt Ideal) (fun j : S8x1x2048.Idx => rowScaleW (V c main_arg1) (V c main_v8) (j 0) (j 2)) := by
  show (cfg1.win 3).cut (grid1.coords t) ((dat1 V c).after 3 t) = _
  rw [after1_3]
  unfold out1_3
  rw [View.canon_unit_zero hz3]
  simp only [View.ld_unit_zero (S := S1x256x2048) hz3, View.ld_unit_zero (S := S1x1x2048) hz3]
  funext j
  obtain ⟨u0, u1, r, rfl⟩ : ∃ (u0 u1 : Fin 1) (r : Fin 256), j = ix3 u0 u1 r := ⟨j 0, j 1, j 2, eq_ix3 j⟩
  obtain ⟨-, -, -, -, -, -, f0, f1, f2, b0, b1, b2⟩ := idx_facts t
  have hu0 : u0.val = 0 := by omega
  have he : (((cfg1.win 3).blk t).view.emb (ix3 u0 u1 r) (0 : Fin 3)).val = win1_2.index t (0 : Fin 3) := by
    show win1_3.index t (0 : Fin 3) * 1 + 1 * u0.val = _; omega
  have ho : (((cfg1.win 3).blk t).view.emb (ix3 u0 u1 r) (2 : Fin 3)).val = win1_2.index t (1 : Fin 3) * 256 + r.val := by
    show win1_3.index t (2 : Fin 3) * 256 + 1 * r.val = _; omega
  show k1_pay4 (F := Ideal) (iblk1 V c 1 t) (iblk1 V c 0 t) (ix3 u0 u1 r)
    = rowScaleW (V c main_arg1) (V c main_v8) (((cfg1.win 3).blk t).view.emb (ix3 u0 u1 r) (0 : Fin 3))
        (((cfg1.win 3).blk t).view.emb (ix3 u0 u1 r) (2 : Fin 3))
  refine (rowScaleT_apply (iblk1 V c 1 t) (iblk1 V c 0 t) u0 u1 r).trans ?_
  exact rowScale_blk V c t r (0 : Fin 1) _ _ he ho

/-- An index of the row scales is in point t's block iff each coordinate is in the block's range. -/
theorem mem_blk_rowScale (t : Fin cfg1.N) (i : S8x1x2048.Idx) :
    i ∈ ((cfg1.win 3).blk t).view.set ↔ ∀ a : Fin 3, win1_3.index t a * S1x1x256.size a ≤ (i a).val ∧ (i a).val < win1_3.index t a * S1x1x256.size a + S1x1x256.size a := by
  show i ∈ ((View.whole main_v9_1).slice (win1_3.rect t)).set ↔ _
  rw [View.set_slice_whole, Rect.mem_set_unit]
  exact Iff.rfl

/-- Every index of the row scales is in the block of the point of its expert and row tile. -/
theorem cover_rowScale (i : S8x1x2048.Idx) :
    ∃ t : Fin cfg1.N, (cfg1.win 3).flush t = true ∧ i ∈ ((cfg1.win 3).blk t).view.set := by
  have hi0 : (i 0).val < 8 := (i 0).isLt
  have hi1 : (i 1).val < 1 := (i 1).isLt
  have hi2 : (i 2).val < 2048 := (i 2).isLt
  obtain ⟨t, ht⟩ := idx_onto ⟨(i 0).val, hi0⟩ ⟨(i 2).val / 256, by omega⟩
  have q0 : win1_2.index t (0 : Fin 3) = (i 0).val := congrFun ht 0
  have q1 : win1_2.index t (1 : Fin 3) = (i 2).val / 256 := congrFun ht 1
  obtain ⟨-, -, -, -, -, -, f0, f1, f2, -⟩ := idx_facts t
  refine ⟨t, flush1_3 t, ?_⟩
  rw [mem_blk_rowScale]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 256 ≤ (i 2).val ∧ (i 2).val < win1_3.index t (2 : Fin 3) * 256 + 256; omega

/-- THE ROW SCALES after the region: the row scale of the entry arrays, one expert's rows along the lanes. -/
theorem rowScale_array (c : Dev nD) :
    (dat1 (F := Ideal) V c).arrAt 3 cfg1.N = fun j : S8x1x2048.Idx => rowScaleW (V c main_arg1) (V c main_v8) (j 0) (j 2) :=
  (dat1 (F := Ideal) V c).arrAt_eq_of_cover 3 _ (fun t _ => flushed_rowScale V c t) cover_rowScale

/-! ## Against the reference -/

open Cert.ReferenceIdeal.Read in
/-- With the weight array and the smoothing scale at the reference's, the scaled weight is the reference's. -/
theorem scaledW_eq_reference (c : Dev nD) (x0 x1 : Cert.ReferenceIdeal.S8x2048x2048.Idx → EReal)
    (hw : (V c main_arg1 : S8x2048x2048.Idx → EReal) = x1)
    (hs : ∀ (e : Fin 8) (d : Fin 2048), (V c main_v8 : S8x1x2048.Idx → EReal) (ix3 e (0 : Fin 1) d) = val_main_v11 (F := Ideal) x0 x1 (ix2 e d))
    (e : Fin 8) (o d : Fin 2048) :
    scaledW (V c main_arg1) (V c main_v8) e o d = val_main_v17 (F := Ideal) x0 x1 (ix3 e o d) := by
  rw [ref_scaled_apply]; unfold scaledW; rw [hs e d, hw]

open Cert.ReferenceIdeal.Read in
/-- … and so is each row's scale, -/
theorem rowScaleW_eq_reference (c : Dev nD) (x0 x1 : Cert.ReferenceIdeal.S8x2048x2048.Idx → EReal)
    (hw : (V c main_arg1 : S8x2048x2048.Idx → EReal) = x1)
    (hs : ∀ (e : Fin 8) (d : Fin 2048), (V c main_v8 : S8x1x2048.Idx → EReal) (ix3 e (0 : Fin 1) d) = val_main_v11 (F := Ideal) x0 x1 (ix2 e d))
    (e : Fin 8) (o : Fin 2048) :
    rowScaleW (V c main_arg1) (V c main_v8) e o = val_main_v31 (F := Ideal) x0 x1 (ix3 e o (0 : Fin 1)) := by
  rw [ref_rowScale_apply]; unfold rowScaleW
  simp only [scaledW_eq_reference V c x0 x1 hw hs]

open Cert.ReferenceIdeal.Read in
/-- THE QUANTIZED WEIGHTS the region leaves are the reference's clipped rounded quotient, as whole arrays. -/
theorem quant_eq_reference (c : Dev nD) (x0 x1 : Cert.ReferenceIdeal.S8x2048x2048.Idx → EReal)
    (hw : (V c main_arg1 : S8x2048x2048.Idx → EReal) = x1)
    (hs : ∀ (e : Fin 8) (d : Fin 2048), (V c main_v8 : S8x1x2048.Idx → EReal) (ix3 e (0 : Fin 1) d) = val_main_v11 (F := Ideal) x0 x1 (ix2 e d)) :
    ((dat1 (F := Ideal) V c).arrAt 2 cfg1.N : S8x2048x2048.Idx → EReal) = val_main_v39 (F := Ideal) x0 x1 := by
  rw [quant_array]
  funext j
  obtain ⟨e, o, d, rfl⟩ : ∃ (e : Fin 8) (o d : Fin 2048), j = ix3 e o d := ⟨j 0, j 1, j 2, eq_ix3 j⟩
  show quantW (V c main_arg1) (V c main_v8) e o d = _
  rw [ref_quant_apply]; unfold quantW
  rw [scaledW_eq_reference V c x0 x1 hw hs, rowScaleW_eq_reference V c x0 x1 hw hs]

open Cert.ReferenceIdeal.Read in
/-- THE ROW SCALES the region leaves, at (expert, 0, row), are the reference's at (expert, row, 0). -/
theorem rowScale_eq_reference (c : Dev nD) (x0 x1 : Cert.ReferenceIdeal.S8x2048x2048.Idx → EReal)
    (hw : (V c main_arg1 : S8x2048x2048.Idx → EReal) = x1)
    (hs : ∀ (e : Fin 8) (d : Fin 2048), (V c main_v8 : S8x1x2048.Idx → EReal) (ix3 e (0 : Fin 1) d) = val_main_v11 (F := Ideal) x0 x1 (ix2 e d))
    (e : Fin 8) (o : Fin 2048) :
    ((dat1 (F := Ideal) V c).arrAt 3 cfg1.N : S8x1x2048.Idx → EReal) (ix3 e (0 : Fin 1) o) = val_main_v31 (F := Ideal) x0 x1 (ix3 e o (0 : Fin 1)) := by
  rw [rowScale_array]
  exact rowScaleW_eq_reference V c x0 x1 hw hs e o

end Cert.KernelIdeal.Bridge.QuantGateUp

end
-- ==== Proof.QuantDown.lean ====
/-
  The second weight quantizer (the down projection's weights), as values on the extended reals.

  Per expert e, row o and column d the region forms the scaled weight ws = w[e,o,d] · s[e,d], the row's scale
  max(max_d |ws|, floor) / 127, and the quantized weight min(127, max(-127, roundeven(ws / scale))). It does so one block of
  256 rows at a time; a row's maximum runs over all the columns of that row and every row lies in exactly one block, so
  nothing is rearranged: each block is the restriction of one function of the whole arrays, and the blocks tile both
  outputs. The reference takes the same maximum as a reduction over the last axis, from minus infinity. Both read as the
  same fold of max over the 1024 columns, so the two sides are the same term; no finiteness of the inputs is used.

  Contents: the body's four stored or shared values read at explicit coordinates; the reference's stages read at explicit
  coordinates; the outputs as functions of the entry arrays (what a point writes back, the tiling, the whole arrays); the
  two outputs against the reference's stages.
-/
import proofs.«179826_j42494406426926_2_alg».proof.Proof.Gen.KernelIdeal.Frame
import proofs.«179826_j42494406426926_2_alg».proof.Proof.Gen.ReferenceIdeal.Read
import proofs.«179826_j42494406426926_2_alg».proof.Proof.LibLayout
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Bridge.QuantDown

open Idealize.ShloMosaic Idealize.ShloMosaic.TcCoe Idealize.ShloMosaic.ValueIdx Idealize.SL.Sem
open Idealize.ShloMosaic.Pipeline (Dat)
open Cert.KernelIdeal Cert.KernelIdeal.Gen Cert.Dist

/-! ## The body's arithmetic, element by element -/

/-- A row index of a matrix with the column put back on the reduced axis. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The scaled weight inside a block: row r, column d of the block times the scale's column d. -/
theorem scaled_apply (v0 : Vec Ideal S1x1x1024 .f32) (v2 : Vec Ideal S1x256x1024 .f32) (r : Fin 256) (d : Fin 1024) :
    k4_pay1 (F := Ideal) v0 v2 (ix2 r d) = v2 (ix3 (0 : Fin 1) r d) * v0 (ix3 (0 : Fin 1) (0 : Fin 1) d) := by
  unfold k4_pay1
  show (shapeCast S256x1024 v2 shapeCasts_S1x256x1024_S256x1024 (ix2 r d) : EReal)
      * broadcastTo S256x1024 (shapeCast S1x1024 v0 shapeCasts_S1x1x1024_S1x1024) broadcasts_S1x1024_S256x1024 (ix2 r d) = _
  exact congrArg₂ (· * ·) (shapeCast_1ab_ab_apply v2 _ r d)
    ((broadcastTo_1b_ab_apply _ _ r d).trans (shapeCast_1ab_ab_apply v0 _ (0 : Fin 1) d))

/-- The scale of row r of a block: the largest magnitude of the row's scaled weights, at least the floor, over 127. -/
theorem rowScale_apply (v0 : Vec Ideal S1x1x1024 .f32) (v2 : Vec Ideal S1x256x1024 .f32) (r : Fin 256) (u : Fin 1) :
    k4_pay2 (F := Ideal) v0 v2 (ix2 r u)
      = Ideal.div (max ((Finset.univ : Finset (Fin 1024)).fold max (Ideal.ofBits .f32 0xFF800000#32)
            (fun d => max (k4_pay1 (F := Ideal) v0 v2 (ix2 r d)) (-(k4_pay1 (F := Ideal) v0 v2 (ix2 r d)))))
          (Ideal.ofBits .f32 0x358637BD#32)) (Ideal.ofBits .f32 0x42FE0000#32) := by
  unfold k4_pay2
  show Ideal.div (max (shapeCast S256x1 (multiReduction (F := Ideal) .maximumf [1] S256 (absf (k4_pay1 (F := Ideal) v0 v2)) 0xFF800000#32
      reduces_S256x1024_S256 (.inl rfl) rfl) shapeCasts_S256_S256x1 (ix2 r u)) (Ideal.ofBits .f32 0x358637BD#32)) (Ideal.ofBits .f32 0x42FE0000#32) = _
  refine congrArg (fun z => Ideal.div (max z (Ideal.ofBits .f32 0x358637BD#32)) (Ideal.ofBits .f32 0x42FE0000#32)) ?_
  refine (shapeCast_a_a1_apply _ _ r u).trans ?_
  refine (Ideal.multiReduction_maximumf_single _ _ _ _ _ (ix1 r)).trans ?_
  refine congrArg (fun f => Finset.fold max (Ideal.ofBits .f32 0xFF800000#32) f (Finset.univ : Finset (Fin 1024))) (funext fun d => ?_)
  show FloatOps.absf (k4_pay1 (F := Ideal) v0 v2 (reduces_S256x1024_S256.lift (ix1 r) d)) = _
  rw [lift_row reduces_S256x1024_S256 r d]
  rfl

/-- The quantized weight inside a block: the scaled weight over its row's scale, rounded to the nearest integer (ties
    to even) and clipped to [-127, 127]. -/
theorem quant_apply (v0 : Vec Ideal S1x1x1024 .f32) (v2 : Vec Ideal S1x256x1024 .f32) (u : Fin 1) (r : Fin 256) (d : Fin 1024) :
    k4_pay3 (F := Ideal) v0 v2 (ix3 u r d)
      = min (Ideal.ofBits .f32 0x42FE0000#32) (max (Ideal.ofBits .f32 0xC2FE0000#32)
          (Ideal.liftRound Ideal.roundHalfEven (Ideal.div (k4_pay1 (F := Ideal) v0 v2 (ix2 r d)) (k4_pay2 (F := Ideal) v0 v2 (ix2 r (0 : Fin 1)))))) := by
  unfold k4_pay3
  refine (shapeCast_ab_1ab_apply _ _ u r d).trans ?_
  show min (Ideal.ofBits .f32 0x42FE0000#32) (max (Ideal.ofBits .f32 0xC2FE0000#32)
          (Ideal.liftRound Ideal.roundHalfEven (Ideal.div (k4_pay1 (F := Ideal) v0 v2 (ix2 r d))
            (broadcastTo S256x1024 (k4_pay2 (F := Ideal) v0 v2) broadcasts_S256x1_S256x1024 (ix2 r d))))) = _
  rw [broadcastTo_a1_ab_apply (k4_pay2 (F := Ideal) v0 v2) broadcasts_S256x1_S256x1024 r d]

/-- The block of row scales the body stores, laid along the lanes: entry r is row r's scale. -/
theorem rowScaleT_apply (v0 : Vec Ideal S1x1x1024 .f32) (v2 : Vec Ideal S1x256x1024 .f32) (u0 u1 : Fin 1) (r : Fin 256) :
    k4_pay4 (F := Ideal) v0 v2 (ix3 u0 u1 r) = k4_pay2 (F := Ideal) v0 v2 (ix2 r (0 : Fin 1)) := by
  unfold k4_pay4
  refine (shapeCast_ab_1ab_apply _ _ u0 u1 r).trans ?_
  refine (transpose_ix2_apply (k4_pay2 (F := Ideal) v0 v2) transposes_S256x1_p1_0_S1x256 u1 r).trans ?_
  have hu : u1 = (0 : Fin 1) := Subsingleton.elim _ _
  rw [hu]

/-! ## The reference's stages, element by element -/

/-- An index of the reduced array with the coordinate of the reduced last axis put back. -/
theorem lift_last {a b c : ℕ} (h : (⟨3, ![a, b, c]⟩ : Shape).Reduces [2] (⟨2, ![a, b]⟩ : Shape)) (e : Fin a) (o : Fin b)
    (k : Fin ((⟨3, ![a, b, c]⟩ : Shape).size 2)) : h.lift (ix2 e o) k = ix3 e o (⟨k.val, k.isLt⟩ : Fin c) := by
  funext x; apply Fin.ext
  fin_cases x <;> rfl

theorem reduces_last : Cert.ReferenceIdeal.S8x2048x1024.Reduces [2] Cert.ReferenceIdeal.S8x2048 := by decide

open Cert.ReferenceIdeal.Read in
/-- The reference's scaled weight. -/
theorem ref_scaled_apply (x0 x1 : Cert.ReferenceIdeal.S8x2048x2048.Idx → EReal) (x2 : Cert.ReferenceIdeal.S8x2048x1024.Idx → EReal) (e : Fin 8) (o : Fin 2048) (d : Fin 1024) :
    val_main_v68 (F := Ideal) x0 x1 x2 (ix3 e o d) = x2 (ix3 e o d) * val_main_v62 (F := Ideal) x0 x1 x2 (ix2 e d) := by
  rw [val_main_v68_apply, val_main_v67_apply, val_main_v66_apply]
  refine congrArg (fun z => x2 (ix3 e o d) * val_main_v62 (F := Ideal) x0 x1 x2 z) ?_
  funext a; apply Fin.ext
  match a with
  | ⟨0, _⟩ => rfl
  | ⟨1, _⟩ => rfl

open Cert.ReferenceIdeal.Read in
/-- The reference's row scale. -/
theorem ref_rowScale_apply (x0 x1 : Cert.ReferenceIdeal.S8x2048x2048.Idx → EReal) (x2 : Cert.ReferenceIdeal.S8x2048x1024.Idx → EReal) (e : Fin 8) (o : Fin 2048) (u : Fin 1) :
    val_main_v82 (F := Ideal) x0 x1 x2 (ix3 e o u)
      = Ideal.div (max ((Finset.univ : Finset (Fin 1024)).fold max (Ideal.ofBits .f32 0xFF800000#32)
            (fun d => max (val_main_v68 (F := Ideal) x0 x1 x2 (ix3 e o d)) (-(val_main_v68 (F := Ideal) x0 x1 x2 (ix3 e o d)))))
          (Ideal.ofBits .f32 0x358637BD#32)) (Ideal.ofBits .f32 0x42FE0000#32) := by
  rw [val_main_v82_apply, val_main_v80_apply, val_main_v78_apply, val_main_v79_apply, val_main_v81_apply]
  show Ideal.div (max (val_main_v77 (F := Ideal) x0 x1 x2 (idx_main_v78 (ix3 e o u))) (Ideal.ofBits .f32 0x358637BD#32)) (Ideal.ofBits .f32 0x42FE0000#32) = _
  refine congrArg (fun z => Ideal.div (max z (Ideal.ofBits .f32 0x358637BD#32)) (Ideal.ofBits .f32 0x42FE0000#32)) ?_
  have hi : idx_main_v78 (ix3 e o u) = ix2 e o := by
    funext a; apply Fin.ext
    match a with
    | ⟨0, _⟩ => rfl
    | ⟨1, _⟩ => rfl
  rw [hi]
  unfold val_main_v77
  refine (Host.reduce_eq_fold_single FloatOps.maximumf _ _ _ reduces_last _ (ix2 e o)).trans ?_
  refine congrArg (fun f => Finset.fold max (Ideal.ofBits .f32 0xFF800000#32) f (Finset.univ : Finset (Fin 1024))) (funext fun d => ?_)
  show max (val_main_v68 (F := Ideal) x0 x1 x2 (reduces_last.lift (ix2 e o) d) : EReal) (-(val_main_v68 (F := Ideal) x0 x1 x2 (reduces_last.lift (ix2 e o) d) : EReal)) = _
  rw [lift_last reduces_last e o d]
  rfl

open Cert.ReferenceIdeal.Read in
/-- The reference's quantized weight. -/
theorem ref_quant_apply (x0 x1 : Cert.ReferenceIdeal.S8x2048x2048.Idx → EReal) (x2 : Cert.ReferenceIdeal.S8x2048x1024.Idx → EReal) (e : Fin 8) (o : Fin 2048) (d : Fin 1024) :
    val_main_v90 (F := Ideal) x0 x1 x2 (ix3 e o d)
      = min (Ideal.ofBits .f32 0x42FE0000#32) (max (Ideal.ofBits .f32 0xC2FE0000#32)
          (Ideal.liftRound Ideal.roundHalfEven (Ideal.div (val_main_v68 (F := Ideal) x0 x1 x2 (ix3 e o d)) (val_main_v82 (F := Ideal) x0 x1 x2 (ix3 e o (0 : Fin 1)))))) := by
  rw [val_main_v90_apply, val_main_call8_v4_apply, val_main_call8_v2_apply, val_main_call8_v1_apply, val_main_v89_apply, val_main_v88_apply, val_main_v87_apply]
  show min (Ideal.ofBits .f32 0x42FE0000#32) (max (Ideal.ofBits .f32 0xC2FE0000#32)
          (Ideal.liftRound Ideal.roundHalfEven (Ideal.div (val_main_v68 (F := Ideal) x0 x1 x2 (ix3 e o d)) (val_main_v82 (F := Ideal) x0 x1 x2 (idx_main_v87 (ix3 e o d)))))) = _
  have hi : idx_main_v87 (ix3 e o d) = ix3 e o (0 : Fin 1) := by
    funext a; apply Fin.ext
    match a with
    | ⟨0, _⟩ => rfl
    | ⟨1, _⟩ => rfl
    | ⟨2, _⟩ => rfl
  rw [hi]

/-! ## The two quantizer outputs as functions of the whole arrays -/

/-- The scaled weight at expert e, row o, column d: the weight times the smoothing scale of its column. -/
def scaledW (w : S8x2048x1024.Idx → EReal) (s : S8x1x1024.Idx → EReal) (e : Fin 8) (o : Fin 2048) (d : Fin 1024) : EReal :=
  w (ix3 e o d) * s (ix3 e (0 : Fin 1) d)

/-- The scale of row o of expert e: the largest magnitude along the row, at least the floor, over 127. -/
def rowScaleW (w : S8x2048x1024.Idx → EReal) (s : S8x1x1024.Idx → EReal) (e : Fin 8) (o : Fin 2048) : EReal :=
  Ideal.div (max ((Finset.univ : Finset (Fin 1024)).fold max (Ideal.ofBits .f32 0xFF800000#32)
      (fun d => max (scaledW w s e o d) (-(scaledW w s e o d))))
    (Ideal.ofBits .f32 0x358637BD#32)) (Ideal.ofBits .f32 0x42FE0000#32)

/-- The quantized weight: the scaled weight over its row's scale, rounded (ties to even), clipped to [-127, 127]. -/
def quantW (w : S8x2048x1024.Idx → EReal) (s : S8x1x1024.Idx → EReal) (e : Fin 8) (o : Fin 2048) (d : Fin 1024) : EReal :=
  min (Ideal.ofBits .f32 0x42FE0000#32) (max (Ideal.ofBits .f32 0xC2FE0000#32)
    (Ideal.liftRound Ideal.roundHalfEven (Ideal.div (scaledW w s e o d) (rowScaleW w s e o))))

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: the weight block and the quantized block sit at the same place (expert, row
    tile), the smoothing scale's block is the expert's, and the row scales' block is (expert, 0, row tile). -/
theorem idx_facts : ∀ t : Fin cfg4.N,
    win4_0.index t (0 : Fin 3) = win4_2.index t (0 : Fin 3) ∧ win4_0.index t (1 : Fin 3) = win4_2.index t (1 : Fin 3)
    ∧ win4_0.index t (2 : Fin 3) = 0
    ∧ win4_1.index t (0 : Fin 3) = win4_2.index t (0 : Fin 3) ∧ win4_1.index t (1 : Fin 3) = 0 ∧ win4_1.index t (2 : Fin 3) = 0
    ∧ win4_3.index t (0 : Fin 3) = win4_2.index t (0 : Fin 3) ∧ win4_3.index t (1 : Fin 3) = 0
    ∧ win4_3.index t (2 : Fin 3) = win4_2.index t (1 : Fin 3)
    ∧ win4_2.index t (0 : Fin 3) ≤ 7 ∧ win4_2.index t (1 : Fin 3) ≤ 7 ∧ win4_2.index t (2 : Fin 3) = 0 :=
  (by decide +kernel : ∀ t : Fin grid4.N, _)

/-- Every (expert, row tile) is some point's. -/
theorem idx_onto : ∀ (q0 : Fin 8) (q1 : Fin 8), ∃ t : Fin cfg4.N, win4_2.index t = ![q0.val, q1.val, 0] :=
  (by decide +kernel : ∀ (q0 : Fin 8) (q1 : Fin 8), ∃ t : Fin grid4.N, win4_2.index t = ![q0.val, q1.val, 0])

/-- The weight block at point t, at (0, r, d), is the weight array at (expert, 256·tile + r, d). -/
theorem wblock_apply (c : Dev nD) (t : Fin cfg4.N) (u : Fin 1) (r : Fin 256) (d : Fin 1024) (e : Fin 8) (o : Fin 2048)
    (he : e.val = win4_2.index t (0 : Fin 3)) (ho : o.val = win4_2.index t (1 : Fin 3) * 256 + r.val) :
    (iblk4 V c 0 t : Vec Ideal S1x256x1024 .f32) (ix3 u r d) = (V c main_arg2 : S8x2048x1024.Idx → EReal) (ix3 e o d) := by
  obtain ⟨e0, e1, e2, -⟩ := idx_facts t
  unfold iblk4
  rw [View.read_apply]
  show (V c main_arg2 : S8x2048x1024.Idx → EReal) _ = _
  congr 1
  funext a; apply Fin.ext
  have hu : u.val = 0 := by omega
  match a with
  | ⟨0, _⟩ => show win4_0.index t (0 : Fin 3) * 1 + 1 * u.val = e.val; omega
  | ⟨1, _⟩ => show win4_0.index t (1 : Fin 3) * 256 + 1 * r.val = o.val; omega
  | ⟨2, _⟩ => show win4_0.index t (2 : Fin 3) * 1024 + 1 * d.val = d.val; omega

/-- The smoothing scale's block at point t, at (0, 0, d), is the scale array at (expert, 0, d). -/
theorem sblock_apply (c : Dev nD) (t : Fin cfg4.N) (u0 u1 : Fin 1) (d : Fin 1024) (e : Fin 8)
    (he : e.val = win4_2.index t (0 : Fin 3)) :
    (iblk4 V c 1 t : Vec Ideal S1x1x1024 .f32) (ix3 u0 u1 d) = (V c main_v19 : S8x1x1024.Idx → EReal) (ix3 e (0 : Fin 1) d) := by
  obtain ⟨-, -, -, e3, e4, e5, -⟩ := idx_facts t
  unfold iblk4
  rw [View.read_apply]
  show (V c main_v19 : S8x1x1024.Idx → EReal) _ = _
  congr 1
  funext a; apply Fin.ext
  have hu0 : u0.val = 0 := by omega
  have hu1 : u1.val = 0 := by omega
  match a with
  | ⟨0, _⟩ => show win4_1.index t (0 : Fin 3) * 1 + 1 * u0.val = e.val; omega
  | ⟨1, _⟩ => show win4_1.index t (1 : Fin 3) * 1 + 1 * u1.val = 0; omega
  | ⟨2, _⟩ => show win4_1.index t (2 : Fin 3) * 1024 + 1 * d.val = d.val; omega

/-- The scaled weight the body forms at point t, at (r, d), is the whole arrays' at (expert, 256·tile + r, d). -/
theorem scaled_blk (c : Dev nD) (t : Fin cfg4.N) (r : Fin 256) (d : Fin 1024) (e : Fin 8) (o : Fin 2048)
    (he : e.val = win4_2.index t (0 : Fin 3)) (ho : o.val = win4_2.index t (1 : Fin 3) * 256 + r.val) :
    k4_pay1 (F := Ideal) (iblk4 V c 1 t) (iblk4 V c 0 t) (ix2 r d) = scaledW (V c main_arg2) (V c main_v19) e o d :=
  (scaled_apply (iblk4 V c 1 t) (iblk4 V c 0 t) r d).trans
    (congrArg₂ (· * ·) (wblock_apply V c t (0 : Fin 1) r d e o he ho) (sblock_apply V c t (0 : Fin 1) (0 : Fin 1) d e he))

/-- The row scale the body forms at point t, for row r of its block, is the whole arrays' row scale of row 256·tile + r. -/
theorem rowScale_blk (c : Dev nD) (t : Fin cfg4.N) (r : Fin 256) (u : Fin 1) (e : Fin 8) (o : Fin 2048)
    (he : e.val = win4_2.index t (0 : Fin 3)) (ho : o.val = win4_2.index t (1 : Fin 3) * 256 + r.val) :
    k4_pay2 (F := Ideal) (iblk4 V c 1 t) (iblk4 V c 0 t) (ix2 r u) = rowScaleW (V c main_arg2) (V c main_v19) e o :=
  (rowScale_apply (iblk4 V c 1 t) (iblk4 V c 0 t) r u).trans
    (congrArg (fun f => Ideal.div (max ((Finset.univ : Finset (Fin 1024)).fold max (Ideal.ofBits .f32 0xFF800000#32) f)
        (Ideal.ofBits .f32 0x358637BD#32)) (Ideal.ofBits .f32 0x42FE0000#32))
      (funext fun d => by rw [scaled_blk V c t r d e o he ho]))

/-- WHAT POINT t WRITES BACK to the quantized weights is block t of the quantized weight of the whole arrays. -/
theorem flushed_quant (c : Dev nD) (t : Fin cfg4.N) :
    (dat4 (F := Ideal) V c).flushed 2 t
      = ((cfg4.win 2).blk t).view.read (Elt Ideal) (fun j : S8x2048x1024.Idx => quantW (V c main_arg2) (V c main_v19) (j 0) (j 1) (j 2)) := by
  show (cfg4.win 2).cut (grid4.coords t) ((dat4 V c).after 2 t) = _
  rw [after4_2]
  unfold out4_2
  rw [View.canon_unit_zero hz3]
  simp only [View.ld_unit_zero (S := S1x256x1024) hz3, View.ld_unit_zero (S := S1x1x1024) hz3]
  funext j
  obtain ⟨u, r, d, rfl⟩ : ∃ (u : Fin 1) (r : Fin 256) (d : Fin 1024), j = ix3 u r d := ⟨j 0, j 1, j 2, eq_ix3 j⟩
  obtain ⟨-, -, -, -, -, -, -, -, -, b0, b1, b2⟩ := idx_facts t
  have hu : u.val = 0 := by omega
  have he : (((cfg4.win 2).blk t).view.emb (ix3 u r d) (0 : Fin 3)).val = win4_2.index t (0 : Fin 3) := by
    show win4_2.index t (0 : Fin 3) * 1 + 1 * u.val = _; omega
  have ho : (((cfg4.win 2).blk t).view.emb (ix3 u r d) (1 : Fin 3)).val = win4_2.index t (1 : Fin 3) * 256 + r.val := by
    show win4_2.index t (1 : Fin 3) * 256 + 1 * r.val = _; omega
  have hd : ((cfg4.win 2).blk t).view.emb (ix3 u r d) (2 : Fin 3) = d := by
    apply Fin.ext; show win4_2.index t (2 : Fin 3) * 1024 + 1 * d.val = _; omega
  show k4_pay3 (F := Ideal) (iblk4 V c 1 t) (iblk4 V c 0 t) (ix3 u r d)
    = quantW (V c main_arg2) (V c main_v19) (((cfg4.win 2).blk t).view.emb (ix3 u r d) (0 : Fin 3))
        (((cfg4.win 2).blk t).view.emb (ix3 u r d) (1 : Fin 3)) (((cfg4.win 2).blk t).view.emb (ix3 u r d) (2 : Fin 3))
  refine (quant_apply (iblk4 V c 1 t) (iblk4 V c 0 t) u r d).trans ?_
  rw [hd]
  unfold quantW
  rw [scaled_blk V c t r d _ _ he ho, rowScale_blk V c t r (0 : Fin 1) _ _ he ho]

/-- An index of the quantized weights is in point t's block iff each coordinate is in the block's range. -/
theorem mem_blk_quant (t : Fin cfg4.N) (i : S8x2048x1024.Idx) :
    i ∈ ((cfg4.win 2).blk t).view.set ↔ ∀ a : Fin 3, win4_2.index t a * S1x256x1024.size a ≤ (i a).val ∧ (i a).val < win4_2.index t a * S1x256x1024.size a + S1x256x1024.size a := by
  show i ∈ ((View.whole main_v20_0).slice (win4_2.rect t)).set ↔ _
  rw [View.set_slice_whole, Rect.mem_set_unit]
  exact Iff.rfl

/-- Every index of the quantized weights is in the block of the point of its expert and row tile. -/
theorem cover_quant (i : S8x2048x1024.Idx) :
    ∃ t : Fin cfg4.N, (cfg4.win 2).flush t = true ∧ i ∈ ((cfg4.win 2).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win4_2.index t (0 : Fin 3) = (i 0).val := congrFun ht 0
  have q1 : win4_2.index t (1 : Fin 3) = (i 1).val / 256 := congrFun ht 1
  have q2 : win4_2.index t (2 : Fin 3) = 0 := congrFun ht 2
  refine ⟨t, flush4_2 t, ?_⟩
  rw [mem_blk_quant]
  intro a
  match a with
  | ⟨0, _⟩ => show win4_2.index t (0 : Fin 3) * 1 ≤ (i 0).val ∧ (i 0).val < win4_2.index t (0 : Fin 3) * 1 + 1; omega
  | ⟨1, _⟩ => show win4_2.index t (1 : Fin 3) * 256 ≤ (i 1).val ∧ (i 1).val < win4_2.index t (1 : Fin 3) * 256 + 256; omega
  | ⟨2, _⟩ => show win4_2.index t (2 : Fin 3) * 1024 ≤ (i 2).val ∧ (i 2).val < win4_2.index t (2 : Fin 3) * 1024 + 1024; omega

/-- THE QUANTIZED WEIGHTS after the region: the quantized weight of the entry arrays, index by index. -/
theorem quant_array (c : Dev nD) :
    (dat4 (F := Ideal) V c).arrAt 2 cfg4.N = fun j : S8x2048x1024.Idx => quantW (V c main_arg2) (V c main_v19) (j 0) (j 1) (j 2) :=
  (dat4 (F := Ideal) V c).arrAt_eq_of_cover 2 _ (fun t _ => flushed_quant V c t) cover_quant

/-- WHAT POINT t WRITES BACK to the row scales is block t of the row scale of the whole arrays, laid along the lanes. -/
theorem flushed_rowScale (c : Dev nD) (t : Fin cfg4.N) :
    (dat4 (F := Ideal) V c).flushed 3 t
      = ((cfg4.win 3).blk t).view.read (Elt Ideal) (fun j : S8x1x2048.Idx => rowScaleW (V c main_arg2) (V c main_v19) (j 0) (j 2)) := by
  show (cfg4.win 3).cut (grid4.coords t) ((dat4 V c).after 3 t) = _
  rw [after4_3]
  unfold out4_3
  rw [View.canon_unit_zero hz3]
  simp only [View.ld_unit_zero (S := S1x256x1024) hz3, View.ld_unit_zero (S := S1x1x1024) hz3]
  funext j
  obtain ⟨u0, u1, r, rfl⟩ : ∃ (u0 u1 : Fin 1) (r : Fin 256), j = ix3 u0 u1 r := ⟨j 0, j 1, j 2, eq_ix3 j⟩
  obtain ⟨-, -, -, -, -, -, f0, f1, f2, b0, b1, b2⟩ := idx_facts t
  have hu0 : u0.val = 0 := by omega
  have he : (((cfg4.win 3).blk t).view.emb (ix3 u0 u1 r) (0 : Fin 3)).val = win4_2.index t (0 : Fin 3) := by
    show win4_3.index t (0 : Fin 3) * 1 + 1 * u0.val = _; omega
  have ho : (((cfg4.win 3).blk t).view.emb (ix3 u0 u1 r) (2 : Fin 3)).val = win4_2.index t (1 : Fin 3) * 256 + r.val := by
    show win4_3.index t (2 : Fin 3) * 256 + 1 * r.val = _; omega
  show k4_pay4 (F := Ideal) (iblk4 V c 1 t) (iblk4 V c 0 t) (ix3 u0 u1 r)
    = rowScaleW (V c main_arg2) (V c main_v19) (((cfg4.win 3).blk t).view.emb (ix3 u0 u1 r) (0 : Fin 3))
        (((cfg4.win 3).blk t).view.emb (ix3 u0 u1 r) (2 : Fin 3))
  refine (rowScaleT_apply (iblk4 V c 1 t) (iblk4 V c 0 t) u0 u1 r).trans ?_
  exact rowScale_blk V c t r (0 : Fin 1) _ _ he ho

/-- An index of the row scales is in point t's block iff each coordinate is in the block's range. -/
theorem mem_blk_rowScale (t : Fin cfg4.N) (i : S8x1x2048.Idx) :
    i ∈ ((cfg4.win 3).blk t).view.set ↔ ∀ a : Fin 3, win4_3.index t a * S1x1x256.size a ≤ (i a).val ∧ (i a).val < win4_3.index t a * S1x1x256.size a + S1x1x256.size a := by
  show i ∈ ((View.whole main_v20_1).slice (win4_3.rect t)).set ↔ _
  rw [View.set_slice_whole, Rect.mem_set_unit]
  exact Iff.rfl

/-- Every index of the row scales is in the block of the point of its expert and row tile. -/
theorem cover_rowScale (i : S8x1x2048.Idx) :
    ∃ t : Fin cfg4.N, (cfg4.win 3).flush t = true ∧ i ∈ ((cfg4.win 3).blk t).view.set := by
  have hi0 : (i 0).val < 8 := (i 0).isLt
  have hi1 : (i 1).val < 1 := (i 1).isLt
  have hi2 : (i 2).val < 2048 := (i 2).isLt
  obtain ⟨t, ht⟩ := idx_onto ⟨(i 0).val, hi0⟩ ⟨(i 2).val / 256, by omega⟩
  have q0 : win4_2.index t (0 : Fin 3) = (i 0).val := congrFun ht 0
  have q1 : win4_2.index t (1 : Fin 3) = (i 2).val / 256 := congrFun ht 1
  obtain ⟨-, -, -, -, -, -, f0, f1, f2, -⟩ := idx_facts t
  refine ⟨t, flush4_3 t, ?_⟩
  rw [mem_blk_rowScale]
  intro a
  match a with
  | ⟨0, _⟩ => show win4_3.index t (0 : Fin 3) * 1 ≤ (i 0).val ∧ (i 0).val < win4_3.index t (0 : Fin 3) * 1 + 1; omega
  | ⟨1, _⟩ => show win4_3.index t (1 : Fin 3) * 1 ≤ (i 1).val ∧ (i 1).val < win4_3.index t (1 : Fin 3) * 1 + 1; omega
  | ⟨2, _⟩ => show win4_3.index t (2 : Fin 3) * 256 ≤ (i 2).val ∧ (i 2).val < win4_3.index t (2 : Fin 3) * 256 + 256; omega

/-- THE ROW SCALES after the region: the row scale of the entry arrays, one expert's rows along the lanes. -/
theorem rowScale_array (c : Dev nD) :
    (dat4 (F := Ideal) V c).arrAt 3 cfg4.N = fun j : S8x1x2048.Idx => rowScaleW (V c main_arg2) (V c main_v19) (j 0) (j 2) :=
  (dat4 (F := Ideal) V c).arrAt_eq_of_cover 3 _ (fun t _ => flushed_rowScale V c t) cover_rowScale

/-! ## Against the reference -/

open Cert.ReferenceIdeal.Read in
/-- With the weight array and the smoothing scale at the reference's, the scaled weight is the reference's. -/
theorem scaledW_eq_reference (c : Dev nD) (x0 x1 : Cert.ReferenceIdeal.S8x2048x2048.Idx → EReal) (x2 : Cert.ReferenceIdeal.S8x2048x1024.Idx → EReal)
    (hw : (V c main_arg2 : S8x2048x1024.Idx → EReal) = x2)
    (hs : ∀ (e : Fin 8) (d : Fin 1024), (V c main_v19 : S8x1x1024.Idx → EReal) (ix3 e (0 : Fin 1) d) = val_main_v62 (F := Ideal) x0 x1 x2 (ix2 e d))
    (e : Fin 8) (o : Fin 2048) (d : Fin 1024) :
    scaledW (V c main_arg2) (V c main_v19) e o d = val_main_v68 (F := Ideal) x0 x1 x2 (ix3 e o d) := by
  rw [ref_scaled_apply]; unfold scaledW; rw [hs e d, hw]

open Cert.ReferenceIdeal.Read in
/-- … and so is each row's scale, -/
theorem rowScaleW_eq_reference (c : Dev nD) (x0 x1 : Cert.ReferenceIdeal.S8x2048x2048.Idx → EReal) (x2 : Cert.ReferenceIdeal.S8x2048x1024.Idx → EReal)
    (hw : (V c main_arg2 : S8x2048x1024.Idx → EReal) = x2)
    (hs : ∀ (e : Fin 8) (d : Fin 1024), (V c main_v19 : S8x1x1024.Idx → EReal) (ix3 e (0 : Fin 1) d) = val_main_v62 (F := Ideal) x0 x1 x2 (ix2 e d))
    (e : Fin 8) (o : Fin 2048) :
    rowScaleW (V c main_arg2) (V c main_v19) e o = val_main_v82 (F := Ideal) x0 x1 x2 (ix3 e o (0 : Fin 1)) := by
  rw [ref_rowScale_apply]; unfold rowScaleW
  simp only [scaledW_eq_reference V c x0 x1 x2 hw hs]

open Cert.ReferenceIdeal.Read in
/-- THE QUANTIZED WEIGHTS the region leaves are the reference's clipped rounded quotient, as whole arrays. -/
theorem quant_eq_reference (c : Dev nD) (x0 x1 : Cert.ReferenceIdeal.S8x2048x2048.Idx → EReal) (x2 : Cert.ReferenceIdeal.S8x2048x1024.Idx → EReal)
    (hw : (V c main_arg2 : S8x2048x1024.Idx → EReal) = x2)
    (hs : ∀ (e : Fin 8) (d : Fin 1024), (V c main_v19 : S8x1x1024.Idx → EReal) (ix3 e (0 : Fin 1) d) = val_main_v62 (F := Ideal) x0 x1 x2 (ix2 e d)) :
    ((dat4 (F := Ideal) V c).arrAt 2 cfg4.N : S8x2048x1024.Idx → EReal) = val_main_v90 (F := Ideal) x0 x1 x2 := by
  rw [quant_array]
  funext j
  obtain ⟨e, o, d, rfl⟩ : ∃ (e : Fin 8) (o : Fin 2048) (d : Fin 1024), j = ix3 e o d := ⟨j 0, j 1, j 2, eq_ix3 j⟩
  show quantW (V c main_arg2) (V c main_v19) e o d = _
  rw [ref_quant_apply]; unfold quantW
  rw [scaledW_eq_reference V c x0 x1 x2 hw hs, rowScaleW_eq_reference V c x0 x1 x2 hw hs]

open Cert.ReferenceIdeal.Read in
/-- THE ROW SCALES the region leaves, at (expert, 0, row), are the reference's at (expert, row, 0). -/
theorem rowScale_eq_reference (c : Dev nD) (x0 x1 : Cert.ReferenceIdeal.S8x2048x2048.Idx → EReal) (x2 : Cert.ReferenceIdeal.S8x2048x1024.Idx → EReal)
    (hw : (V c main_arg2 : S8x2048x1024.Idx → EReal) = x2)
    (hs : ∀ (e : Fin 8) (d : Fin 1024), (V c main_v19 : S8x1x1024.Idx → EReal) (ix3 e (0 : Fin 1) d) = val_main_v62 (F := Ideal) x0 x1 x2 (ix2 e d))
    (e : Fin 8) (o : Fin 2048) :
    ((dat4 (F := Ideal) V c).arrAt 3 cfg4.N : S8x1x2048.Idx → EReal) (ix3 e (0 : Fin 1) o) = val_main_v82 (F := Ideal) x0 x1 x2 (ix3 e o (0 : Fin 1)) := by
  rw [rowScale_array]
  exact rowScaleW_eq_reference V c x0 x1 x2 hw hs e o

end Cert.KernelIdeal.Bridge.QuantDown

end
-- ==== Proof.LibMaxTiles.lean ====
/-
  Maxima taken tile by tile.

  A column maximum over many rows may be taken in one fold, or tile by tile: a running value starts at some
  `z`, and each tile replaces it by the larger of it and the tile's own maximum. Over a linear order the two agree
  as soon as `z` is below some entry (a zero under absolute values, say): `max` is associative, commutative and
  idempotent, so only the SET of entries met matters. Everything here is stated by the universal property of a
  maximum — `a ≤ c` exactly when every entry met so far is `≤ c` — so no order of folding is ever named.

    fold_max_tiles       one fold over all rows is the fold, over the tiles, of the folds over each tile's rows
    IsRunningMax         `a` is the largest of `z`, `b` and the entries `f x` with `P x` (`P`: the rows met so far)
    IsRunningMax.first   the first tile: `max z (tile's fold)`
    IsRunningMax.step    one more tile: `max a (tile's fold)`
    IsRunningMax.eq_fold all rows met, and `z` below some entry: the running value IS the one fold
-/
import Mathlib.Data.Finset.Fold
import Mathlib.Data.Fintype.Basic
import Mathlib.Order.Basic

namespace Cert.KernelIdeal.Bridge

variable {α : Type*} [LinearOrder α]

/-- One fold of `max` over all of `ρ` is the fold over the tiles `ι` of the folds over each tile's rows `κ`, for any
    way `e` of naming every element of `ρ` by a tile and a row in it (at least once), from any starting value `b`. -/
theorem fold_max_tiles {ι κ ρ : Type*} [Fintype ι] [Fintype κ] [Fintype ρ] (e : ι → κ → ρ)
    (he : ∀ x : ρ, ∃ i k, e i k = x) (b : α) (f : ρ → α) :
    (Finset.univ : Finset ρ).fold max b f
      = (Finset.univ : Finset ι).fold max b fun i => (Finset.univ : Finset κ).fold max b fun k => f (e i k) := by
  refine eq_of_forall_ge_iff fun c => ?_
  simp only [Finset.fold_max_le, Finset.mem_univ, forall_true_left]
  constructor
  · rintro ⟨hb, h⟩
    exact ⟨hb, fun i => ⟨hb, fun k => h _⟩⟩
  · rintro ⟨hb, h⟩
    exact ⟨hb, fun x => by obtain ⟨i, k, rfl⟩ := he x; exact (h i).2 k⟩

/-- `a` is the largest of `z`, `b` and the entries `f x` at the `x` with `P x`: it is below `c` exactly when they all are. -/
def IsRunningMax {ρ : Type*} (a z b : α) (P : ρ → Prop) (f : ρ → α) : Prop :=
  ∀ c, a ≤ c ↔ z ≤ c ∧ b ≤ c ∧ ∀ x, P x → f x ≤ c

/-- The first tile: from `z`, the larger of `z` and the tile's fold (from `b`) over its rows `κ`, the tile's rows
    being the `x` with `P x`. -/
theorem IsRunningMax.first {κ ρ : Type*} [Fintype κ] (z b : α) (P : ρ → Prop) (f : ρ → α) (e : κ → ρ) (g : κ → α)
    (hg : ∀ k, g k = f (e k)) (hP : ∀ x, P x ↔ ∃ k, e k = x) :
    IsRunningMax (max z ((Finset.univ : Finset κ).fold max b g)) z b P f := by
  intro c
  simp only [max_le_iff, Finset.fold_max_le, Finset.mem_univ, forall_true_left]
  constructor
  · rintro ⟨hzc, hbc, h⟩
    exact ⟨hzc, hbc, fun x hx => by obtain ⟨k, rfl⟩ := (hP x).1 hx; rw [← hg]; exact h k⟩
  · rintro ⟨hzc, hbc, h⟩
    exact ⟨hzc, hbc, fun k => by rw [hg]; exact h _ ((hP _).2 ⟨k, rfl⟩)⟩

/-- One more tile: the larger of the running value and the tile's fold; the rows met are the old ones and the tile's. -/
theorem IsRunningMax.step {κ ρ : Type*} [Fintype κ] {a z b : α} {P : ρ → Prop} {f : ρ → α} (h : IsRunningMax a z b P f)
    (P' : ρ → Prop) (e : κ → ρ) (g : κ → α) (hg : ∀ k, g k = f (e k)) (hP : ∀ x, P' x ↔ P x ∨ ∃ k, e k = x) :
    IsRunningMax (max a ((Finset.univ : Finset κ).fold max b g)) z b P' f := by
  intro c
  simp only [max_le_iff, Finset.fold_max_le, Finset.mem_univ, forall_true_left, h c]
  constructor
  · rintro ⟨⟨hzc, hbc, h1⟩, -, h2⟩
    refine ⟨hzc, hbc, fun x hx => ?_⟩
    rcases (hP x).1 hx with hx | ⟨k, rfl⟩
    · exact h1 x hx
    · rw [← hg]; exact h2 k
  · rintro ⟨hzc, hbc, h1⟩
    exact ⟨⟨hzc, hbc, fun x hx => h1 x ((hP x).2 (Or.inl hx))⟩, hbc,
      fun k => by rw [hg]; exact h1 _ ((hP _).2 (Or.inr ⟨k, rfl⟩))⟩

/-- All rows met, and `z` below some entry: the running value is the one fold of `max` from `b` over all of `ρ`. -/
theorem IsRunningMax.eq_fold {ρ : Type*} [Fintype ρ] {a z b : α} {P : ρ → Prop} {f : ρ → α} (h : IsRunningMax a z b P f)
    (hP : ∀ x, P x) (hz : ∃ x, z ≤ f x) : a = (Finset.univ : Finset ρ).fold max b f := by
  refine eq_of_forall_ge_iff fun c => ?_
  simp only [h c, Finset.fold_max_le, Finset.mem_univ, forall_true_left]
  constructor
  · rintro ⟨-, hbc, h1⟩
    exact ⟨hbc, fun x => h1 x (hP x)⟩
  · rintro ⟨hbc, h1⟩
    obtain ⟨x, hx⟩ := hz
    exact ⟨hx.trans (h1 x), hbc, fun x _ => h1 x⟩

end Cert.KernelIdeal.Bridge
-- ==== Proof.LibColumnMax.lean ====
/-
  Column maxima at the extended reals, read at an index.

  A maximum-reduction over the rows of a block (the kernel's) and a reduce with a maximum body over the middle axis of a
  stack of matrices (the reference's) are both, at a column, the fold of `max` over that column's entries from the value
  of the starting word; and an absolute value `max a (-a)` is never negative.

    lift_row        a column index with row `k` put back is `(k, t)`
    colMax_apply    a block's maximum-reduction over its rows, at column `t`
    lift_mid        an index `(e, d)` with row `k` put back on the middle axis is `(e, k, d)`
    hostMidMax_apply  the reference's reduce with a maximum body over the middle axis, at `(e, d)`
    zero_le_abs     `0 ≤ max a (-a)`
-/
import Idealize.ShloMosaic.PureOps.Ideal.Laws
import Idealize.ShloMosaic.Lib.ValueIdx

open Idealize.ShloMosaic Idealize.ShloMosaic.ValueIdx

namespace Cert.KernelIdeal.Bridge

/-- The reduced index `t` of a column, with row `k` put back, is `(k, t)`. -/
theorem lift_row {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext a
  apply Fin.ext
  fin_cases a <;> rfl

/-- A maximum-reduction of an `m × n` block over its rows is, at column `t`, the fold of `max` over the column's entries
    from the value of the starting word. -/
theorem colMax_apply {m n : Nat} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.maximumf.neutral .f32 hφ) (t : Fin n) :
    multiReduction (F := Ideal) .maximumf [0] ⟨1, ![n]⟩ src acc h hφ hacc (ix1 t)
      = (Finset.univ : Finset (Fin m)).fold max (Ideal.ofBits .f32 acc) fun r => src (ix2 r t) := by
  refine (Ideal.multiReduction_maximumf_single src acc h hφ hacc (ix1 t)).trans ?_
  show (Finset.univ : Finset (Fin m)).fold max (Ideal.ofBits .f32 acc) (fun k => src (h.lift (ix1 t) k)) = _
  exact congrArg (fun f => (Finset.univ : Finset (Fin m)).fold max (Ideal.ofBits .f32 acc) f)
    (funext fun k => congrArg src (lift_row h t k))

/-- The reduced index `(e, d)` with row `k` put back on the middle axis is `(e, k, d)`. -/
theorem lift_mid {p m n : Nat} (h : (⟨3, ![p, m, n]⟩ : Shape).Reduces [1] (⟨2, ![p, n]⟩ : Shape)) (e : Fin p) (d : Fin n)
    (k : Fin ((⟨3, ![p, m, n]⟩ : Shape).size 1)) : h.lift (ix2 e d) k = ix3 e (⟨k.val, k.isLt⟩ : Fin m) d := by
  funext a
  apply Fin.ext
  fin_cases a <;> rfl

/-- A reduce with a maximum body over the middle axis of a `p × m × n` array is, at `(e, d)`, the fold of `max` over the
    `m` entries `(e, ·, d)` from the initial value. -/
theorem hostMidMax_apply {p m n : Nat} {u : Shape} (x : (⟨3, ![p, m, n]⟩ : Shape).Idx → Ideal .f32) (init : u.Idx → Ideal .f32)
    (h' : (⟨3, ![p, m, n]⟩ : Shape).ReducesTo [1] (⟨2, ![p, n]⟩ : Shape))
    (h : (⟨3, ![p, m, n]⟩ : Shape).Reduces [1] (⟨2, ![p, n]⟩ : Shape)) (hu : 0 < u.numel) (e : Fin p) (d : Fin n) :
    Host.reduce (FloatOps.maximumf (F := Ideal) (φ := .f32)) x init h' hu (ix2 e d)
      = (Finset.univ : Finset (Fin m)).fold max (init (Shape.Idx.first hu)) fun r => x (ix3 e r d) := by
  refine (Host.reduce_eq_fold_single (FloatOps.maximumf (F := Ideal) (φ := .f32)) x init h' h hu (ix2 e d)).trans ?_
  show (Finset.univ : Finset (Fin m)).fold max (init (Shape.Idx.first hu)) (fun k => x (h.lift (ix2 e d) k)) = _
  exact congrArg (fun f => (Finset.univ : Finset (Fin m)).fold max (init (Shape.Idx.first hu)) f)
    (funext fun k => congrArg x (lift_mid h e d k))

/-- An absolute value is never negative. -/
theorem zero_le_abs (a : EReal) : (0 : EReal) ≤ max a (-a) := by
  rcases le_total 0 a with h | h
  · exact le_max_of_le_left h
  · exact le_max_of_le_right (by simpa using EReal.neg_le_neg_iff.2 h)

end Cert.KernelIdeal.Bridge
-- ==== Proof.AmaxDownWeight.lean ====
/-
  The column maxima of the down weight (the third of the six kernels of the program).

  For each expert `e` and column `d` the kernel keeps the running maximum of `|w[e, r, d]|` over the rows `r`: the grid
  walks the expert's eight row tiles of 256 rows; the first resets the accumulator block to zero, every tile replaces it
  by the larger of it and the tile's own column maxima, and the block is written back after the eighth. The reference
  takes ONE reduce-max from `-inf` over all 2048 rows. The two agree over the extended reals with no finiteness
  anywhere: `max` is associative, commutative and idempotent, the zero is absorbed because every absolute value is at
  least zero and there is at least one row.

    amaxDown_first / amaxDown_later   what one grid point leaves in the block, as a term of the body's loads
    amaxDown_step_apply               that term at a column: the larger of the old entry and the tile's fold of `max`
    ref_amaxDown_apply                the reference's entry at `(e, d)`: the fold of `max` over the 2048 rows
    amaxDown_block_apply              the weight's block at a point is rows `256 (t % 8) …` of expert `t / 8`
    amaxDown_running                  the accumulator after each point, by induction on the point
    amaxDown_flushed, amaxDown_array  the written-back blocks; the whole array after the region
-/
import proofs.«179826_j42494406426926_2_alg».proof.Proof.Gen.KernelIdeal.Frame
import proofs.«179826_j42494406426926_2_alg».proof.Proof.Gen.ReferenceIdeal.Read
import proofs.«179826_j42494406426926_2_alg».proof.Proof.LibMaxTiles
import proofs.«179826_j42494406426926_2_alg».proof.Proof.LibColumnMax
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

/-! ## What one grid point leaves in the accumulator block

The body keeps, per column of the weight, a running maximum of absolute values: the first row tile of an expert stores a
zero block and then the larger of it and the tile's column maxima; every later tile stores the larger of what the block
held and its own column maxima. -/

section AnyValues
variable {F : FTy → Type} [FloatOps F]

theorem amaxDown_offsets : (![0, 0, 0] : Fin 3 → Nat) = fun _ => 0 := funext fun a => by fin_cases a <;> rfl

/-- A later tile of an expert: the block held `acc`; it now holds the larger of `acc` and the tile's column maxima. -/
theorem amaxDown_later (c : Dev nD) (i : grid3.Coords) (arg2 : Memref sig .tc .vmem S1x256x1024 .f32) (harg2 : arg2.IsWhole)
    (arg3 : Memref sig .tc .vmem S1x1x1024 .f32) (harg3 : arg3.IsWhole) (hc0 : ¬cond3_0 i)
    (x0 : Vec F S1x256x1024 .f32) (xo1 : Vec F S1x1x1024 .f32) :
    out3_B_1 c i arg2 harg2 arg3 harg3 hc0 x0 xo1 = k3_pay2 xo1 x0 := by
  unfold out3_B_1
  rw [View.read_writes_eq_canon _ _ _ (cover3_B_1 c i arg2 harg2 arg3 harg3 hc0 x0 xo1)]
  unfold kernelRun3_B
  dsimp only
  rw [View.canon_unit_zero amaxDown_offsets]
  simp only [View.readAt_eq_ld, harg2.read_unread, harg3.read_unread, View.ld_unit_zero (S := S1x256x1024) amaxDown_offsets,
    View.ld_unit_zero (S := S1x1x1024) amaxDown_offsets]

/-- The first tile of an expert: the block is reset to zero, then holds the larger of zero and the tile's column maxima. -/
theorem amaxDown_first (c : Dev nD) (i : grid3.Coords) (arg2 : Memref sig .tc .vmem S1x256x1024 .f32) (harg2 : arg2.IsWhole)
    (arg3 : Memref sig .tc .vmem S1x1x1024 .f32) (harg3 : arg3.IsWhole) (hc0 : cond3_0 i)
    (x0 : Vec F S1x256x1024 .f32) :
    out3_A_1 c i arg2 harg2 arg3 harg3 hc0 x0 = k3_pay2 k3_pay1 x0 := by
  unfold out3_A_1
  rw [View.read_writes_eq_canon _ _ _ (cover3_A_1 c i arg2 harg2 arg3 harg3 hc0 x0)]
  unfold kernelRun3_A
  dsimp only
  sl_unfold_words
  rw [View.canon_cons_unit_zero (S := S1x1x1024) amaxDown_offsets, View.readCov_unit_zero (S := S1x1x1024) _ amaxDown_offsets]
  simp only [View.readAt_eq_ld, harg2.read_unread, View.ld_unit_zero (S := S1x256x1024) amaxDown_offsets]

end AnyValues

/-! ## The same, column by column, over the extended reals -/

/-- The zero block at a column. -/
theorem amaxDown_zero_apply (d : Fin 1024) : k3_pay1 (F := Ideal) (ix3 (0 : Fin 1) (0 : Fin 1) d) = 0 := by
  unfold k3_pay1
  refine (shapeCast_ab_1ab_apply _ _ 0 0 d).trans ?_
  exact Ideal.ofBits_zero_f32

/-- One accumulation step at a column: the larger of what the block held there and the fold of `max` over the tile's 256
    absolute values in that column. -/
theorem amaxDown_step_apply (acc : Vec Ideal S1x1x1024 .f32) (blk : Vec Ideal S1x256x1024 .f32) (d : Fin 1024) :
    k3_pay2 (F := Ideal) acc blk (ix3 (0 : Fin 1) (0 : Fin 1) d)
      = max (acc (ix3 (0 : Fin 1) (0 : Fin 1) d))
          ((Finset.univ : Finset (Fin 256)).fold max (Ideal.ofBits .f32 0xFF800000#32)
            fun r => max (blk (ix3 (0 : Fin 1) r d)) (-(blk (ix3 (0 : Fin 1) r d)))) := by
  unfold k3_pay2
  refine (shapeCast_ab_1ab_apply _ _ 0 0 d).trans ?_
  refine (maximumf_apply _ _ _).trans ?_
  refine congrArg₂ max (shapeCast_1ab_ab_apply _ _ 0 d) ?_
  refine (shapeCast_a_1a_apply _ _ 0 d).trans ?_
  refine (colMax_apply _ _ _ _ _ d).trans ?_
  refine congrArg (fun f => (Finset.univ : Finset (Fin 256)).fold max (Ideal.ofBits .f32 0xFF800000#32) f) (funext fun r => ?_)
  exact congrArg (fun x : Ideal .f32 => max x (-x)) (shapeCast_1ab_ab_apply blk _ r d)

/-! ## The reference's column maximum -/

/-- The reference's reduce-max over the rows of the absolute values, at expert `e` and column `d`: the fold of `max` from
    the value of the initial word over that column's 2048 absolute values. -/
theorem ref_amaxDown_apply (x2 : (⟨Cert.ReferenceIdeal.S8x2048x1024, .f32⟩ : BufTy).Contents (Elt Ideal)) (e : Fin 8) (d : Fin 1024) :
    Cert.ReferenceIdeal.Read.val_main_v54 (F := Ideal) x2 (ix2 e d)
      = (Finset.univ : Finset (Fin 2048)).fold max (Ideal.ofBits .f32 0xFF800000#32)
          fun r => max (x2 (ix3 e r d)) (-(x2 (ix3 e r d))) := by
  have h : Cert.ReferenceIdeal.S8x2048x1024.Reduces [1] Cert.ReferenceIdeal.S8x1024 := by decide
  unfold Cert.ReferenceIdeal.Read.val_main_v54
  exact hostMidMax_apply _ _ _ h _ e d

/-! ## The blocks the grid points read and write

Point `t` of the 8 × 8 grid is expert `t / 8`, row tile `t % 8`: it reads rows `256 (t % 8) …` of that expert's weight, and
its accumulator block is that expert's row of column maxima. -/

theorem amaxDown_blockIdx : ∀ t : Fin cfg3.N,
    win3_0.index t (0 : Fin 3) = t.val / 8 ∧ win3_0.index t (1 : Fin 3) = t.val % 8 ∧ win3_0.index t (2 : Fin 3) = 0
    ∧ win3_1.index t (0 : Fin 3) = t.val / 8 ∧ win3_1.index t (1 : Fin 3) = 0 ∧ win3_1.index t (2 : Fin 3) = 0 :=
  (by decide +kernel : ∀ t : Fin grid3.N, _)

section Blocks
variable {F : FTy → Type} [FloatOps F]
variable (V : (c : Dev nD) → (b : Ref sig .tc) → Buf (Elt F) ((c : Thread nD τ).loc b))

/-- The weight's block at point `t`, at row `r` of the tile and column `d`, is the weight at expert `t / 8`, row
    `256 (t % 8) + r`, column `d`. -/
theorem amaxDown_block_apply (c : Dev nD) (t : Fin cfg3.N) (r : Fin 256) (d : Fin 1024) (e : Fin 8) (R : Fin 2048)
    (he : e.val = t.val / 8) (hR : R.val = 256 * (t.val % 8) + r.val) :
    (iblk3 V c 0 t : Vec F S1x256x1024 .f32) (ix3 (0 : Fin 1) r d)
      = (V c main_arg2 : S8x2048x1024.Idx → Elt F .f32) (ix3 e R d) := by
  obtain ⟨i0, i1, i2, -, -, -⟩ := amaxDown_blockIdx t
  unfold iblk3
  show V c main_arg2 _ = V c main_arg2 _
  congr 1
  funext a
  apply Fin.ext
  match a with
  | ⟨0, _⟩ => show win3_0.index t 0 * 1 + 1 * 0 = e.val; rw [i0, he]; omega
  | ⟨1, _⟩ => show win3_0.index t 1 * 256 + 1 * r.val = R.val; rw [i1, hR]; omega
  | ⟨2, _⟩ => show win3_0.index t 2 * 1024 + 1 * d.val = d.val; rw [i2]; omega

end Blocks

/-! ## The accumulator after each point -/

section Running
variable (V : (c : Dev nD) → (b : Ref sig .tc) → Buf (Elt Ideal) ((c : Thread nD τ).loc b))

/-- The absolute value of the weight at expert `e`, row `r`, column `d`. -/
abbrev absDown (x : S8x2048x1024.Idx → Ideal .f32) (e : Fin 8) (d : Fin 1024) (r : Fin 2048) : Ideal .f32 :=
  max (x (ix3 e r d)) (-(x (ix3 e r d)))

/-- After the FIRST tile of an expert the accumulator holds, in each column, the largest of zero and the absolute values in
    the tile's 256 rows. -/
theorem amaxDown_running_first (c : Dev nD) (n : ℕ) (h : n < cfg3.N) (h0 : n % 8 = 0) (e : Fin 8) (he : e.val = n / 8)
    (d : Fin 1024) :
    IsRunningMax (outsAt3 V c n h (ix3 (0 : Fin 1) (0 : Fin 1) d)) 0 (Ideal.ofBits .f32 0xFF800000#32)
      (fun r : Fin 2048 => r.val < 256 * (n % 8 + 1)) (absDown (V c main_arg2) e d) := by
  have hN : cfg3.N = 64 := N_3
  have e1 : outsAt3 V c n h = k3_pay2 k3_pay1 (iblk3 V c 0 ⟨n, h⟩) :=
    (outsAt3_A V c ⟨n, h⟩ h0).trans (amaxDown_first ..)
  have key : ∀ blk : Vec Ideal S1x256x1024 .f32, k3_pay2 (F := Ideal) (k3_pay1 (F := Ideal)) blk (ix3 (0 : Fin 1) (0 : Fin 1) d)
      = max 0 ((Finset.univ : Finset (Fin 256)).fold max (Ideal.ofBits .f32 0xFF800000#32)
          fun r => max (blk (ix3 (0 : Fin 1) r d)) (-(blk (ix3 (0 : Fin 1) r d)))) := by
    intro blk
    rw [amaxDown_step_apply, amaxDown_zero_apply]
  rw [e1, key (iblk3 V c 0 ⟨n, h⟩)]
  refine IsRunningMax.first 0 _ _ _ (fun r' : Fin 256 => (⟨r'.val, by omega⟩ : Fin 2048)) _ (fun r' => ?_) (fun x => ?_)
  · show max _ _ = max _ _
    rw [amaxDown_block_apply V c ⟨n, h⟩ r' d e ⟨r'.val, by omega⟩ he (by show r'.val = 256 * (n % 8) + r'.val; omega)]
  · constructor
    · intro hx
      exact ⟨⟨x.val, by omega⟩, Fin.ext rfl⟩
    · rintro ⟨k, rfl⟩
      show k.val < 256 * (n % 8 + 1)
      omega

/-- After row tile `n % 8` of expert `n / 8` the accumulator holds, in each column, the largest of zero and the absolute
    values in the expert's rows met so far, `r < 256 (n % 8 + 1)`: by induction on the point. -/
theorem amaxDown_running (c : Dev nD) : ∀ (n : ℕ) (h : n < cfg3.N) (e : Fin 8) (he : e.val = n / 8) (d : Fin 1024),
    IsRunningMax (outsAt3 V c n h (ix3 (0 : Fin 1) (0 : Fin 1) d)) 0 (Ideal.ofBits .f32 0xFF800000#32)
      (fun r : Fin 2048 => r.val < 256 * (n % 8 + 1)) (absDown (V c main_arg2) e d)
  | 0, h, e, he, d => amaxDown_running_first V c 0 h rfl e he d
  | n + 1, h, e, he, d => by
    have hN : cfg3.N = 64 := N_3
    by_cases h0 : (n + 1) % 8 = 0
    · exact amaxDown_running_first V c (n + 1) h h0 e he d
    · have ih := amaxDown_running c n (Nat.lt_of_succ_lt h) e (by omega) d
      have e1 : outsAt3 V c (n + 1) h = k3_pay2 (outsAt3 V c n (Nat.lt_of_succ_lt h)) (iblk3 V c 0 ⟨n + 1, h⟩) :=
        (outsAt3_B V c ⟨n + 1, h⟩ h0).trans (amaxDown_later ..)
      rw [e1, amaxDown_step_apply (outsAt3 V c n (Nat.lt_of_succ_lt h)) (iblk3 V c 0 ⟨n + 1, h⟩) d]
      refine ih.step _ (fun r' : Fin 256 => (⟨256 * ((n + 1) % 8) + r'.val, by omega⟩ : Fin 2048)) _ (fun r' => ?_) (fun x => ?_)
      · show max _ _ = max _ _
        rw [amaxDown_block_apply V c ⟨n + 1, h⟩ r' d e ⟨256 * ((n + 1) % 8) + r'.val, by omega⟩ he rfl]
      · constructor
        · intro hx
          by_cases hlt : x.val < 256 * (n % 8 + 1)
          · exact Or.inl hlt
          · exact Or.inr ⟨⟨x.val - 256 * ((n + 1) % 8), by omega⟩,
              Fin.ext (by show 256 * ((n + 1) % 8) + (x.val - 256 * ((n + 1) % 8)) = x.val; omega)⟩
        · rintro (hlt | ⟨k, rfl⟩)
          · show x.val < 256 * ((n + 1) % 8 + 1)
            omega
          · show 256 * ((n + 1) % 8) + k.val < 256 * ((n + 1) % 8 + 1)
            omega

/-! ## The array of column maxima after the region -/

/-- What the last tile of an expert writes back is that expert's row of `G`, for any array `G` whose element
    `(e, 0, d)` is the fold of `max` over the 2048 absolute values of column `d` of expert `e`. -/
theorem amaxDown_flushed (c : Dev nD) (G : S8x1x1024.Idx → Ideal .f32)
    (hG : ∀ (e : Fin 8) (d : Fin 1024), G (ix3 e (0 : Fin 1) d)
      = (Finset.univ : Finset (Fin 2048)).fold max (Ideal.ofBits .f32 0xFF800000#32) (absDown (V c main_arg2) e d))
    (t : Fin cfg3.N) (hf : (cfg3.win 1).flush t = true) :
    (dat3 V c).flushed 1 t = ((cfg3.win 1).blk t).view.read (Elt Ideal) G := by
  have hN : cfg3.N = 64 := N_3
  have h7 : t.val % 8 = 7 := (flush3_1 t).mp hf
  have ht : t.val < 64 := lt_of_lt_of_eq t.isLt hN
  obtain ⟨-, -, -, o0, o1, o2⟩ := amaxDown_blockIdx t
  show (cfg3.win 1).cut (grid3.coords t) ((dat3 V c).after 1 t) = _
  rw [after3_1]
  funext y
  obtain ⟨u, v, d, rfl⟩ : ∃ (u : Fin 1) (v : Fin 1) (d : Fin 1024), y = ix3 u v d := ⟨y 0, y 1, y 2, eq_ix3 y⟩
  obtain rfl : u = 0 := Subsingleton.elim _ _
  obtain rfl : v = 0 := Subsingleton.elim _ _
  show outsAt3 V c t.val t.isLt (ix3 (0 : Fin 1) (0 : Fin 1) d)
    = G (((cfg3.win 1).blk t).view.emb (ix3 (0 : Fin 1) (0 : Fin 1) d))
  have hidx : ((cfg3.win 1).blk t).view.emb (ix3 (0 : Fin 1) (0 : Fin 1) d)
      = (ix3 (⟨t.val / 8, by omega⟩ : Fin 8) (0 : Fin 1) d : S8x1x1024.Idx) := by
    funext a
    apply Fin.ext
    match a with
    | ⟨0, _⟩ => show win3_1.index t 0 * 1 + 1 * 0 = t.val / 8; rw [o0]; all_goals omega
    | ⟨1, _⟩ => show win3_1.index t 1 * 1 + 1 * 0 = 0; rw [o1]; all_goals omega
    | ⟨2, _⟩ => show win3_1.index t 2 * 1024 + 1 * d.val = d.val; rw [o2]; all_goals omega
  rw [hidx, hG]
  exact (amaxDown_running V c t.val t.isLt ⟨t.val / 8, by omega⟩ rfl d).eq_fold
    (fun x => by show x.val < 256 * (t.val % 8 + 1); have := x.isLt; omega) ⟨⟨0, by omega⟩, zero_le_abs _⟩

/-- So the array of column maxima ends as any such `G`: the last tile of expert `e` covers row `e`. -/
theorem amaxDown_array_of (c : Dev nD) (G : S8x1x1024.Idx → Ideal .f32)
    (hG : ∀ (e : Fin 8) (d : Fin 1024), G (ix3 e (0 : Fin 1) d)
      = (Finset.univ : Finset (Fin 2048)).fold max (Ideal.ofBits .f32 0xFF800000#32) (absDown (V c main_arg2) e d)) :
    (dat3 V c).arrAt 1 cfg3.N = G := by
  have hN : cfg3.N = 64 := N_3
  refine (dat3 V c).arrAt_eq_of_cover 1 G (fun t hf => amaxDown_flushed V c G hG t hf) fun i => ?_
  have hi0 : (i 0).val < 8 := (i 0).isLt
  have hi1 : (i 1).val < 1 := (i 1).isLt
  have hi2 : (i 2).val < 1024 := (i 2).isLt
  obtain ⟨t, ht⟩ : ∃ t : Fin cfg3.N, t.val = 8 * (i 0).val + 7 := ⟨⟨8 * (i 0).val + 7, by omega⟩, rfl⟩
  obtain ⟨-, -, -, o0, o1, o2⟩ := amaxDown_blockIdx t
  refine ⟨t, (flush3_1 t).mpr (by omega), ?_⟩
  show i ∈ ((View.whole main_v11).slice (win3_1.rect t)).set
  rw [View.set_slice_whole, Rect.mem_set_unit]
  intro a
  match a with
  | ⟨0, _⟩ =>
    show win3_1.index t 0 * 1 ≤ (i 0).val ∧ (i 0).val < win3_1.index t 0 * 1 + 1
    rw [o0]; omega
  | ⟨1, _⟩ =>
    show win3_1.index t 1 * 1 ≤ (i 1).val ∧ (i 1).val < win3_1.index t 1 * 1 + 1
    rw [o1]; omega
  | ⟨2, _⟩ =>
    show win3_1.index t 2 * 1024 ≤ (i 2).val ∧ (i 2).val < win3_1.index t 2 * 1024 + 1024
    rw [o2]; omega

/-- REGION 3. The array of column maxima of the down weight after the region is the reference's reduce-max of its
    absolute values over the rows, read with the unit axis put in: element `(e, 0, d)` is the reference's `(e, d)`. -/
theorem amaxDown_array (c : Dev nD) (x2 : (⟨Cert.ReferenceIdeal.S8x2048x1024, .f32⟩ : BufTy).Contents (Elt Ideal))
    (h2 : V c main_arg2 = x2) :
    (dat3 V c).arrAt 1 cfg3.N
      = fun j : S8x1x1024.Idx => Cert.ReferenceIdeal.Read.val_main_v54 (F := Ideal) x2 (ix2 (j 0) (j 2)) := by
  refine amaxDown_array_of V c _ fun e d => ?_
  rw [h2]
  exact ref_amaxDown_apply x2 e d

/-- The same, element by element at literal coordinates. -/
theorem amaxDown_array_apply (c : Dev nD) (x2 : (⟨Cert.ReferenceIdeal.S8x2048x1024, .f32⟩ : BufTy).Contents (Elt Ideal))
    (h2 : V c main_arg2 = x2) (e : Fin 8) (d : Fin 1024) :
    ((dat3 V c).arrAt 1 cfg3.N : S8x1x1024.Idx → Ideal .f32) (ix3 e (0 : Fin 1) d)
      = Cert.ReferenceIdeal.Read.val_main_v54 (F := Ideal) x2 (ix2 e d) := by
  exact congrFun (amaxDown_array V c x2 h2) (ix3 e (0 : Fin 1) d)

end Running

end Cert.KernelIdeal.Bridge
-- ==== Proof.AmaxInputs.lean ====
/-
  The column maxima of the activations and of the gate-up weight (the first of the six kernels of the program).

  One kernel keeps TWO accumulator blocks: for each expert `e` and column `d`, the running maximum of `|x[e, r, d]|` and
  of `|w[e, r, d]|` over the rows `r`. The grid walks the expert's eight row tiles of 256 rows; the first resets both
  blocks to zero, every tile replaces each by the larger of it and the tile's own column maxima, and both are written
  back after the eighth. The reference takes one reduce-max from `-inf` over all 2048 rows of each array. They agree over
  the extended reals with no finiteness anywhere: `max` is associative, commutative and idempotent, and the zero is
  absorbed because every absolute value is at least zero and there is at least one row.

  The two halves (`amaxAct_…` for the activations, `amaxGate_…` for the weight) are the same argument on the two windows:
    …_first / …_later     what one grid point leaves in the block, as a term of the body's loads
    …_step_apply          that term at a column: the larger of the old entry and the tile's fold of `max`
    ref_…_apply           the reference's entry at `(e, d)`: the fold of `max` over the 2048 rows
    …_block_apply         an input's block at a point is rows `256 (t % 8) …` of expert `t / 8`
    …_running             the accumulator after each point, by induction on the point
    …_flushed, …_array    the written-back blocks; the whole array after the region
-/
import proofs.«179826_j42494406426926_2_alg».proof.Proof.Gen.KernelIdeal.Frame
import proofs.«179826_j42494406426926_2_alg».proof.Proof.Gen.ReferenceIdeal.Read
import proofs.«179826_j42494406426926_2_alg».proof.Proof.LibMaxTiles
import proofs.«179826_j42494406426926_2_alg».proof.Proof.LibColumnMax
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

theorem amaxIn_offsets : (![0, 0, 0] : Fin 3 → Nat) = fun _ => 0 := funext fun a => by fin_cases a <;> rfl

/-- Point `t` of the 8 × 8 grid is expert `t / 8`, row tile `t % 8`: both inputs' blocks are rows `256 (t % 8) …` of that
    expert, both accumulator blocks are that expert's row of column maxima. -/
theorem amaxIn_blockIdx : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0) :=
  (by decide +kernel : ∀ t : Fin grid0.N, _)

/-- The absolute value of an array at expert `e`, row `r`, column `d`. -/
abbrev absIn (x : S8x2048x2048.Idx → Ideal .f32) (e : Fin 8) (d : Fin 2048) (r : Fin 2048) : Ideal .f32 :=
  max (x (ix3 e r d)) (-(x (ix3 e r d)))

/-! # The column maxima of the activations -/

section AnyValues
variable {F : FTy → Type} [FloatOps F]

/-- A later tile of an expert: the block held `acc`; it now holds the larger of `acc` and the tile's column maxima. -/
theorem amaxAct_later (c : Dev nD) (i : grid0.Coords) (arg2 : Memref sig .tc .vmem S1x256x2048 .f32) (harg2 : arg2.IsWhole)
    (arg3 : Memref sig .tc .vmem S1x256x2048 .f32) (harg3 : arg3.IsWhole) (arg4 : Memref sig .tc .vmem S1x1x2048 .f32) (harg4 : arg4.IsWhole)
    (arg5 : Memref sig .tc .vmem S1x1x2048 .f32) (harg5 : arg5.IsWhole) (hc0 : ¬cond0_0 i)
    (x0 x1 : Vec F S1x256x2048 .f32) (xo2 xo3 : Vec F S1x1x2048 .f32) :
    out0_B_2 c i arg2 harg2 arg3 harg3 arg4 harg4 arg5 harg5 hc0 x0 x1 xo2 xo3 = k0_pay3 xo2 x0 := by
  unfold out0_B_2
  rw [View.read_writes_eq_canon _ _ _ (cover0_B_2 c i arg2 harg2 arg3 harg3 arg4 harg4 arg5 harg5 hc0 x0 x1 xo2 xo3)]
  unfold kernelRun0_B
  dsimp only
  rw [View.canon_unit_zero amaxIn_offsets]
  simp only [View.readAt_eq_ld, harg2.read_unread, harg3.read_unread, harg4.read_unread, harg5.read_unread,
    View.ld_unit_zero (S := S1x256x2048) amaxIn_offsets, View.ld_unit_zero (S := S1x1x2048) amaxIn_offsets]

/-- The first tile of an expert: the block is reset to zero, then holds the larger of zero and the tile's column maxima. -/
theorem amaxAct_first (c : Dev nD) (i : grid0.Coords) (arg2 : Memref sig .tc .vmem S1x256x2048 .f32) (harg2 : arg2.IsWhole)
    (arg3 : Memref sig .tc .vmem S1x256x2048 .f32) (harg3 : arg3.IsWhole) (arg4 : Memref sig .tc .vmem S1x1x2048 .f32) (harg4 : arg4.IsWhole)
    (arg5 : Memref sig .tc .vmem S1x1x2048 .f32) (harg5 : arg5.IsWhole) (hc0 : cond0_0 i)
    (x0 x1 : Vec F S1x256x2048 .f32) :
    out0_A_2 c i arg2 harg2 arg3 harg3 arg4 harg4 arg5 harg5 hc0 x0 x1 = k0_pay3 k0_pay1 x0 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1x2048) amaxIn_offsets, View.readCov_unit_zero (S := S1x1x2048) _ amaxIn_offsets]
  simp only [View.readAt_eq_ld, harg2.read_unread, harg3.read_unread, View.ld_unit_zero (S := S1x256x2048) amaxIn_offsets]

end AnyValues

/-- The zero block at a column. -/
theorem amaxAct_zero_apply (d : Fin 2048) : k0_pay1 (F := Ideal) (ix3 (0 : Fin 1) (0 : Fin 1) d) = 0 := by
  unfold k0_pay1
  refine (shapeCast_ab_1ab_apply _ _ 0 0 d).trans ?_
  exact Ideal.ofBits_zero_f32

/-- One accumulation step at a column: the larger of what the block held there and the fold of `max` over the tile's 256
    absolute values in that column. -/
theorem amaxAct_step_apply (acc : Vec Ideal S1x1x2048 .f32) (blk : Vec Ideal S1x256x2048 .f32) (d : Fin 2048) :
    k0_pay3 (F := Ideal) acc blk (ix3 (0 : Fin 1) (0 : Fin 1) d)
      = max (acc (ix3 (0 : Fin 1) (0 : Fin 1) d))
          ((Finset.univ : Finset (Fin 256)).fold max (Ideal.ofBits .f32 0xFF800000#32)
            fun r => max (blk (ix3 (0 : Fin 1) r d)) (-(blk (ix3 (0 : Fin 1) r d)))) := by
  unfold k0_pay3
  refine (shapeCast_ab_1ab_apply _ _ 0 0 d).trans ?_
  refine (maximumf_apply _ _ _).trans ?_
  refine congrArg₂ max (shapeCast_1ab_ab_apply _ _ 0 d) ?_
  refine (shapeCast_a_1a_apply _ _ 0 d).trans ?_
  refine (colMax_apply _ _ _ _ _ d).trans ?_
  refine congrArg (fun f => (Finset.univ : Finset (Fin 256)).fold max (Ideal.ofBits .f32 0xFF800000#32) f) (funext fun r => ?_)
  exact congrArg (fun x : Ideal .f32 => max x (-x)) (shapeCast_1ab_ab_apply blk _ r d)

/-- The reference's reduce-max over the rows of the absolute values, at expert `e` and column `d`: the fold of `max` from
    the value of the initial word over that column's 2048 absolute values. -/
theorem ref_amaxAct_apply (x : (⟨Cert.ReferenceIdeal.S8x2048x2048, .f32⟩ : BufTy).Contents (Elt Ideal)) (e : Fin 8) (d : Fin 2048) :
    Cert.ReferenceIdeal.Read.val_main_v1 (F := Ideal) x (ix2 e d)
      = (Finset.univ : Finset (Fin 2048)).fold max (Ideal.ofBits .f32 0xFF800000#32)
          fun r => max (x (ix3 e r d)) (-(x (ix3 e r d))) := by
  have h : Cert.ReferenceIdeal.S8x2048x2048.Reduces [1] Cert.ReferenceIdeal.S8x2048 := by decide
  unfold Cert.ReferenceIdeal.Read.val_main_v1
  exact hostMidMax_apply _ _ _ h _ e d

section Blocks
variable {F : FTy → Type} [FloatOps F]
variable (V : (c : Dev nD) → (b : Ref sig .tc) → Buf (Elt F) ((c : Thread nD τ).loc b))

/-- The array's block at point `t`, at row `r` of the tile and column `d`, is the array at expert `t / 8`, row
    `256 (t % 8) + r`, column `d`. -/
theorem amaxAct_block_apply (c : Dev nD) (t : Fin cfg0.N) (r : Fin 256) (d : Fin 2048) (e : Fin 8) (R : Fin 2048)
    (he : e.val = t.val / 8) (hR : R.val = 256 * (t.val % 8) + r.val) :
    (iblk0 V c 0 t : Vec F S1x256x2048 .f32) (ix3 (0 : Fin 1) r d)
      = (V c main_arg0 : S8x2048x2048.Idx → Elt F .f32) (ix3 e R d) := by
  obtain ⟨i0, i1, i2⟩ := (amaxIn_blockIdx t).1
  unfold iblk0
  show V c main_arg0 _ = V c main_arg0 _
  congr 1
  funext a
  apply Fin.ext
  match a with
  | ⟨0, _⟩ => show win0_0.index t 0 * 1 + 1 * 0 = e.val; rw [i0, he]; all_goals omega
  | ⟨1, _⟩ => show win0_0.index t 1 * 256 + 1 * r.val = R.val; rw [i1, hR]; all_goals omega
  | ⟨2, _⟩ => show win0_0.index t 2 * 2048 + 1 * d.val = d.val; rw [i2]; all_goals omega

end Blocks

section Running
variable (V : (c : Dev nD) → (b : Ref sig .tc) → Buf (Elt Ideal) ((c : Thread nD τ).loc b))

/-- After the FIRST tile of an expert the accumulator holds, in each column, the largest of zero and the absolute values in
    the tile's 256 rows. -/
theorem amaxAct_running_first (c : Dev nD) (n : ℕ) (h : n < cfg0.N) (h0 : n % 8 = 0) (e : Fin 8) (he : e.val = n / 8)
    (d : Fin 2048) :
    IsRunningMax ((outsAt0 V c n h).1 (ix3 (0 : Fin 1) (0 : Fin 1) d)) 0 (Ideal.ofBits .f32 0xFF800000#32)
      (fun r : Fin 2048 => r.val < 256 * (n % 8 + 1)) (absIn (V c main_arg0) e d) := by
  have hN : cfg0.N = 64 := N_0
  have eA : outsAt0 V c n h = (_, _) := outsAt0_A V c ⟨n, h⟩ h0
  have e1 : (outsAt0 V c n h).1 = k0_pay3 k0_pay1 (iblk0 V c 0 ⟨n, h⟩) := by
    rw [eA]
    dsimp only
    exact amaxAct_first ..
  have key : ∀ blk : Vec Ideal S1x256x2048 .f32, k0_pay3 (F := Ideal) (k0_pay1 (F := Ideal)) blk (ix3 (0 : Fin 1) (0 : Fin 1) d)
      = max 0 ((Finset.univ : Finset (Fin 256)).fold max (Ideal.ofBits .f32 0xFF800000#32)
          fun r => max (blk (ix3 (0 : Fin 1) r d)) (-(blk (ix3 (0 : Fin 1) r d)))) := by
    intro blk
    rw [amaxAct_step_apply, amaxAct_zero_apply]
  rw [e1, key (iblk0 V c 0 ⟨n, h⟩)]
  refine IsRunningMax.first 0 _ _ _ (fun r' : Fin 256 => (⟨r'.val, by omega⟩ : Fin 2048)) _ (fun r' => ?_) (fun x => ?_)
  · show max _ _ = max _ _
    rw [amaxAct_block_apply V c ⟨n, h⟩ r' d e ⟨r'.val, by omega⟩ he (by show r'.val = 256 * (n % 8) + r'.val; omega)]
  · constructor
    · intro hx
      exact ⟨⟨x.val, by omega⟩, Fin.ext rfl⟩
    · rintro ⟨k, rfl⟩
      show k.val < 256 * (n % 8 + 1)
      omega

/-- After row tile `n % 8` of expert `n / 8` the accumulator holds, in each column, the largest of zero and the absolute
    values in the expert's rows met so far, `r < 256 (n % 8 + 1)`: by induction on the point. -/
theorem amaxAct_running (c : Dev nD) : ∀ (n : ℕ) (h : n < cfg0.N) (e : Fin 8) (he : e.val = n / 8) (d : Fin 2048),
    IsRunningMax ((outsAt0 V c n h).1 (ix3 (0 : Fin 1) (0 : Fin 1) d)) 0 (Ideal.ofBits .f32 0xFF800000#32)
      (fun r : Fin 2048 => r.val < 256 * (n % 8 + 1)) (absIn (V c main_arg0) e d)
  | 0, h, e, he, d => amaxAct_running_first V c 0 h rfl e he d
  | n + 1, h, e, he, d => by
    have hN : cfg0.N = 64 := N_0
    by_cases h0 : (n + 1) % 8 = 0
    · exact amaxAct_running_first V c (n + 1) h h0 e he d
    · have ih := amaxAct_running c n (Nat.lt_of_succ_lt h) e (by omega) d
      have eB : outsAt0 V c (n + 1) h = (_, _) := outsAt0_B V c ⟨n + 1, h⟩ h0
      have e1 : (outsAt0 V c (n + 1) h).1 = k0_pay3 (outsAt0 V c n (Nat.lt_of_succ_lt h)).1 (iblk0 V c 0 ⟨n + 1, h⟩) := by
        rw [eB]
        dsimp only
        exact amaxAct_later ..
      rw [e1, amaxAct_step_apply (outsAt0 V c n (Nat.lt_of_succ_lt h)).1 (iblk0 V c 0 ⟨n + 1, h⟩) d]
      refine ih.step _ (fun r' : Fin 256 => (⟨256 * ((n + 1) % 8) + r'.val, by omega⟩ : Fin 2048)) _ (fun r' => ?_) (fun x => ?_)
      · show max _ _ = max _ _
        rw [amaxAct_block_apply V c ⟨n + 1, h⟩ r' d e ⟨256 * ((n + 1) % 8) + r'.val, by omega⟩ he rfl]
      · constructor
        · intro hx
          by_cases hlt : x.val < 256 * (n % 8 + 1)
          · exact Or.inl hlt
          · exact Or.inr ⟨⟨x.val - 256 * ((n + 1) % 8), by omega⟩,
              Fin.ext (by show 256 * ((n + 1) % 8) + (x.val - 256 * ((n + 1) % 8)) = x.val; omega)⟩
        · rintro (hlt | ⟨k, rfl⟩)
          · show x.val < 256 * ((n + 1) % 8 + 1)
            omega
          · show 256 * ((n + 1) % 8) + k.val < 256 * ((n + 1) % 8 + 1)
            omega

/-- What the last tile of an expert writes back is that expert's row of `G`, for any array `G` whose element
    `(e, 0, d)` is the fold of `max` over the 2048 absolute values of column `d` of expert `e`. -/
theorem amaxAct_flushed (c : Dev nD) (G : S8x1x2048.Idx → Ideal .f32)
    (hG : ∀ (e : Fin 8) (d : Fin 2048), G (ix3 e (0 : Fin 1) d)
      = (Finset.univ : Finset (Fin 2048)).fold max (Ideal.ofBits .f32 0xFF800000#32) (absIn (V c main_arg0) e d))
    (t : Fin cfg0.N) (hf : (cfg0.win 2).flush t = true) :
    (dat0 V c).flushed 2 t = ((cfg0.win 2).blk t).view.read (Elt Ideal) G := by
  have hN : cfg0.N = 64 := N_0
  have h7 : t.val % 8 = 7 := (flush0_2 t).mp hf
  have ht : t.val < 64 := lt_of_lt_of_eq t.isLt hN
  obtain ⟨o0, o1, o2⟩ := (amaxIn_blockIdx t).2.2.1
  show (cfg0.win 2).cut (grid0.coords t) ((dat0 V c).after 2 t) = _
  rw [after0_2]
  funext y
  obtain ⟨u, v, d, rfl⟩ : ∃ (u : Fin 1) (v : Fin 1) (d : Fin 2048), y = ix3 u v d := ⟨y 0, y 1, y 2, eq_ix3 y⟩
  obtain rfl : u = 0 := Subsingleton.elim _ _
  obtain rfl : v = 0 := Subsingleton.elim _ _
  show (outsAt0 V c t.val t.isLt).1 (ix3 (0 : Fin 1) (0 : Fin 1) d)
    = G (((cfg0.win 2).blk t).view.emb (ix3 (0 : Fin 1) (0 : Fin 1) d))
  have hidx : ((cfg0.win 2).blk t).view.emb (ix3 (0 : Fin 1) (0 : Fin 1) d)
      = (ix3 (⟨t.val / 8, by omega⟩ : Fin 8) (0 : Fin 1) d : S8x1x2048.Idx) := by
    funext a
    apply Fin.ext
    match a with
    | ⟨0, _⟩ => show win0_2.index t 0 * 1 + 1 * 0 = t.val / 8; rw [o0]; all_goals omega
    | ⟨1, _⟩ => show win0_2.index t 1 * 1 + 1 * 0 = 0; rw [o1]; all_goals omega
    | ⟨2, _⟩ => show win0_2.index t 2 * 2048 + 1 * d.val = d.val; rw [o2]; all_goals omega
  rw [hidx, hG]
  exact (amaxAct_running V c t.val t.isLt ⟨t.val / 8, by omega⟩ rfl d).eq_fold
    (fun x => by show x.val < 256 * (t.val % 8 + 1); have := x.isLt; omega) ⟨⟨0, by omega⟩, zero_le_abs _⟩

/-- So the array of column maxima ends as any such `G`: the last tile of expert `e` covers row `e`. -/
theorem amaxAct_array_of (c : Dev nD) (G : S8x1x2048.Idx → Ideal .f32)
    (hG : ∀ (e : Fin 8) (d : Fin 2048), G (ix3 e (0 : Fin 1) d)
      = (Finset.univ : Finset (Fin 2048)).fold max (Ideal.ofBits .f32 0xFF800000#32) (absIn (V c main_arg0) e d)) :
    (dat0 V c).arrAt 2 cfg0.N = G := by
  have hN : cfg0.N = 64 := N_0
  refine (dat0 V c).arrAt_eq_of_cover 2 G (fun t hf => amaxAct_flushed V c G hG t hf) fun i => ?_
  have hi0 : (i 0).val < 8 := (i 0).isLt
  have hi1 : (i 1).val < 1 := (i 1).isLt
  have hi2 : (i 2).val < 2048 := (i 2).isLt
  obtain ⟨t, ht⟩ : ∃ t : Fin cfg0.N, t.val = 8 * (i 0).val + 7 := ⟨⟨8 * (i 0).val + 7, by omega⟩, rfl⟩
  obtain ⟨o0, o1, o2⟩ := (amaxIn_blockIdx t).2.2.1
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [o0]; omega
  | ⟨1, _⟩ =>
    show win0_2.index t 1 * 1 ≤ (i 1).val ∧ (i 1).val < win0_2.index t 1 * 1 + 1
    rw [o1]; omega
  | ⟨2, _⟩ =>
    show win0_2.index t 2 * 2048 ≤ (i 2).val ∧ (i 2).val < win0_2.index t 2 * 2048 + 2048
    rw [o2]; omega

/-- REGION 0, output 0. The array of column maxima of the activations after the region is the reference's reduce-max of its
    absolute values over the rows, read with the unit axis put in: element `(e, 0, d)` is the reference's `(e, d)`. -/
theorem amaxAct_array (c : Dev nD) (x : (⟨Cert.ReferenceIdeal.S8x2048x2048, .f32⟩ : BufTy).Contents (Elt Ideal))
    (hx : V c main_arg0 = x) :
    (dat0 V c).arrAt 2 cfg0.N
      = fun j : S8x1x2048.Idx => Cert.ReferenceIdeal.Read.val_main_v1 (F := Ideal) x (ix2 (j 0) (j 2)) := by
  refine amaxAct_array_of V c _ fun e d => ?_
  rw [hx]
  exact ref_amaxAct_apply x e d

/-- The same, element by element at literal coordinates. -/
theorem amaxAct_array_apply (c : Dev nD) (x : (⟨Cert.ReferenceIdeal.S8x2048x2048, .f32⟩ : BufTy).Contents (Elt Ideal))
    (hx : V c main_arg0 = x) (e : Fin 8) (d : Fin 2048) :
    ((dat0 V c).arrAt 2 cfg0.N : S8x1x2048.Idx → Ideal .f32) (ix3 e (0 : Fin 1) d)
      = Cert.ReferenceIdeal.Read.val_main_v1 (F := Ideal) x (ix2 e d) :=
  congrFun (amaxAct_array V c x hx) (ix3 e (0 : Fin 1) d)

end Running

/-! # The column maxima of the gate-up weight -/

section AnyValues
variable {F : FTy → Type} [FloatOps F]

/-- A later tile of an expert: the block held `acc`; it now holds the larger of `acc` and the tile's column maxima. -/
theorem amaxGate_later (c : Dev nD) (i : grid0.Coords) (arg2 : Memref sig .tc .vmem S1x256x2048 .f32) (harg2 : arg2.IsWhole)
    (arg3 : Memref sig .tc .vmem S1x256x2048 .f32) (harg3 : arg3.IsWhole) (arg4 : Memref sig .tc .vmem S1x1x2048 .f32) (harg4 : arg4.IsWhole)
    (arg5 : Memref sig .tc .vmem S1x1x2048 .f32) (harg5 : arg5.IsWhole) (hc0 : ¬cond0_0 i)
    (x0 x1 : Vec F S1x256x2048 .f32) (xo2 xo3 : Vec F S1x1x2048 .f32) :
    out0_B_3 c i arg2 harg2 arg3 harg3 arg4 harg4 arg5 harg5 hc0 x0 x1 xo2 xo3 = k0_pay4 xo3 x1 := by
  unfold out0_B_3
  rw [View.read_writes_eq_canon _ _ _ (cover0_B_3 c i arg2 harg2 arg3 harg3 arg4 harg4 arg5 harg5 hc0 x0 x1 xo2 xo3)]
  unfold kernelRun0_B
  dsimp only
  rw [View.canon_unit_zero amaxIn_offsets]
  simp only [View.readAt_eq_ld, harg2.read_unread, harg3.read_unread, harg4.read_unread, harg5.read_unread,
    View.ld_unit_zero (S := S1x256x2048) amaxIn_offsets, View.ld_unit_zero (S := S1x1x2048) amaxIn_offsets]

/-- The first tile of an expert: the block is reset to zero, then holds the larger of zero and the tile's column maxima. -/
theorem amaxGate_first (c : Dev nD) (i : grid0.Coords) (arg2 : Memref sig .tc .vmem S1x256x2048 .f32) (harg2 : arg2.IsWhole)
    (arg3 : Memref sig .tc .vmem S1x256x2048 .f32) (harg3 : arg3.IsWhole) (arg4 : Memref sig .tc .vmem S1x1x2048 .f32) (harg4 : arg4.IsWhole)
    (arg5 : Memref sig .tc .vmem S1x1x2048 .f32) (harg5 : arg5.IsWhole) (hc0 : cond0_0 i)
    (x0 x1 : Vec F S1x256x2048 .f32) :
    out0_A_3 c i arg2 harg2 arg3 harg3 arg4 harg4 arg5 harg5 hc0 x0 x1 = k0_pay4 k0_pay2 x1 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x2048) amaxIn_offsets, View.readCov_unit_zero (S := S1x1x2048) _ amaxIn_offsets]
  simp only [View.readAt_eq_ld, harg2.read_unread, harg3.read_unread, View.ld_unit_zero (S := S1x256x2048) amaxIn_offsets]

end AnyValues

/-- The zero block at a column. -/
theorem amaxGate_zero_apply (d : Fin 2048) : k0_pay2 (F := Ideal) (ix3 (0 : Fin 1) (0 : Fin 1) d) = 0 := by
  unfold k0_pay2
  refine (shapeCast_ab_1ab_apply _ _ 0 0 d).trans ?_
  exact Ideal.ofBits_zero_f32

/-- One accumulation step at a column: the larger of what the block held there and the fold of `max` over the tile's 256
    absolute values in that column. -/
theorem amaxGate_step_apply (acc : Vec Ideal S1x1x2048 .f32) (blk : Vec Ideal S1x256x2048 .f32) (d : Fin 2048) :
    k0_pay4 (F := Ideal) acc blk (ix3 (0 : Fin 1) (0 : Fin 1) d)
      = max (acc (ix3 (0 : Fin 1) (0 : Fin 1) d))
          ((Finset.univ : Finset (Fin 256)).fold max (Ideal.ofBits .f32 0xFF800000#32)
            fun r => max (blk (ix3 (0 : Fin 1) r d)) (-(blk (ix3 (0 : Fin 1) r d)))) := by
  unfold k0_pay4
  refine (shapeCast_ab_1ab_apply _ _ 0 0 d).trans ?_
  refine (maximumf_apply _ _ _).trans ?_
  refine congrArg₂ max (shapeCast_1ab_ab_apply _ _ 0 d) ?_
  refine (shapeCast_a_1a_apply _ _ 0 d).trans ?_
  refine (colMax_apply _ _ _ _ _ d).trans ?_
  refine congrArg (fun f => (Finset.univ : Finset (Fin 256)).fold max (Ideal.ofBits .f32 0xFF800000#32) f) (funext fun r => ?_)
  exact congrArg (fun x : Ideal .f32 => max x (-x)) (shapeCast_1ab_ab_apply blk _ r d)

/-- The reference's reduce-max over the rows of the absolute values, at expert `e` and column `d`: the fold of `max` from
    the value of the initial word over that column's 2048 absolute values. -/
theorem ref_amaxGate_apply (x : (⟨Cert.ReferenceIdeal.S8x2048x2048, .f32⟩ : BufTy).Contents (Elt Ideal)) (e : Fin 8) (d : Fin 2048) :
    Cert.ReferenceIdeal.Read.val_main_v3 (F := Ideal) x (ix2 e d)
      = (Finset.univ : Finset (Fin 2048)).fold max (Ideal.ofBits .f32 0xFF800000#32)
          fun r => max (x (ix3 e r d)) (-(x (ix3 e r d))) := by
  have h : Cert.ReferenceIdeal.S8x2048x2048.Reduces [1] Cert.ReferenceIdeal.S8x2048 := by decide
  unfold Cert.ReferenceIdeal.Read.val_main_v3
  exact hostMidMax_apply _ _ _ h _ e d

section Blocks
variable {F : FTy → Type} [FloatOps F]
variable (V : (c : Dev nD) → (b : Ref sig .tc) → Buf (Elt F) ((c : Thread nD τ).loc b))

/-- The array's block at point `t`, at row `r` of the tile and column `d`, is the array at expert `t / 8`, row
    `256 (t % 8) + r`, column `d`. -/
theorem amaxGate_block_apply (c : Dev nD) (t : Fin cfg0.N) (r : Fin 256) (d : Fin 2048) (e : Fin 8) (R : Fin 2048)
    (he : e.val = t.val / 8) (hR : R.val = 256 * (t.val % 8) + r.val) :
    (iblk0 V c 1 t : Vec F S1x256x2048 .f32) (ix3 (0 : Fin 1) r d)
      = (V c main_arg1 : S8x2048x2048.Idx → Elt F .f32) (ix3 e R d) := by
  obtain ⟨i0, i1, i2⟩ := (amaxIn_blockIdx t).2.1
  unfold iblk0
  show V c main_arg1 _ = V c main_arg1 _
  congr 1
  funext a
  apply Fin.ext
  match a with
  | ⟨0, _⟩ => show win0_1.index t 0 * 1 + 1 * 0 = e.val; rw [i0, he]; all_goals omega
  | ⟨1, _⟩ => show win0_1.index t 1 * 256 + 1 * r.val = R.val; rw [i1, hR]; all_goals omega
  | ⟨2, _⟩ => show win0_1.index t 2 * 2048 + 1 * d.val = d.val; rw [i2]; all_goals omega

end Blocks

section Running
variable (V : (c : Dev nD) → (b : Ref sig .tc) → Buf (Elt Ideal) ((c : Thread nD τ).loc b))

/-- After the FIRST tile of an expert the accumulator holds, in each column, the largest of zero and the absolute values in
    the tile's 256 rows. -/
theorem amaxGate_running_first (c : Dev nD) (n : ℕ) (h : n < cfg0.N) (h0 : n % 8 = 0) (e : Fin 8) (he : e.val = n / 8)
    (d : Fin 2048) :
    IsRunningMax ((outsAt0 V c n h).2 (ix3 (0 : Fin 1) (0 : Fin 1) d)) 0 (Ideal.ofBits .f32 0xFF800000#32)
      (fun r : Fin 2048 => r.val < 256 * (n % 8 + 1)) (absIn (V c main_arg1) e d) := by
  have hN : cfg0.N = 64 := N_0
  have eA : outsAt0 V c n h = (_, _) := outsAt0_A V c ⟨n, h⟩ h0
  have e1 : (outsAt0 V c n h).2 = k0_pay4 k0_pay2 (iblk0 V c 1 ⟨n, h⟩) := by
    rw [eA]
    dsimp only
    exact amaxGate_first ..
  have key : ∀ blk : Vec Ideal S1x256x2048 .f32, k0_pay4 (F := Ideal) (k0_pay2 (F := Ideal)) blk (ix3 (0 : Fin 1) (0 : Fin 1) d)
      = max 0 ((Finset.univ : Finset (Fin 256)).fold max (Ideal.ofBits .f32 0xFF800000#32)
          fun r => max (blk (ix3 (0 : Fin 1) r d)) (-(blk (ix3 (0 : Fin 1) r d)))) := by
    intro blk
    rw [amaxGate_step_apply, amaxGate_zero_apply]
  rw [e1, key (iblk0 V c 1 ⟨n, h⟩)]
  refine IsRunningMax.first 0 _ _ _ (fun r' : Fin 256 => (⟨r'.val, by omega⟩ : Fin 2048)) _ (fun r' => ?_) (fun x => ?_)
  · show max _ _ = max _ _
    rw [amaxGate_block_apply V c ⟨n, h⟩ r' d e ⟨r'.val, by omega⟩ he (by show r'.val = 256 * (n % 8) + r'.val; omega)]
  · constructor
    · intro hx
      exact ⟨⟨x.val, by omega⟩, Fin.ext rfl⟩
    · rintro ⟨k, rfl⟩
      show k.val < 256 * (n % 8 + 1)
      omega

/-- After row tile `n % 8` of expert `n / 8` the accumulator holds, in each column, the largest of zero and the absolute
    values in the expert's rows met so far, `r < 256 (n % 8 + 1)`: by induction on the point. -/
theorem amaxGate_running (c : Dev nD) : ∀ (n : ℕ) (h : n < cfg0.N) (e : Fin 8) (he : e.val = n / 8) (d : Fin 2048),
    IsRunningMax ((outsAt0 V c n h).2 (ix3 (0 : Fin 1) (0 : Fin 1) d)) 0 (Ideal.ofBits .f32 0xFF800000#32)
      (fun r : Fin 2048 => r.val < 256 * (n % 8 + 1)) (absIn (V c main_arg1) e d)
  | 0, h, e, he, d => amaxGate_running_first V c 0 h rfl e he d
  | n + 1, h, e, he, d => by
    have hN : cfg0.N = 64 := N_0
    by_cases h0 : (n + 1) % 8 = 0
    · exact amaxGate_running_first V c (n + 1) h h0 e he d
    · have ih := amaxGate_running c n (Nat.lt_of_succ_lt h) e (by omega) d
      have eB : outsAt0 V c (n + 1) h = (_, _) := outsAt0_B V c ⟨n + 1, h⟩ h0
      have e1 : (outsAt0 V c (n + 1) h).2 = k0_pay4 (outsAt0 V c n (Nat.lt_of_succ_lt h)).2 (iblk0 V c 1 ⟨n + 1, h⟩) := by
        rw [eB]
        dsimp only
        exact amaxGate_later ..
      rw [e1, amaxGate_step_apply (outsAt0 V c n (Nat.lt_of_succ_lt h)).2 (iblk0 V c 1 ⟨n + 1, h⟩) d]
      refine ih.step _ (fun r' : Fin 256 => (⟨256 * ((n + 1) % 8) + r'.val, by omega⟩ : Fin 2048)) _ (fun r' => ?_) (fun x => ?_)
      · show max _ _ = max _ _
        rw [amaxGate_block_apply V c ⟨n + 1, h⟩ r' d e ⟨256 * ((n + 1) % 8) + r'.val, by omega⟩ he rfl]
      · constructor
        · intro hx
          by_cases hlt : x.val < 256 * (n % 8 + 1)
          · exact Or.inl hlt
          · exact Or.inr ⟨⟨x.val - 256 * ((n + 1) % 8), by omega⟩,
              Fin.ext (by show 256 * ((n + 1) % 8) + (x.val - 256 * ((n + 1) % 8)) = x.val; omega)⟩
        · rintro (hlt | ⟨k, rfl⟩)
          · show x.val < 256 * ((n + 1) % 8 + 1)
            omega
          · show 256 * ((n + 1) % 8) + k.val < 256 * ((n + 1) % 8 + 1)
            omega

/-- What the last tile of an expert writes back is that expert's row of `G`, for any array `G` whose element
    `(e, 0, d)` is the fold of `max` over the 2048 absolute values of column `d` of expert `e`. -/
theorem amaxGate_flushed (c : Dev nD) (G : S8x1x2048.Idx → Ideal .f32)
    (hG : ∀ (e : Fin 8) (d : Fin 2048), G (ix3 e (0 : Fin 1) d)
      = (Finset.univ : Finset (Fin 2048)).fold max (Ideal.ofBits .f32 0xFF800000#32) (absIn (V c main_arg1) e d))
    (t : Fin cfg0.N) (hf : (cfg0.win 3).flush t = true) :
    (dat0 V c).flushed 3 t = ((cfg0.win 3).blk t).view.read (Elt Ideal) G := by
  have hN : cfg0.N = 64 := N_0
  have h7 : t.val % 8 = 7 := (flush0_3 t).mp hf
  have ht : t.val < 64 := lt_of_lt_of_eq t.isLt hN
  obtain ⟨o0, o1, o2⟩ := (amaxIn_blockIdx t).2.2.2
  show (cfg0.win 3).cut (grid0.coords t) ((dat0 V c).after 3 t) = _
  rw [after0_3]
  funext y
  obtain ⟨u, v, d, rfl⟩ : ∃ (u : Fin 1) (v : Fin 1) (d : Fin 2048), y = ix3 u v d := ⟨y 0, y 1, y 2, eq_ix3 y⟩
  obtain rfl : u = 0 := Subsingleton.elim _ _
  obtain rfl : v = 0 := Subsingleton.elim _ _
  show (outsAt0 V c t.val t.isLt).2 (ix3 (0 : Fin 1) (0 : Fin 1) d)
    = G (((cfg0.win 3).blk t).view.emb (ix3 (0 : Fin 1) (0 : Fin 1) d))
  have hidx : ((cfg0.win 3).blk t).view.emb (ix3 (0 : Fin 1) (0 : Fin 1) d)
      = (ix3 (⟨t.val / 8, by omega⟩ : Fin 8) (0 : Fin 1) d : S8x1x2048.Idx) := by
    funext a
    apply Fin.ext
    match a with
    | ⟨0, _⟩ => show win0_3.index t 0 * 1 + 1 * 0 = t.val / 8; rw [o0]; all_goals omega
    | ⟨1, _⟩ => show win0_3.index t 1 * 1 + 1 * 0 = 0; rw [o1]; all_goals omega
    | ⟨2, _⟩ => show win0_3.index t 2 * 2048 + 1 * d.val = d.val; rw [o2]; all_goals omega
  rw [hidx, hG]
  exact (amaxGate_running V c t.val t.isLt ⟨t.val / 8, by omega⟩ rfl d).eq_fold
    (fun x => by show x.val < 256 * (t.val % 8 + 1); have := x.isLt; omega) ⟨⟨0, by omega⟩, zero_le_abs _⟩

/-- So the array of column maxima ends as any such `G`: the last tile of expert `e` covers row `e`. -/
theorem amaxGate_array_of (c : Dev nD) (G : S8x1x2048.Idx → Ideal .f32)
    (hG : ∀ (e : Fin 8) (d : Fin 2048), G (ix3 e (0 : Fin 1) d)
      = (Finset.univ : Finset (Fin 2048)).fold max (Ideal.ofBits .f32 0xFF800000#32) (absIn (V c main_arg1) e d)) :
    (dat0 V c).arrAt 3 cfg0.N = G := by
  have hN : cfg0.N = 64 := N_0
  refine (dat0 V c).arrAt_eq_of_cover 3 G (fun t hf => amaxGate_flushed V c G hG t hf) fun i => ?_
  have hi0 : (i 0).val < 8 := (i 0).isLt
  have hi1 : (i 1).val < 1 := (i 1).isLt
  have hi2 : (i 2).val < 2048 := (i 2).isLt
  obtain ⟨t, ht⟩ : ∃ t : Fin cfg0.N, t.val = 8 * (i 0).val + 7 := ⟨⟨8 * (i 0).val + 7, by omega⟩, rfl⟩
  obtain ⟨o0, o1, o2⟩ := (amaxIn_blockIdx t).2.2.2
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [o0]; omega
  | ⟨1, _⟩ =>
    show win0_3.index t 1 * 1 ≤ (i 1).val ∧ (i 1).val < win0_3.index t 1 * 1 + 1
    rw [o1]; omega
  | ⟨2, _⟩ =>
    show win0_3.index t 2 * 2048 ≤ (i 2).val ∧ (i 2).val < win0_3.index t 2 * 2048 + 2048
    rw [o2]; omega

/-- REGION 0, output 1. The array of column maxima of the gate-up weight after the region is the reference's reduce-max of its
    absolute values over the rows, read with the unit axis put in: element `(e, 0, d)` is the reference's `(e, d)`. -/
theorem amaxGate_array (c : Dev nD) (x : (⟨Cert.ReferenceIdeal.S8x2048x2048, .f32⟩ : BufTy).Contents (Elt Ideal))
    (hx : V c main_arg1 = x) :
    (dat0 V c).arrAt 3 cfg0.N
      = fun j : S8x1x2048.Idx => Cert.ReferenceIdeal.Read.val_main_v3 (F := Ideal) x (ix2 (j 0) (j 2)) := by
  refine amaxGate_array_of V c _ fun e d => ?_
  rw [hx]
  exact ref_amaxGate_apply x e d

/-- The same, element by element at literal coordinates. -/
theorem amaxGate_array_apply (c : Dev nD) (x : (⟨Cert.ReferenceIdeal.S8x2048x2048, .f32⟩ : BufTy).Contents (Elt Ideal))
    (hx : V c main_arg1 = x) (e : Fin 8) (d : Fin 2048) :
    ((dat0 V c).arrAt 3 cfg0.N : S8x1x2048.Idx → Ideal .f32) (ix3 e (0 : Fin 1) d)
      = Cert.ReferenceIdeal.Read.val_main_v3 (F := Ideal) x (ix2 e d) :=
  congrFun (amaxGate_array V c x hx) (ix3 e (0 : Fin 1) d)

end Running

end Cert.KernelIdeal.Bridge
-- ==== Proof.ActivationArray.lean ====
/-
  The activation array of the first linear layer (the third of the six kernels of the program): from blocks to the array.

  Every point `t` of the 8 × 8 grid (expert `t / 8`, row tile `t % 8`) stores into its 256 × 1024 block of the activation
  array the gated product of the two halves of the tile's matrix product, whether or not it is the expert's first tile;
  every block is written back, and the blocks tile the array. So if that product term agrees, element by element, with
  an array `G` read at expert `t / 8`, row `256 (t % 8) + r`, column `i`, the array after the region is `G`.

    actArr_first / actArr_later   what a point leaves in the block, as a term of the body's loads (both cases: the same)
    actArr_point                  so at every point
    actArr_flushed                the written-back block is block `t` of `G`
    actArr_array_of, actArr_array the whole array after the region
-/
import proofs.«179826_j42494406426926_2_alg».proof.Proof.Gen.KernelIdeal.Frame
import proofs.«179826_j42494406426926_2_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen

section AnyValues
variable {F : FTy → Type} [FloatOps F]

theorem actArr_offsets : (![0, 0, 0] : Fin 3 → Nat) = fun _ => 0 := funext fun a => by fin_cases a <;> rfl

/-- A later tile of an expert leaves in the activation block the gated product, with the unit axis put in front. -/
theorem actArr_later (c : Dev nD) (i : grid2.Coords) (arg2 : Memref sig .tc .vmem S1x256x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S1x256x1024 .f32) (harg6 : arg6.IsWhole) (arg7 : Memref sig .tc .vmem S1x1x1024 .f32) (harg7 : arg7.IsWhole) (hc0 : ¬cond2_0 i)
    (x0 : Vec F S1x256x2048 .f32) (x1 : Vec F S1x1x2048 .f32) (x2 : Vec F S1x2048x2048 .bf16) (x3 : Vec F S1x1x2048 .f32) (xo5 : Vec F S1x1x1024 .f32) :
    out2_B_4 c i arg2 harg2 arg3 harg3 arg4 harg4 arg5 harg5 arg6 harg6 arg7 harg7 hc0 x0 x1 x2 x3 xo5
      = k2_pay2 (k2_pay6 x1 x0 x2 x3) (k2_pay7 x1 x0 x2 x3) := by
  unfold out2_B_4
  rw [View.read_writes_eq_canon _ _ _ (cover2_B_4 c i arg2 harg2 arg3 harg3 arg4 harg4 arg5 harg5 arg6 harg6 arg7 harg7 hc0 x0 x1 x2 x3 xo5)]
  unfold kernelRun2_B
  dsimp only
  sl_unfold_words
  rw [View.canon_unit_zero actArr_offsets]
  simp only [View.readAt_eq_ld, harg2.read_unread, harg3.read_unread, harg4.read_unread, harg5.read_unread,
    View.ld_unit_zero (S := S1x256x2048) actArr_offsets, View.ld_unit_zero (S := S1x1x2048) actArr_offsets,
    View.ld_unit_zero (S := S1x2048x2048) actArr_offsets]

/-- The first tile of an expert leaves the same term. -/
theorem actArr_first (c : Dev nD) (i : grid2.Coords) (arg2 : Memref sig .tc .vmem S1x256x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S1x256x1024 .f32) (harg6 : arg6.IsWhole) (arg7 : Memref sig .tc .vmem S1x1x1024 .f32) (harg7 : arg7.IsWhole) (hc0 : cond2_0 i)
    (x0 : Vec F S1x256x2048 .f32) (x1 : Vec F S1x1x2048 .f32) (x2 : Vec F S1x2048x2048 .bf16) (x3 : Vec F S1x1x2048 .f32) :
    out2_A_4 c i arg2 harg2 arg3 harg3 arg4 harg4 arg5 harg5 arg6 harg6 arg7 harg7 hc0 x0 x1 x2 x3
      = k2_pay2 (k2_pay6 x1 x0 x2 x3) (k2_pay7 x1 x0 x2 x3) := by
  unfold out2_A_4
  rw [View.read_writes_eq_canon _ _ _ (cover2_A_4 c i arg2 harg2 arg3 harg3 arg4 harg4 arg5 harg5 arg6 harg6 arg7 harg7 hc0 x0 x1 x2 x3)]
  unfold kernelRun2_A
  dsimp only
  sl_unfold_words
  rw [View.canon_unit_zero actArr_offsets]
  simp only [View.readAt_eq_ld, harg2.read_unread, harg3.read_unread, harg4.read_unread, harg5.read_unread,
    View.ld_unit_zero (S := S1x256x2048) actArr_offsets, View.ld_unit_zero (S := S1x1x2048) actArr_offsets,
    View.ld_unit_zero (S := S1x2048x2048) actArr_offsets]

end AnyValues

/-! ## The block at a point, and where it lies in the array -/

/-- Point `t` of the 8 × 8 grid is expert `t / 8`, row tile `t % 8`: its block of the activation array is rows
    `256 (t % 8) …` of that expert, all 1024 columns. -/
theorem actArr_blockIdx : ∀ t : Fin cfg2.N,
    win2_4.index t (0 : Fin 3) = t.val / 8 ∧ win2_4.index t (1 : Fin 3) = t.val % 8 ∧ win2_4.index t (2 : Fin 3) = 0 :=
  (by decide +kernel : ∀ t : Fin grid2.N, _)

section Array
variable {F : FTy → Type} [FloatOps F]
variable (V : (c : Dev nD) → (b : Ref sig .tc) → Buf (Elt F) ((c : Thread nD τ).loc b))

/-- After EVERY point the activation block holds the gated product of the two halves of the point's matrix product, with
    the unit axis put in front: the first tile of an expert and the later ones store the same term. -/
theorem actArr_point (c : Dev nD) (t : Fin cfg2.N) :
    (outsAt2 V c t.val t.isLt).1
      = k2_pay2 (k2_pay6 (iblk2 V c 1 t) (iblk2 V c 0 t) (iblk2 V c 2 t) (iblk2 V c 3 t))
          (k2_pay7 (iblk2 V c 1 t) (iblk2 V c 0 t) (iblk2 V c 2 t) (iblk2 V c 3 t)) := by
  by_cases h0 : t.val % 8 = 0
  · have eA : outsAt2 V c t.val t.isLt = (_, _) := outsAt2_A V c t h0
    rw [eA]
    dsimp only
    exact actArr_first ..
  · have eB : outsAt2 V c t.val t.isLt = (_, _) := outsAt2_B V c t h0
    rw [eB]
    dsimp only
    exact actArr_later ..

end Array

section AtIdeal
variable (V : (c : Dev nD) → (b : Ref sig .tc) → Buf (Elt Ideal) ((c : Thread nD τ).loc b))

/-- What point `t` writes back is block `t` of `G`, for any array `G` that the product term agrees with element by
    element: row `r` of the tile, column `i`, against expert `t / 8`, row `256 (t % 8) + r`, column `i`. -/
theorem actArr_flushed (c : Dev nD) (G : S8x2048x1024.Idx → Ideal .f32)
    (hG : ∀ (t : Fin cfg2.N) (r : Fin 256) (i : Fin 1024) (e : Fin 8) (R : Fin 2048), e.val = t.val / 8 →
      R.val = 256 * (t.val % 8) + r.val →
      k2_pay1 (F := Ideal) (k2_pay6 (iblk2 V c 1 t) (iblk2 V c 0 t) (iblk2 V c 2 t) (iblk2 V c 3 t))
        (k2_pay7 (iblk2 V c 1 t) (iblk2 V c 0 t) (iblk2 V c 2 t) (iblk2 V c 3 t)) (ix2 r i) = G (ix3 e R i))
    (t : Fin cfg2.N) :
    (dat2 V c).flushed 4 t = ((cfg2.win 4).blk t).view.read (Elt Ideal) G := by
  have hN : cfg2.N = 64 := N_2
  have ht : t.val < 64 := lt_of_lt_of_eq t.isLt hN
  obtain ⟨o0, o1, o2⟩ := actArr_blockIdx t
  show (cfg2.win 4).cut (grid2.coords t) ((dat2 V c).after 4 t) = _
  rw [after2_4, actArr_point]
  funext y
  obtain ⟨u, r, i, rfl⟩ : ∃ (u : Fin 1) (r : Fin 256) (i : Fin 1024), y = ix3 u r i := ⟨y 0, y 1, y 2, eq_ix3 y⟩
  obtain rfl : u = 0 := Subsingleton.elim _ _
  show k2_pay2 (F := Ideal) (k2_pay6 (iblk2 V c 1 t) (iblk2 V c 0 t) (iblk2 V c 2 t) (iblk2 V c 3 t))
      (k2_pay7 (iblk2 V c 1 t) (iblk2 V c 0 t) (iblk2 V c 2 t) (iblk2 V c 3 t)) (ix3 (0 : Fin 1) r i)
    = G (((cfg2.win 4).blk t).view.emb (ix3 (0 : Fin 1) r i))
  have hidx : ((cfg2.win 4).blk t).view.emb (ix3 (0 : Fin 1) r i)
      = (ix3 (⟨t.val / 8, by omega⟩ : Fin 8) (⟨256 * (t.val % 8) + r.val, by omega⟩ : Fin 2048) i : S8x2048x1024.Idx) := by
    funext a
    apply Fin.ext
    match a with
    | ⟨0, _⟩ => show win2_4.index t 0 * 1 + 1 * 0 = t.val / 8; rw [o0]; all_goals omega
    | ⟨1, _⟩ => show win2_4.index t 1 * 256 + 1 * r.val = 256 * (t.val % 8) + r.val; rw [o1]; all_goals omega
    | ⟨2, _⟩ => show win2_4.index t 2 * 1024 + 1 * i.val = i.val; rw [o2]; all_goals omega
  rw [hidx]
  unfold k2_pay2
  refine (shapeCast_ab_1ab_apply _ _ 0 r i).trans ?_
  exact hG t r i _ _ rfl rfl

/-- So the activation array ends as any such `G`: row `R` of expert `e` lies in the block of point `8 e + R / 256`, and
    every point writes its block back. -/
theorem actArr_array_of (c : Dev nD) (G : S8x2048x1024.Idx → Ideal .f32)
    (hG : ∀ (t : Fin cfg2.N) (r : Fin 256) (i : Fin 1024) (e : Fin 8) (R : Fin 2048), e.val = t.val / 8 →
      R.val = 256 * (t.val % 8) + r.val →
      k2_pay1 (F := Ideal) (k2_pay6 (iblk2 V c 1 t) (iblk2 V c 0 t) (iblk2 V c 2 t) (iblk2 V c 3 t))
        (k2_pay7 (iblk2 V c 1 t) (iblk2 V c 0 t) (iblk2 V c 2 t) (iblk2 V c 3 t)) (ix2 r i) = G (ix3 e R i)) :
    (dat2 V c).arrAt 4 cfg2.N = G := by
  have hN : cfg2.N = 64 := N_2
  refine (dat2 V c).arrAt_eq_of_cover 4 G (fun t _ => actArr_flushed V c G hG t) fun j => ?_
  have hj0 : (j 0).val < 8 := (j 0).isLt
  have hj1 : (j 1).val < 2048 := (j 1).isLt
  have hj2 : (j 2).val < 1024 := (j 2).isLt
  obtain ⟨t, ht⟩ : ∃ t : Fin cfg2.N, t.val = 8 * (j 0).val + (j 1).val / 256 := ⟨⟨8 * (j 0).val + (j 1).val / 256, by omega⟩, rfl⟩
  obtain ⟨o0, o1, o2⟩ := actArr_blockIdx t
  refine ⟨t, flush2_4 t, ?_⟩
  show j ∈ ((View.whole main_v10_0).slice (win2_4.rect t)).set
  rw [View.set_slice_whole, Rect.mem_set_unit]
  intro a
  match a with
  | ⟨0, _⟩ =>
    show win2_4.index t 0 * 1 ≤ (j 0).val ∧ (j 0).val < win2_4.index t 0 * 1 + 1
    rw [o0]; omega
  | ⟨1, _⟩ =>
    show win2_4.index t 1 * 256 ≤ (j 1).val ∧ (j 1).val < win2_4.index t 1 * 256 + 256
    rw [o1]; omega
  | ⟨2, _⟩ =>
    show win2_4.index t 2 * 1024 ≤ (j 2).val ∧ (j 2).val < win2_4.index t 2 * 1024 + 1024
    rw [o2]; omega

/-- REGION 2, the activation array. Given that the product term of every point's blocks is the reference's gated
    activation element by element, the whole array after the region IS the reference's. -/
theorem actArr_array (c : Dev nD) (x0 x1 : (⟨Cert.ReferenceIdeal.S8x2048x2048, .f32⟩ : BufTy).Contents (Elt Ideal))
    (hA : ∀ (t : Fin cfg2.N) (r : Fin 256) (i : Fin 1024) (e : Fin 8) (R : Fin 2048), e.val = t.val / 8 →
      R.val = 256 * (t.val % 8) + r.val →
      k2_pay1 (F := Ideal) (k2_pay6 (iblk2 V c 1 t) (iblk2 V c 0 t) (iblk2 V c 2 t) (iblk2 V c 3 t))
        (k2_pay7 (iblk2 V c 1 t) (iblk2 V c 0 t) (iblk2 V c 2 t) (iblk2 V c 3 t)) (ix2 r i)
        = Cert.ReferenceIdeal.Read.val_main_v50 (F := Ideal) x0 x1 (ix3 e R i)) :
    ((dat2 V c).arrAt 4 cfg2.N : S8x2048x1024.Idx → EReal) = Cert.ReferenceIdeal.Read.val_main_v50 (F := Ideal) x0 x1 := by
  generalize hg : Cert.ReferenceIdeal.Read.val_main_v50 (F := Ideal) x0 x1 = G at hA ⊢
  exact actArr_array_of V c G hA

end AtIdeal

end Cert.KernelIdeal.Bridge
-- ==== Proof.ActAmax.lean ====
/-
  The column maxima of the activation (the second output of the third of the six kernels of the program).

  For each expert e and column d the kernel keeps the running maximum of |a[e, r, d]| over the token rows r, where
  a = silu(gate) · up is the activation it has just formed: the grid walks the expert's eight row tiles of 256 rows; the
  first resets the accumulator block to zero, every tile replaces it by the larger of it and the tile's own column maxima,
  and the block is written back after the eighth. The reference takes ONE reduce-max from minus infinity over all 2048 token
  rows of |a|. The two agree over the extended reals with no finiteness anywhere: max is associative, commutative and
  idempotent, and the zero is absorbed because every absolute value is at least zero and there is at least one row.

  The one fact used about the activation itself, that the tile the body forms at a point is the reference's activation on
  that point's rows, is a hypothesis (ActTile): it is the statement of the kernel's first output, proved elsewhere.

    actMax_first / actMax_later     what one grid point leaves in the block, as a term of the body's loads
    actMax_step_apply               that term at a column: the larger of the old entry and the tile's fold of max
    ref_actMax_apply                the reference's entry at (e, d): the fold of max over the 2048 token rows
    actMax_running                  the accumulator after each point, by induction on the point
    actMax_flushed, actMax_array    the written-back blocks; the whole array after the region
-/
import proofs.«179826_j42494406426926_2_alg».proof.Proof.Gen.KernelIdeal.Frame
import proofs.«179826_j42494406426926_2_alg».proof.Proof.Gen.ReferenceIdeal.Read
import proofs.«179826_j42494406426926_2_alg».proof.Proof.LibMaxTiles
import proofs.«179826_j42494406426926_2_alg».proof.Proof.LibColumnMax
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge.ActAmax

open Cert.KernelIdeal Cert.KernelIdeal.Gen Cert.KernelIdeal.Bridge

/-! ## What one grid point leaves in the accumulator block

The body forms the activation tile a = silu(gate) · up of its 256 token rows, and keeps, per column of a, a running maximum
of absolute values: the first row tile of an expert stores a zero block and then the larger of it and the tile's column
maxima; every later tile stores the larger of what the block held and its own column maxima. -/

section AnyValues
variable {F : FTy → Type} [FloatOps F]

theorem actMax_offsets : (![0, 0, 0] : Fin 3 → Nat) = fun _ => 0 := funext fun a => by fin_cases a <;> rfl

/-- A later tile of an expert: the block held `acc`; it now holds the larger of `acc` and the tile's column maxima. -/
theorem actMax_later (c : Dev nD) (i : grid2.Coords) (arg2 : Memref sig .tc .vmem S1x256x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S1x256x1024 .f32) (harg6 : arg6.IsWhole) (arg7 : Memref sig .tc .vmem S1x1x1024 .f32) (harg7 : arg7.IsWhole) (hc0 : ¬cond2_0 i)
    (x0 : Vec F S1x256x2048 .f32) (x1 : Vec F S1x1x2048 .f32) (x2 : Vec F S1x2048x2048 .bf16) (x3 : Vec F S1x1x2048 .f32) (xo5 : Vec F S1x1x1024 .f32) :
    out2_B_5 c i arg2 harg2 arg3 harg3 arg4 harg4 arg5 harg5 arg6 harg6 arg7 harg7 hc0 x0 x1 x2 x3 xo5 = k2_pay3 (k2_pay6 x1 x0 x2 x3) (k2_pay7 x1 x0 x2 x3) xo5 := by
  unfold out2_B_5
  rw [View.read_writes_eq_canon _ _ _ (cover2_B_5 c i arg2 harg2 arg3 harg3 arg4 harg4 arg5 harg5 arg6 harg6 arg7 harg7 hc0 x0 x1 x2 x3 xo5)]
  unfold kernelRun2_B
  dsimp only
  sl_unfold_words
  rw [View.canon_unit_zero (S := S1x1x1024) actMax_offsets]
  simp only [View.readAt_eq_ld, harg2.read_unread, harg3.read_unread, harg4.read_unread, harg5.read_unread, harg7.read_unread,
    View.ld_unit_zero (S := S1x256x2048) actMax_offsets, View.ld_unit_zero (S := S1x1x2048) actMax_offsets,
    View.ld_unit_zero (S := S1x2048x2048) actMax_offsets, View.ld_unit_zero (S := S1x1x1024) actMax_offsets]

/-- The first tile of an expert: the block is reset to zero, then holds the larger of zero and the tile's column maxima. -/
theorem actMax_first (c : Dev nD) (i : grid2.Coords) (arg2 : Memref sig .tc .vmem S1x256x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x1x2048 .f32) (harg5 : arg5.IsWhole) (arg6 : Memref sig .tc .vmem S1x256x1024 .f32) (harg6 : arg6.IsWhole) (arg7 : Memref sig .tc .vmem S1x1x1024 .f32) (harg7 : arg7.IsWhole) (hc0 : cond2_0 i)
    (x0 : Vec F S1x256x2048 .f32) (x1 : Vec F S1x1x2048 .f32) (x2 : Vec F S1x2048x2048 .bf16) (x3 : Vec F S1x1x2048 .f32) :
    out2_A_5 c i arg2 harg2 arg3 harg3 arg4 harg4 arg5 harg5 arg6 harg6 arg7 harg7 hc0 x0 x1 x2 x3 = k2_pay3 (k2_pay6 x1 x0 x2 x3) (k2_pay7 x1 x0 x2 x3) k2_pay4 := by
  unfold out2_A_5
  rw [View.read_writes_eq_canon _ _ _ (cover2_A_5 c i arg2 harg2 arg3 harg3 arg4 harg4 arg5 harg5 arg6 harg6 arg7 harg7 hc0 x0 x1 x2 x3)]
  unfold kernelRun2_A
  dsimp only
  sl_unfold_words
  rw [View.canon_cons_unit_zero (S := S1x1x1024) actMax_offsets, View.readCov_unit_zero (S := S1x1x1024) _ actMax_offsets]
  simp only [View.readAt_eq_ld, harg2.read_unread, harg3.read_unread, harg4.read_unread, harg5.read_unread,
    View.ld_unit_zero (S := S1x256x2048) actMax_offsets, View.ld_unit_zero (S := S1x1x2048) actMax_offsets,
    View.ld_unit_zero (S := S1x2048x2048) actMax_offsets]

end AnyValues

/-! ## The same, column by column, over the extended reals -/

/-- The zero block at a column. -/
theorem actMax_zero_apply (d : Fin 1024) : k2_pay4 (F := Ideal) (ix3 (0 : Fin 1) (0 : Fin 1) d) = 0 := by
  unfold k2_pay4
  refine (shapeCast_ab_1ab_apply _ _ 0 0 d).trans ?_
  exact Ideal.ofBits_zero_f32

/-- One accumulation step at a column: the larger of what the block held there and the fold of `max` over the 256
    absolute values of the tile's product in that column. -/
theorem actMax_step_apply (acc : Vec Ideal S1x1x1024 .f32) (v34 v36 : FVec Ideal S256x1024 .f32) (d : Fin 1024) :
    k2_pay3 (F := Ideal) v34 v36 acc (ix3 (0 : Fin 1) (0 : Fin 1) d)
      = max (acc (ix3 (0 : Fin 1) (0 : Fin 1) d))
          ((Finset.univ : Finset (Fin 256)).fold max (Ideal.ofBits .f32 0xFF800000#32)
            fun r => max (k2_pay1 (F := Ideal) v34 v36 (ix2 r d)) (-(k2_pay1 (F := Ideal) v34 v36 (ix2 r d)))) := by
  unfold k2_pay3
  refine (shapeCast_ab_1ab_apply _ _ 0 0 d).trans ?_
  refine (maximumf_apply _ _ _).trans ?_
  refine congrArg₂ max (shapeCast_1ab_ab_apply _ _ 0 d) ?_
  refine (shapeCast_a_1a_apply _ _ 0 d).trans ?_
  refine (colMax_apply _ _ _ _ _ d).trans ?_
  rfl

/-! ## The reference's column maximum -/

/-- The reference's reduce-max over the token rows of the absolute values of a, at expert `e` and column `d`: the fold
    of `max` from the value of the initial word over that column's 2048 absolute values. -/
theorem ref_actMax_apply (x0 x1 : (⟨Cert.ReferenceIdeal.S8x2048x2048, .f32⟩ : BufTy).Contents (Elt Ideal)) (e : Fin 8) (d : Fin 1024) :
    Cert.ReferenceIdeal.Read.val_main_v52 (F := Ideal) x0 x1 (ix2 e d)
      = (Finset.univ : Finset (Fin 2048)).fold max (Ideal.ofBits .f32 0xFF800000#32)
          fun r => max (Cert.ReferenceIdeal.Read.val_main_v50 (F := Ideal) x0 x1 (ix3 e r d) : EReal)
            (-(Cert.ReferenceIdeal.Read.val_main_v50 (F := Ideal) x0 x1 (ix3 e r d) : EReal)) := by
  have h : Cert.ReferenceIdeal.S8x2048x1024.Reduces [1] Cert.ReferenceIdeal.S8x1024 := by decide
  unfold Cert.ReferenceIdeal.Read.val_main_v52
  exact hostMidMax_apply _ _ _ h _ e d

/-! ## The block the grid points write

Point `t` of the 8 × 8 grid is expert `t / 8`, row tile `t % 8`; its accumulator block is that expert's row of column
maxima. -/

theorem actMax_blockIdx : ∀ t : Fin cfg2.N,
    win2_5.index t (0 : Fin 3) = t.val / 8 ∧ win2_5.index t (1 : Fin 3) = 0 ∧ win2_5.index t (2 : Fin 3) = 0 :=
  (by decide +kernel : ∀ t : Fin grid2.N, _)

/-! ## The accumulator after each point -/

section Running
variable (V : (c : Dev nD) → (b : Ref sig .tc) → Buf (Elt Ideal) ((c : Thread nD τ).loc b))

/-- The up half of the gate/up product tile the body forms at point `t`, -/
abbrev upTile (c : Dev nD) (t : Fin cfg2.N) : FVec Ideal S256x1024 .f32 :=
  k2_pay6 (F := Ideal) (iblk2 V c 1 t) (iblk2 V c 0 t) (iblk2 V c 2 t) (iblk2 V c 3 t)

/-- and its gate half passed through the sigmoid-weighted unit. -/
abbrev gateTile (c : Dev nD) (t : Fin cfg2.N) : FVec Ideal S256x1024 .f32 :=
  k2_pay7 (F := Ideal) (iblk2 V c 1 t) (iblk2 V c 0 t) (iblk2 V c 2 t) (iblk2 V c 3 t)

/-- THE ONE FACT USED ABOUT THE ACTIVATION TILE: the product the body forms at point `t`, at row `r` of the tile and column
    `i`, is the reference's activation at expert `t / 8`, token row `256 (t % 8) + r`, column `i`. -/
abbrev ActTile (c : Dev nD) (x0 x1 : (⟨Cert.ReferenceIdeal.S8x2048x2048, .f32⟩ : BufTy).Contents (Elt Ideal)) : Prop :=
  ∀ (t : Fin cfg2.N) (r : Fin 256) (i : Fin 1024) (e : Fin 8) (R : Fin 2048), e.val = t.val / 8 → R.val = 256 * (t.val % 8) + r.val →
    k2_pay1 (F := Ideal) (k2_pay6 (iblk2 V c 1 t) (iblk2 V c 0 t) (iblk2 V c 2 t) (iblk2 V c 3 t))
        (k2_pay7 (iblk2 V c 1 t) (iblk2 V c 0 t) (iblk2 V c 2 t) (iblk2 V c 3 t)) (ix2 r i)
      = Cert.ReferenceIdeal.Read.val_main_v50 (F := Ideal) x0 x1 (ix3 e R i)

/-- The absolute value of the reference's activation at expert `e`, token row `r`, column `d`. -/
abbrev absAct (x0 x1 : (⟨Cert.ReferenceIdeal.S8x2048x2048, .f32⟩ : BufTy).Contents (Elt Ideal)) (e : Fin 8) (d : Fin 1024) (r : Fin 2048) : Ideal .f32 :=
  max (Cert.ReferenceIdeal.Read.val_main_v50 (F := Ideal) x0 x1 (ix3 e r d) : EReal)
    (-(Cert.ReferenceIdeal.Read.val_main_v50 (F := Ideal) x0 x1 (ix3 e r d) : EReal))

/-- After the FIRST tile of an expert the accumulator holds, in each column, the largest of zero and the absolute values in
    the tile's 256 rows. -/
theorem actMax_running_first (c : Dev nD) (x0 x1 : (⟨Cert.ReferenceIdeal.S8x2048x2048, .f32⟩ : BufTy).Contents (Elt Ideal))
    (hA : ActTile V c x0 x1) (n : ℕ) (h : n < cfg2.N) (h0 : n % 8 = 0) (e : Fin 8) (he : e.val = n / 8) (d : Fin 1024) :
    IsRunningMax ((outsAt2 V c n h).2 (ix3 (0 : Fin 1) (0 : Fin 1) d)) 0 (Ideal.ofBits .f32 0xFF800000#32)
      (fun r : Fin 2048 => r.val < 256 * (n % 8 + 1)) (absAct x0 x1 e d) := by
  have hN : cfg2.N = 64 := N_2
  have e1 : (outsAt2 V c n h).2 = k2_pay3 (upTile V c ⟨n, h⟩) (gateTile V c ⟨n, h⟩) (k2_pay4 (F := Ideal)) := by
    rw [outsAt2_A V c ⟨n, h⟩ h0]
    dsimp only
    exact actMax_first ..
  have key : ∀ v34 v36 : FVec Ideal S256x1024 .f32, k2_pay3 (F := Ideal) v34 v36 (k2_pay4 (F := Ideal)) (ix3 (0 : Fin 1) (0 : Fin 1) d)
      = max 0 ((Finset.univ : Finset (Fin 256)).fold max (Ideal.ofBits .f32 0xFF800000#32)
          fun r => max (k2_pay1 (F := Ideal) v34 v36 (ix2 r d)) (-(k2_pay1 (F := Ideal) v34 v36 (ix2 r d)))) := by
    intro v34 v36
    rw [actMax_step_apply, actMax_zero_apply]
  rw [e1, key (upTile V c ⟨n, h⟩) (gateTile V c ⟨n, h⟩)]
  refine IsRunningMax.first 0 _ _ _ (fun r' : Fin 256 => (⟨r'.val, by omega⟩ : Fin 2048)) _ (fun r' => ?_) (fun x => ?_)
  · show max _ _ = max _ _
    rw [hA ⟨n, h⟩ r' d e ⟨r'.val, by omega⟩ he (by show r'.val = 256 * (n % 8) + r'.val; omega)]
  · constructor
    · intro hx
      exact ⟨⟨x.val, by omega⟩, Fin.ext rfl⟩
    · rintro ⟨k, rfl⟩
      show k.val < 256 * (n % 8 + 1)
      omega

/-- After row tile `n % 8` of expert `n / 8` the accumulator holds, in each column, the largest of zero and the absolute
    values in the expert's rows met so far, `r < 256 (n % 8 + 1)`: by induction on the point. -/
theorem actMax_running (c : Dev nD) (x0 x1 : (⟨Cert.ReferenceIdeal.S8x2048x2048, .f32⟩ : BufTy).Contents (Elt Ideal))
    (hA : ActTile V c x0 x1) : ∀ (n : ℕ) (h : n < cfg2.N) (e : Fin 8) (he : e.val = n / 8) (d : Fin 1024),
    IsRunningMax ((outsAt2 V c n h).2 (ix3 (0 : Fin 1) (0 : Fin 1) d)) 0 (Ideal.ofBits .f32 0xFF800000#32)
      (fun r : Fin 2048 => r.val < 256 * (n % 8 + 1)) (absAct x0 x1 e d)
  | 0, h, e, he, d => actMax_running_first V c x0 x1 hA 0 h rfl e he d
  | n + 1, h, e, he, d => by
    have hN : cfg2.N = 64 := N_2
    by_cases h0 : (n + 1) % 8 = 0
    · exact actMax_running_first V c x0 x1 hA (n + 1) h h0 e he d
    · have ih := actMax_running c x0 x1 hA n (Nat.lt_of_succ_lt h) e (by omega) d
      have e1 : (outsAt2 V c (n + 1) h).2
          = k2_pay3 (upTile V c ⟨n + 1, h⟩) (gateTile V c ⟨n + 1, h⟩) (outsAt2 V c n (Nat.lt_of_succ_lt h)).2 := by
        rw [outsAt2_B V c ⟨n + 1, h⟩ h0]
        dsimp only
        exact actMax_later ..
      rw [e1, actMax_step_apply (outsAt2 V c n (Nat.lt_of_succ_lt h)).2 (upTile V c ⟨n + 1, h⟩) (gateTile V c ⟨n + 1, h⟩) d]
      refine ih.step _ (fun r' : Fin 256 => (⟨256 * ((n + 1) % 8) + r'.val, by omega⟩ : Fin 2048)) _ (fun r' => ?_) (fun x => ?_)
      · show max _ _ = max _ _
        rw [hA ⟨n + 1, h⟩ r' d e ⟨256 * ((n + 1) % 8) + r'.val, by omega⟩ he rfl]
      · constructor
        · intro hx
          by_cases hlt : x.val < 256 * (n % 8 + 1)
          · exact Or.inl hlt
          · exact Or.inr ⟨⟨x.val - 256 * ((n + 1) % 8), by omega⟩,
              Fin.ext (by show 256 * ((n + 1) % 8) + (x.val - 256 * ((n + 1) % 8)) = x.val; omega)⟩
        · rintro (hlt | ⟨k, rfl⟩)
          · show x.val < 256 * ((n + 1) % 8 + 1)
            omega
          · show 256 * ((n + 1) % 8) + k.val < 256 * ((n + 1) % 8 + 1)
            omega

/-! ## The array of column maxima after the region -/

/-- What the last tile of an expert writes back is that expert's row of `G`, for any array `G` whose element
    `(e, 0, d)` is the fold of `max` over the 2048 absolute values of column `d` of expert `e`. -/
theorem actMax_flushed (c : Dev nD) (x0 x1 : (⟨Cert.ReferenceIdeal.S8x2048x2048, .f32⟩ : BufTy).Contents (Elt Ideal))
    (hA : ActTile V c x0 x1) (G : S8x1x1024.Idx → Ideal .f32)
    (hG : ∀ (e : Fin 8) (d : Fin 1024), G (ix3 e (0 : Fin 1) d)
      = (Finset.univ : Finset (Fin 2048)).fold max (Ideal.ofBits .f32 0xFF800000#32) (absAct x0 x1 e d))
    (t : Fin cfg2.N) (hf : (cfg2.win 5).flush t = true) :
    (dat2 V c).flushed 5 t = ((cfg2.win 5).blk t).view.read (Elt Ideal) G := by
  have hN : cfg2.N = 64 := N_2
  have h7 : t.val % 8 = 7 := (flush2_5 t).mp hf
  have ht : t.val < 64 := lt_of_lt_of_eq t.isLt hN
  obtain ⟨o0, o1, o2⟩ := actMax_blockIdx t
  show (cfg2.win 5).cut (grid2.coords t) ((dat2 V c).after 5 t) = _
  rw [after2_5]
  funext y
  obtain ⟨u, v, d, rfl⟩ : ∃ (u : Fin 1) (v : Fin 1) (d : Fin 1024), y = ix3 u v d := ⟨y 0, y 1, y 2, eq_ix3 y⟩
  obtain rfl : u = 0 := Subsingleton.elim _ _
  obtain rfl : v = 0 := Subsingleton.elim _ _
  show (outsAt2 V c t.val t.isLt).2 (ix3 (0 : Fin 1) (0 : Fin 1) d)
    = G (((cfg2.win 5).blk t).view.emb (ix3 (0 : Fin 1) (0 : Fin 1) d))
  have hidx : ((cfg2.win 5).blk t).view.emb (ix3 (0 : Fin 1) (0 : Fin 1) d)
      = (ix3 (⟨t.val / 8, by omega⟩ : Fin 8) (0 : Fin 1) d : S8x1x1024.Idx) := by
    funext a
    apply Fin.ext
    match a with
    | ⟨0, _⟩ => show win2_5.index t 0 * 1 + 1 * 0 = t.val / 8; rw [o0]; all_goals omega
    | ⟨1, _⟩ => show win2_5.index t 1 * 1 + 1 * 0 = 0; rw [o1]; all_goals omega
    | ⟨2, _⟩ => show win2_5.index t 2 * 1024 + 1 * d.val = d.val; rw [o2]; all_goals omega
  rw [hidx, hG]
  exact (actMax_running V c x0 x1 hA t.val t.isLt ⟨t.val / 8, by omega⟩ rfl d).eq_fold
    (fun x => by show x.val < 256 * (t.val % 8 + 1); have := x.isLt; omega) ⟨⟨0, by omega⟩, zero_le_abs _⟩

/-- So the array of column maxima ends as any such `G`: the last tile of expert `e` covers row `e`. -/
theorem actMax_array_of (c : Dev nD) (x0 x1 : (⟨Cert.ReferenceIdeal.S8x2048x2048, .f32⟩ : BufTy).Contents (Elt Ideal))
    (hA : ActTile V c x0 x1) (G : S8x1x1024.Idx → Ideal .f32)
    (hG : ∀ (e : Fin 8) (d : Fin 1024), G (ix3 e (0 : Fin 1) d)
      = (Finset.univ : Finset (Fin 2048)).fold max (Ideal.ofBits .f32 0xFF800000#32) (absAct x0 x1 e d)) :
    (dat2 V c).arrAt 5 cfg2.N = G := by
  have hN : cfg2.N = 64 := N_2
  refine (dat2 V c).arrAt_eq_of_cover 5 G (fun t hf => actMax_flushed V c x0 x1 hA G hG t hf) fun i => ?_
  have hi0 : (i 0).val < 8 := (i 0).isLt
  have hi1 : (i 1).val < 1 := (i 1).isLt
  have hi2 : (i 2).val < 1024 := (i 2).isLt
  obtain ⟨t, ht⟩ : ∃ t : Fin cfg2.N, t.val = 8 * (i 0).val + 7 := ⟨⟨8 * (i 0).val + 7, by omega⟩, rfl⟩
  obtain ⟨o0, o1, o2⟩ := actMax_blockIdx t
  refine ⟨t, (flush2_5 t).mpr (by omega), ?_⟩
  show i ∈ ((View.whole main_v10_1).slice (win2_5.rect t)).set
  rw [View.set_slice_whole, Rect.mem_set_unit]
  intro a
  match a with
  | ⟨0, _⟩ =>
    show win2_5.index t 0 * 1 ≤ (i 0).val ∧ (i 0).val < win2_5.index t 0 * 1 + 1
    rw [o0]; omega
  | ⟨1, _⟩ =>
    show win2_5.index t 1 * 1 ≤ (i 1).val ∧ (i 1).val < win2_5.index t 1 * 1 + 1
    rw [o1]; omega
  | ⟨2, _⟩ =>
    show win2_5.index t 2 * 1024 ≤ (i 2).val ∧ (i 2).val < win2_5.index t 2 * 1024 + 1024
    rw [o2]; omega

/-- THE COLUMN MAXIMA OF THE ACTIVATION after the region are the reference's reduce-max of its absolute values over the
    token rows, read with the unit axis put in: element `(e, 0, d)` is the reference's `(e, d)`. -/
theorem actMax_array (c : Dev nD) (x0 x1 : (⟨Cert.ReferenceIdeal.S8x2048x2048, .f32⟩ : BufTy).Contents (Elt Ideal))
    (hA : ActTile V c x0 x1) :
    (dat2 V c).arrAt 5 cfg2.N
      = fun j : S8x1x1024.Idx => Cert.ReferenceIdeal.Read.val_main_v52 (F := Ideal) x0 x1 (ix2 (j 0) (j 2)) := by
  refine actMax_array_of V c x0 x1 hA _ fun e d => ?_
  exact ref_actMax_apply x0 x1 e d

/-- The same, element by element at literal coordinates. -/
theorem actMax_array_apply (c : Dev nD) (x0 x1 : (⟨Cert.ReferenceIdeal.S8x2048x2048, .f32⟩ : BufTy).Contents (Elt Ideal))
    (hA : ActTile V c x0 x1) (e : Fin 8) (d : Fin 1024) :
    ((dat2 V c).arrAt 5 cfg2.N : S8x1x1024.Idx → Ideal .f32) (ix3 e (0 : Fin 1) d)
      = Cert.ReferenceIdeal.Read.val_main_v52 (F := Ideal) x0 x1 (ix2 e d) := by
  exact congrFun (actMax_array V c x0 x1 hA) (ix3 e (0 : Fin 1) d)

end Running

end Cert.KernelIdeal.Bridge.ActAmax

end
-- ==== Proof.QuantGemmSpec.lean ====
import Idealize.ShloMosaic.PureOps.Ideal.Laws
import Idealize.ShloMosaic.Lib.ValueIdx

/-! # One entry of a row-quantized product, over the extended reals

The first linear layer of the quantized expert, as mathematics: a token's activation row is divided entry by entry by
the smoothing scale, quantized with ONE step for the whole row (the row maximum of the magnitudes, taken as a fold of
max from -inf, floored at a small constant, divided by 127), contracted against a row of already-quantized weights,
and multiplied back by the row's step and by the weight row's step. The gated activation multiplies the logistic-gated
"gate" half of the output columns by the "up" half. Every function here is of plain rows `Fin 2048 → EReal`: the
tiled program and the whole-array program both reduce to it, each through its own layout. No finiteness is assumed:
every operation is the extended reals' own. -/

noncomputable section

namespace Cert.KernelIdeal.Bridge.Linear1

open Idealize.ShloMosaic

/-- Rounding to the nearest integer, ties to even, then clipping to [-127, 127]. -/
def quant (v : EReal) : EReal :=
  min (Ideal.ofBits .f32 0x42FE0000#32) (max (Ideal.ofBits .f32 0xC2FE0000#32) (Ideal.liftRound Ideal.roundHalfEven v))

/-- A row's quantization step: the maximum over the row of |x / s| (a fold of max from -inf), floored at the small
    constant, over 127. -/
def rowStep (xrow srow : Fin 2048 → EReal) : EReal :=
  Ideal.div (max ((Finset.univ : Finset (Fin 2048)).fold max (Ideal.ofBits .f32 0xFF800000#32)
      (fun d => FloatOps.absf (F := Ideal) (φ := .f32) (Ideal.div (xrow d) (srow d)))) (Ideal.ofBits .f32 0x358637BD#32))
    (Ideal.ofBits .f32 0x42FE0000#32)

/-- One entry of the rescaled quantized product: the sum over the features of (quantized activation) times
    (quantized weight), times the row's step, times the weight row's step — in this order of multiplication. -/
def gemmEntry (xrow srow wrow : Fin 2048 → EReal) (wstep : EReal) : EReal :=
  ((∑ d : Fin 2048, quant (Ideal.div (Ideal.div (xrow d) (srow d)) (rowStep xrow srow)) * wrow d) * rowStep xrow srow) * wstep

/-- The gated activation of a gate entry and an up entry: (gate times logistic of gate) times up. -/
def gated (g u : EReal) : EReal := (g * Ideal.logistic g) * u

/-- Column i of the gate half and of the up half of the 2048 output columns. -/
def loCol (i : Fin 1024) : Fin 2048 := ⟨i.val, by have := i.isLt; omega⟩
def hiCol (i : Fin 1024) : Fin 2048 := ⟨1024 + i.val, by have := i.isLt; omega⟩

theorem loCol_val (i : Fin 1024) : (loCol i).val = i.val := rfl
theorem hiCol_val (i : Fin 1024) : (hiCol i).val = 1024 + i.val := rfl

end Cert.KernelIdeal.Bridge.Linear1
-- ==== Proof.Linear1Tile.lean ====
import proofs.«179826_j42494406426926_2_alg».proof.Proof.Gen.KernelIdeal.Frame
import proofs.«179826_j42494406426926_2_alg».proof.Proof.LibLayout
import proofs.«179826_j42494406426926_2_alg».proof.Proof.QuantGemmSpec
import Idealize.ShloMosaic.PureOps.Ideal.Laws
import Idealize.ShloMosaic.Lib.ValueIdx
import Idealize.ShloMosaic.Lib.Pipeline.Value
import Idealize.ShloMosaic.Lib.ValueLayout

/-! # One tile of the first quantized linear layer, read at an index

The body's arithmetic on one tile of 256 token rows, over the extended reals, entry by entry over explicit
coordinates: the stored block of the gated activation at (row r, column i) is the gated activation of two entries of
the row-quantized product (`gemmEntry`), at output columns i and 1024 + i, of row r of the activation block, the one
row of the smoothing scale, rows i and 1024 + i of the quantized weight block and their steps. The steps: the tile's
intermediate vectors are named as the body forms them; each is read at an index through its layout (a leading unit
axis dropped, one row broadcast down the tile, a column broadcast across it); the row maximum is a fold of max over
the feature axis; the contraction into a zero accumulator pairs feature d of an activation row with feature d of a
weight ROW (both operands contracted along their second axis). -/

noncomputable section

namespace Cert.KernelIdeal.Bridge.Linear1

open Idealize.ShloMosaic Idealize.ShloMosaic.TcCoe Idealize.ShloMosaic.ValueIdx
open Cert.KernelIdeal Cert.KernelIdeal.Gen Cert.Dist

/-! ## Rows of the blocks -/

/-- Row r of the activation block. -/
def xRow (x : Vec Ideal S1x256x2048 .f32) (r : Fin 256) : Fin 2048 → EReal := fun d => x (ix3 (0 : Fin 1) r d)
/-- The one row of the smoothing-scale block. -/
def sRow (s : Vec Ideal S1x1x2048 .f32) : Fin 2048 → EReal := fun d => s (ix3 (0 : Fin 1) (0 : Fin 1) d)
/-- Row o of the quantized weight block. -/
def wRow (wq : Vec Ideal S1x2048x2048 .bf16) (o : Fin 2048) : Fin 2048 → EReal := fun d => (wq (ix3 (0 : Fin 1) o d) : EReal)

/-! ## The tile's intermediate vectors, as the body forms them -/

/-- The tile of activations over the smoothing scale. -/
def tileXs (s : Vec Ideal S1x1x2048 .f32) (x : Vec Ideal S1x256x2048 .f32) : FVec Ideal S256x2048 .f32 :=
  divf (shapeCast S256x2048 x shapeCasts_S1x256x2048_S256x2048)
    (broadcastTo S256x2048 (shapeCast S1x2048 s shapeCasts_S1x1x2048_S1x2048) broadcasts_S1x2048_S256x2048)

theorem tileXs_apply (s : Vec Ideal S1x1x2048 .f32) (x : Vec Ideal S1x256x2048 .f32) (r : Fin 256) (d : Fin 2048) :
    tileXs s x (ix2 r d) = Ideal.div (xRow x r d) (sRow s d) :=
  congrArg₂ Ideal.div (shapeCast_1ab_ab_apply x shapeCasts_S1x256x2048_S256x2048 r d)
    ((broadcastTo_1b_ab_apply _ broadcasts_S1x2048_S256x2048 r d).trans
      (shapeCast_1ab_ab_apply s shapeCasts_S1x1x2048_S1x2048 (0 : Fin 1) d))

/-- Row r with the feature coordinate put back on the reduced axis is (r, d). -/
theorem lift_row (h : S256x2048.Reduces [1] S256) (r : Fin 256) (d : Fin (S256x2048.size 1)) :
    h.lift (ix1 r) d = ix2 r (⟨d.val, d.isLt⟩ : Fin 2048) := by
  funext c; apply Fin.ext
  fin_cases c <;> rfl

/-- The column of row steps. -/
def tileScale (s : Vec Ideal S1x1x2048 .f32) (x : Vec Ideal S1x256x2048 .f32) : FVec Ideal S256x1 .f32 :=
  divf (maximumf (shapeCast S256x1 (multiReduction (F := Ideal) .maximumf [1] S256 (absf (tileXs s x)) 0xFF800000#32
        reduces_S256x2048_S256 (.inl rfl) rfl) shapeCasts_S256_S256x1)
      (broadcast S256x1 (Scalar.ofBits .f32 0x358637BD#32)))
    (broadcast S256x1 (Scalar.ofBits .f32 0x42FE0000#32))

theorem tileScale_apply (s : Vec Ideal S1x1x2048 .f32) (x : Vec Ideal S1x256x2048 .f32) (r : Fin 256) :
    tileScale s x (ix2 r (0 : Fin 1)) = rowStep (xRow x r) (sRow s) := by
  have hm : shapeCast S256x1 (multiReduction (F := Ideal) .maximumf [1] S256 (absf (tileXs s x)) 0xFF800000#32
        reduces_S256x2048_S256 (.inl rfl) rfl) shapeCasts_S256_S256x1 (ix2 r (0 : Fin 1))
      = (Finset.univ : Finset (Fin 2048)).fold max (Ideal.ofBits .f32 0xFF800000#32)
          (fun d => FloatOps.absf (F := Ideal) (φ := .f32) (Ideal.div (xRow x r d) (sRow s d))) := by
    refine (shapeCast_a_a1_apply _ shapeCasts_S256_S256x1 r (0 : Fin 1)).trans ?_
    refine (Ideal.multiReduction_maximumf_single _ _ reduces_S256x2048_S256 (.inl rfl) rfl (ix1 r)).trans ?_
    refine congrArg (fun f => Finset.fold max (Ideal.ofBits .f32 0xFF800000#32) f (Finset.univ : Finset (Fin 2048))) ?_
    funext d
    show FloatOps.absf (tileXs s x (reduces_S256x2048_S256.lift (ix1 r) d)) = _
    rw [lift_row, tileXs_apply]
    rfl
  unfold tileScale rowStep
  exact congrArg (fun v => Ideal.div (max v (Ideal.ofBits .f32 0x358637BD#32)) (Ideal.ofBits .f32 0x42FE0000#32)) hm

/-- The tile of quantized activations. -/
def tileQ (s : Vec Ideal S1x1x2048 .f32) (x : Vec Ideal S1x256x2048 .f32) : FVec Ideal S256x2048 .bf16 :=
  truncf .bf16 (minimumf (broadcast S256x2048 (Scalar.ofBits .f32 0x42FE0000#32))
    (maximumf (broadcast S256x2048 (Scalar.ofBits .f32 0xC2FE0000#32))
      (roundeven (divf (tileXs s x) (broadcastTo S256x2048 (tileScale s x) broadcasts_S256x1_S256x2048))))) bitsLt_bf16_f32

theorem tileQ_apply (s : Vec Ideal S1x1x2048 .f32) (x : Vec Ideal S1x256x2048 .f32) (r : Fin 256) (d : Fin 2048) :
    tileQ s x (ix2 r d) = quant (Ideal.div (Ideal.div (xRow x r d) (sRow s d)) (rowStep (xRow x r) (sRow s))) := by
  have h1 : divf (tileXs s x) (broadcastTo S256x2048 (tileScale s x) broadcasts_S256x1_S256x2048) (ix2 r d)
      = Ideal.div (Ideal.div (xRow x r d) (sRow s d)) (rowStep (xRow x r) (sRow s)) :=
    congrArg₂ Ideal.div (tileXs_apply s x r d)
      ((broadcastTo_a1_ab_apply _ broadcasts_S256x1_S256x2048 r d).trans (tileScale_apply s x r))
  unfold tileQ quant
  exact congrArg (fun v => min (Ideal.ofBits .f32 0x42FE0000#32)
    (max (Ideal.ofBits .f32 0xC2FE0000#32) (Ideal.liftRound Ideal.roundHalfEven v))) h1

/-! ## The contraction -/

/-- The left operand is read at the output's row, -/
theorem tileDot_lhs_0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide),
    dif_pos (show (0 : Fin S256x2048.rank) ∈ dot_S256x2048_S2048x2048_S256x2048_1_1_0_0_n_n.lhsNonContracting by decide)]
  rfl
/-- and the right operand at the ROW named by the output's column. -/
theorem tileDot_rhs_0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide),
    dif_pos (show (0 : Fin S2048x2048.rank) ∈ dot_S256x2048_S2048x2048_S256x2048_1_1_0_0_n_n.rhsNonContracting by decide)]
  rfl

/-- The tile's contraction into a zero accumulator pairs feature d of the left row with feature d of the right ROW:
    both operands are contracted along their second axis. -/
theorem tileDot_apply (lhs : FVec Ideal S256x2048 .bf16) (rhs : FVec Ideal S2048x2048 .bf16) (r : Fin 256) (o : Fin 2048) :
    matmul (F := Ideal) dot_S256x2048_S2048x2048_S256x2048_1_1_0_0_n_n none lhs rhs (constant S256x2048 .f32 0x00000000#32) (ix2 r o)
      = ∑ d : Fin 2048, lhs (ix2 r d) * rhs (ix2 o d) := by
  refine (Ideal.matmul_constant_zero_apply dot_S256x2048_S2048x2048_S256x2048_1_1_0_0_n_n none lhs rhs (ix2 r o)).trans ?_
  rw [← Equiv.sum_comp (ValueIdx.contrEquiv1 dot_S256x2048_S2048x2048_S256x2048_1_1_0_0_n_n 2048 rfl rfl).symm]
  refine Finset.sum_congr rfl fun k _ => ?_
  have hk := ValueIdx.contrEquiv1_symm_val dot_S256x2048_S2048x2048_S256x2048_1_1_0_0_n_n 2048 rfl rfl k
  have el : dot_S256x2048_S2048x2048_S256x2048_1_1_0_0_n_n.lhsIdx (ix2 r o) ((ValueIdx.contrEquiv1 dot_S256x2048_S2048x2048_S256x2048_1_1_0_0_n_n 2048 rfl rfl).symm k) = ix2 r k :=
    funext fun a => Fin.ext (by
      match a with
      | ⟨0, _⟩ => exact tileDot_lhs_0 _ _
      | ⟨1, _⟩ => exact (dot_S256x2048_S2048x2048_S256x2048_1_1_0_0_n_n.lhsIdx_val_of_single rfl _ _).trans hk)
  have er : dot_S256x2048_S2048x2048_S256x2048_1_1_0_0_n_n.rhsIdx (ix2 r o) ((ValueIdx.contrEquiv1 dot_S256x2048_S2048x2048_S256x2048_1_1_0_0_n_n 2048 rfl rfl).symm k) = ix2 o k :=
    funext fun a => Fin.ext (by
      match a with
      | ⟨0, _⟩ => exact tileDot_rhs_0 _ _
      | ⟨1, _⟩ => exact (dot_S256x2048_S2048x2048_S256x2048_1_1_0_0_n_n.rhsIdx_val_of_single rfl _ _).trans hk)
  rw [el, er]

/-! ## The rescaled product and the gated activation, at an index -/

/-- The rescaled product at (row r, output column o): that entry of the row-quantized product. -/
theorem pay5_apply (s : Vec Ideal S1x1x2048 .f32) (x : Vec Ideal S1x256x2048 .f32) (wq : Vec Ideal S1x2048x2048 .bf16)
    (wsc : Vec Ideal S1x1x2048 .f32) (r : Fin 256) (o : Fin 2048) :
    k2_pay5 (F := Ideal) s x wq wsc (ix2 r o)
      = gemmEntry (xRow x r) (sRow s) (wRow wq o) (wsc (ix3 (0 : Fin 1) (0 : Fin 1) o)) := by
  have e : k2_pay5 (F := Ideal) s x wq wsc
      = mulf (mulf (matmul (F := Ideal) dot_S256x2048_S2048x2048_S256x2048_1_1_0_0_n_n none (tileQ s x)
            (shapeCast S2048x2048 wq shapeCasts_S1x2048x2048_S2048x2048) (constant S256x2048 .f32 0x00000000#32))
          (broadcastTo S256x2048 (tileScale s x) broadcasts_S256x1_S256x2048))
        (broadcastTo S256x2048 (shapeCast S1x2048 wsc shapeCasts_S1x1x2048_S1x2048) broadcasts_S1x2048_S256x2048) := rfl
  rw [e]
  have hd := tileDot_apply (tileQ s x) (shapeCast S2048x2048 wq shapeCasts_S1x2048x2048_S2048x2048) r o
  unfold gemmEntry
  exact congrArg₂ (fun a b : EReal => a * b)
    (congrArg₂ (fun a b : EReal => a * b)
      (hd.trans (Finset.sum_congr rfl fun d _ => congrArg₂ (fun a b : EReal => a * b) (tileQ_apply s x r d)
        (shapeCast_1ab_ab_apply wq shapeCasts_S1x2048x2048_S2048x2048 o d)))
      ((broadcastTo_a1_ab_apply _ broadcasts_S256x1_S256x2048 r o).trans (tileScale_apply s x r)))
    ((broadcastTo_1b_ab_apply _ broadcasts_S1x2048_S256x2048 r o).trans
      (shapeCast_1ab_ab_apply wsc shapeCasts_S1x1x2048_S1x2048 (0 : Fin 1) o))

/-- The gated activation the body forms, at (row r, column i) of the tile: the gate entry is output column i, the up
    entry output column 1024 + i. -/
theorem pay1_apply (s : Vec Ideal S1x1x2048 .f32) (x : Vec Ideal S1x256x2048 .f32) (wq : Vec Ideal S1x2048x2048 .bf16)
    (wsc : Vec Ideal S1x1x2048 .f32) (r : Fin 256) (i : Fin 1024) :
    k2_pay1 (F := Ideal) (k2_pay6 s x wq wsc) (k2_pay7 s x wq wsc) (ix2 r i)
      = gated (gemmEntry (xRow x r) (sRow s) (wRow wq (loCol i)) (wsc (ix3 (0 : Fin 1) (0 : Fin 1) (loCol i))))
          (gemmEntry (xRow x r) (sRow s) (wRow wq (hiCol i)) (wsc (ix3 (0 : Fin 1) (0 : Fin 1) (hiCol i)))) := by
  have hlo : extractStridedSlice S256x1024 ![0, 0] (k2_pay5 (F := Ideal) s x wq wsc) slices_S256x2048_o0_0_S256x1024 (ix2 r i)
      = gemmEntry (xRow x r) (sRow s) (wRow wq (loCol i)) (wsc (ix3 (0 : Fin 1) (0 : Fin 1) (loCol i))) :=
    (slice2_axis1_apply 0 _ slices_S256x2048_o0_0_S256x1024 r i (loCol i) (by show i.val = 0 + i.val; omega)).trans
      (pay5_apply s x wq wsc r (loCol i))
  have hhi : extractStridedSlice S256x1024 ![0, 1024] (k2_pay5 (F := Ideal) s x wq wsc) slices_S256x2048_o0_1024_S256x1024 (ix2 r i)
      = gemmEntry (xRow x r) (sRow s) (wRow wq (hiCol i)) (wsc (ix3 (0 : Fin 1) (0 : Fin 1) (hiCol i))) :=
    (slice2_axis1_apply 1024 _ slices_S256x2048_o0_1024_S256x1024 r i (hiCol i) rfl).trans
      (pay5_apply s x wq wsc r (hiCol i))
  unfold k2_pay1 k2_pay6 k2_pay7 gated
  exact congrArg₂ (fun a b : EReal => a * b)
    (congrArg (fun v : EReal => v * Ideal.logistic v) hlo) hhi

/-- The stored block is that tile with a leading unit axis. -/
theorem pay2_apply (s : Vec Ideal S1x1x2048 .f32) (x : Vec Ideal S1x256x2048 .f32) (wq : Vec Ideal S1x2048x2048 .bf16)
    (wsc : Vec Ideal S1x1x2048 .f32) (r : Fin 256) (i : Fin 1024) :
    k2_pay2 (F := Ideal) (k2_pay6 s x wq wsc) (k2_pay7 s x wq wsc) (ix3 (0 : Fin 1) r i)
      = gated (gemmEntry (xRow x r) (sRow s) (wRow wq (loCol i)) (wsc (ix3 (0 : Fin 1) (0 : Fin 1) (loCol i))))
          (gemmEntry (xRow x r) (sRow s) (wRow wq (hiCol i)) (wsc (ix3 (0 : Fin 1) (0 : Fin 1) (hiCol i)))) := by
  unfold k2_pay2
  exact (shapeCast_ab_1ab_apply _ shapeCasts_S256x1024_S1x256x1024 (0 : Fin 1) r i).trans (pay1_apply s x wq wsc r i)

end Cert.KernelIdeal.Bridge.Linear1
-- ==== Proof.Linear1Ref.lean ====
import proofs.«179826_j42494406426926_2_alg».proof.Proof.Gen.ReferenceIdeal.Read
import proofs.«179826_j42494406426926_2_alg».proof.Proof.QuantGemmSpec
import Idealize.ShloMosaic.PureOps.Ideal.Laws
import Idealize.ShloMosaic.Lib.ValueIdx
import Idealize.ShloMosaic.Lib.Pipeline.Value

/-! # The whole-array program's first linear layer, read at an index

The plain program computes the same layer on whole [8, 2048, 2048] arrays. Read at (expert e, token t, column i), its
gated activation is the gated activation of two entries of the row-quantized product (`gemmEntry`) of: token t's
activation row of expert e, expert e's smoothing-scale row, rows i and 1024 + i of expert e's quantized weights, and
those rows' steps. The steps follow the program's stages in order: the division by the broadcast smoothing scale; the
row maximum of the magnitudes, a reduce from -inf over the feature axis, read as a fold of max; the row's step; the
rounding and clipping; the batched contraction, whose right operand is the transposed quantized weights, so that at
an index it pairs feature d of the activation row with feature d of a weight ROW; the two multiplications by the
steps; the two column slices; and the gate, spelled out as 1 / (1 + exp (-x)), which is the logistic function. -/

noncomputable section

namespace Cert.KernelIdeal.Bridge.Linear1

open Idealize.ShloMosaic Idealize.ShloMosaic.ValueIdx
open Cert.ReferenceIdeal Cert.ReferenceIdeal.Read

/-- A whole [8, 2048, 2048] argument array over the extended reals. -/
abbrev RArr : Type := (⟨Cert.ReferenceIdeal.S8x2048x2048, .f32⟩ : BufTy).Contents (Elt Ideal)

/-- Token t's activation row of expert e. -/
def refXRow (x0 : RArr) (e : Fin 8) (t : Fin 2048) : Fin 2048 → EReal := fun d => x0 (ix3 e t d)
/-- Expert e's smoothing-scale row. -/
def refSRow (x0 x1 : RArr) (e : Fin 8) : Fin 2048 → EReal := fun d => val_main_v11 (F := Ideal) x0 x1 (ix2 e d)
/-- Row o of expert e's quantized weights. -/
def refWRow (x0 x1 : RArr) (e : Fin 8) (o : Fin 2048) : Fin 2048 → EReal := fun d => val_main_v39 (F := Ideal) x0 x1 (ix3 e o d)

/-- The activations over the smoothing scale. -/
theorem ref14_apply (x0 x1 : RArr) (e : Fin 8) (t d : Fin 2048) :
    val_main_v14 (F := Ideal) x0 x1 (ix3 e t d) = Ideal.div (refXRow x0 e t d) (refSRow x0 x1 e d) := by
  have hi : idx_main_v12 (idx_main_v13 (ix3 e t d)) = ix2 e d := funext fun a => Fin.ext (by match a with | ⟨0, _⟩ => rfl | ⟨1, _⟩ => rfl)
  rw [val_main_v14_apply, val_main_v13_apply, val_main_v12_apply, hi]
  rfl

/-- (e, t) with the feature coordinate put back on the reduced axis is (e, t, d). -/
theorem lift_feat (h : Cert.ReferenceIdeal.S8x2048x2048.Reduces [2] Cert.ReferenceIdeal.S8x2048) (e : Fin 8) (t : Fin 2048)
    (d : Fin (Cert.ReferenceIdeal.S8x2048x2048.size 2)) :
    h.lift (ix2 e t) d = ix3 e t (⟨d.val, d.isLt⟩ : Fin 2048) := by
  funext c; apply Fin.ext
  fin_cases c <;> rfl

/-- The maximum over the last axis of any [8, 2048, 2048] array from -inf, at row (e, t): the fold of max over its 2048
    entries. -/
theorem hostRowMax (x : Cert.ReferenceIdeal.S8x2048x2048.Idx → Ideal .f32) (e : Fin 8) (t : Fin 2048) :
    Host.reduce (FloatOps.maximumf (F := Ideal) (φ := .f32)) x (constant (F := Ideal) Cert.ReferenceIdeal.S_ .f32 0xFF800000#32)
        Cert.ReferenceIdeal.Gen.reducesTo_S8x2048x2048_S8x2048_d2 Cert.ReferenceIdeal.Gen.h_S_ (ix2 e t)
      = (Finset.univ : Finset (Fin 2048)).fold max (Ideal.ofBits .f32 0xFF800000#32) (fun d => x (ix3 e t d)) := by
  have h : Cert.ReferenceIdeal.S8x2048x2048.Reduces [2] Cert.ReferenceIdeal.S8x2048 := by decide
  refine (Host.reduce_eq_fold_single (s := Cert.ReferenceIdeal.S8x2048x2048) (t := Cert.ReferenceIdeal.S8x2048) (a := 2)
    (u := Cert.ReferenceIdeal.S_) (FloatOps.maximumf (F := Ideal) (φ := .f32)) x _
    Cert.ReferenceIdeal.Gen.reducesTo_S8x2048x2048_S8x2048_d2 h Cert.ReferenceIdeal.Gen.h_S_ (ix2 e t)).trans ?_
  have hf : (x ∘ h.lift (ix2 e t)) = fun d : Fin 2048 => x (ix3 e t d) :=
    funext fun d => congrArg x (lift_feat h e t d)
  exact congrArg (fun f => Finset.fold max (Ideal.ofBits .f32 0xFF800000#32) f (Finset.univ : Finset (Fin 2048))) hf

/-- The row maximum of the magnitudes: the reduce from -inf over the feature axis is a fold of max. -/
theorem ref19_apply (x0 x1 : RArr) (e : Fin 8) (t : Fin 2048) :
    val_main_v19 (F := Ideal) x0 x1 (ix2 e t)
      = (Finset.univ : Finset (Fin 2048)).fold max (Ideal.ofBits .f32 0xFF800000#32)
          (fun d => FloatOps.absf (F := Ideal) (φ := .f32) (Ideal.div (refXRow x0 e t d) (refSRow x0 x1 e d))) := by
  unfold val_main_v19 val_main_cst_4
  refine (hostRowMax (val_main_v18 (F := Ideal) x0 x1) e t).trans ?_
  have hf : (fun d : Fin 2048 => val_main_v18 (F := Ideal) x0 x1 (ix3 e t d))
      = fun d => FloatOps.absf (F := Ideal) (φ := .f32) (Ideal.div (refXRow x0 e t d) (refSRow x0 x1 e d)) :=
    funext fun d => by rw [val_main_v18_apply, ref14_apply]; rfl
  rw [hf]

/-- The row's quantization step. -/
theorem ref24_apply (x0 x1 : RArr) (e : Fin 8) (t : Fin 2048) :
    val_main_v24 (F := Ideal) x0 x1 (ix3 e t (0 : Fin 1)) = rowStep (refXRow x0 e t) (refSRow x0 x1 e) := by
  have hi : idx_main_v20 (ix3 e t (0 : Fin 1)) = ix2 e t := funext fun a => Fin.ext (by match a with | ⟨0, _⟩ => rfl | ⟨1, _⟩ => rfl)
  rw [val_main_v24_apply, val_main_v22_apply, val_main_v20_apply, val_main_v21_apply, val_main_v23_apply, hi, ref19_apply]
  rfl

/-- The quantized activations. -/
theorem ref35_apply (x0 x1 : RArr) (e : Fin 8) (t d : Fin 2048) :
    val_main_v35 (F := Ideal) x0 x1 (ix3 e t d)
      = quant (Ideal.div (Ideal.div (refXRow x0 e t d) (refSRow x0 x1 e d)) (rowStep (refXRow x0 e t) (refSRow x0 x1 e))) := by
  have hi : idx_main_v32 (ix3 e t d) = ix3 e t (0 : Fin 1) := funext fun a => Fin.ext (by match a with | ⟨0, _⟩ => rfl | ⟨1, _⟩ => rfl | ⟨2, _⟩ => rfl)
  rw [val_main_v35_apply, val_main_call1_v4_apply, val_main_call1_v3_apply, val_main_cst_11_apply, val_main_call1_v2_apply,
    val_main_call1_v1_apply, val_main_call1_v0_apply, val_main_cst_10_apply, val_main_v34_apply, val_main_v33_apply,
    val_main_v32_apply, ref14_apply, hi, ref24_apply]
  rfl

/-- The rescaled product at (expert e, token t, output column o): that entry of the row-quantized product. The
    contraction's right operand is the transposed weights, so it reads weight ROW o at feature d. -/
theorem ref46_apply (x0 x1 : RArr) (e : Fin 8) (t o : Fin 2048) :
    val_main_v46 (F := Ideal) x0 x1 (ix3 e t o)
      = gemmEntry (refXRow x0 e t) (refSRow x0 x1 e) (refWRow x0 x1 e o) (val_main_v31 (F := Ideal) x0 x1 (ix3 e o (0 : Fin 1))) := by
  have hi42 : idx_main_v42 (ix3 e t o) = ix3 e t (0 : Fin 1) := funext fun a => Fin.ext (by match a with | ⟨0, _⟩ => rfl | ⟨1, _⟩ => rfl | ⟨2, _⟩ => rfl)
  have hi45 : idx_main_v44 (idx_main_v45 (ix3 e t o)) = ix3 e o (0 : Fin 1) := funext fun a => Fin.ext (by match a with | ⟨0, _⟩ => rfl | ⟨1, _⟩ => rfl | ⟨2, _⟩ => rfl)
  rw [val_main_v46_apply, val_main_v43_apply, val_main_v41_apply, val_main_v42_apply, val_main_v45_apply, val_main_v44_apply,
    hi42, hi45, ref24_apply]
  have hs : (fun k : Fin 2048 => val_main_v35 (F := Ideal) x0 x1 (lidx_main_v41 (ix3 e t o) k)
        * val_main_v40 (F := Ideal) x0 x1 (ridx_main_v41 (ix3 e t o) k))
      = fun k : Fin 2048 => quant (Ideal.div (Ideal.div (refXRow x0 e t k) (refSRow x0 x1 e k))
          (rowStep (refXRow x0 e t) (refSRow x0 x1 e))) * refWRow x0 x1 e o k :=
    funext fun k => by
      have hl : lidx_main_v41 (ix3 e t o) k = ix3 e t k := funext fun a => Fin.ext (by match a with | ⟨0, _⟩ => rfl | ⟨1, _⟩ => rfl | ⟨2, _⟩ => rfl)
      have hr : idx_main_v40 (ridx_main_v41 (ix3 e t o) k) = ix3 e o k := funext fun a => Fin.ext (by match a with | ⟨0, _⟩ => rfl | ⟨1, _⟩ => rfl | ⟨2, _⟩ => rfl)
      rw [hl, ref35_apply, val_main_v40_apply, hr]
      rfl
  rw [hs]
  rfl

/-- The gated activation at (expert e, token t, column i): the gate entry is output column i, the up entry output
    column 1024 + i; the gate's 1 / (1 + exp (-x)) is the logistic function. -/
theorem ref50_apply (x0 x1 : RArr) (e : Fin 8) (t : Fin 2048) (i : Fin 1024) :
    val_main_v50 (F := Ideal) x0 x1 (ix3 e t i)
      = gated (gemmEntry (refXRow x0 e t) (refSRow x0 x1 e) (refWRow x0 x1 e (loCol i))
            (val_main_v31 (F := Ideal) x0 x1 (ix3 e (loCol i) (0 : Fin 1))))
          (gemmEntry (refXRow x0 e t) (refSRow x0 x1 e) (refWRow x0 x1 e (hiCol i))
            (val_main_v31 (F := Ideal) x0 x1 (ix3 e (hiCol i) (0 : Fin 1)))) := by
  have hi47 : idx_main_v47 (ix3 e t i) = ix3 e t (loCol i) := funext fun a => Fin.ext (by match a with | ⟨0, _⟩ => rfl | ⟨1, _⟩ => rfl | ⟨2, _⟩ => rfl)
  have hi48 : idx_main_v48 (ix3 e t i) = ix3 e t (hiCol i) := funext fun a => Fin.ext (by match a with | ⟨0, _⟩ => rfl | ⟨1, _⟩ => rfl | ⟨2, _⟩ => rfl)
  have one : Ideal.ofBits .f32 0x3F800000#32 = (1 : EReal) := IdealRules.sign_bit.ideal_onePat .f32
  rw [val_main_v50_apply, val_main_v49_apply, val_main_call4_v5_apply, val_main_call4_v4_apply, val_main_call4_cst_0_apply,
    val_main_call4_v3_apply, val_main_call4_v2_apply, val_main_call4_cst_apply, val_main_call4_v1_apply, val_main_call4_v0_apply,
    val_main_v47_apply, val_main_v48_apply, hi47, hi48, ref46_apply, ref46_apply]
  unfold gated Ideal.logistic
  show (_ * Ideal.div (Ideal.ofBits .f32 0x3F800000#32) (Ideal.ofBits .f32 0x3F800000#32 + Ideal.exp (-_))) * _ = _
  rw [one]

end Cert.KernelIdeal.Bridge.Linear1
-- ==== Proof.Linear1Block.lean ====
import proofs.«179826_j42494406426926_2_alg».proof.Proof.Gen.KernelIdeal.Frame
import proofs.«179826_j42494406426926_2_alg».proof.Proof.Gen.ReferenceIdeal.Read
import proofs.«179826_j42494406426926_2_alg».proof.Proof.QuantGemmSpec
import proofs.«179826_j42494406426926_2_alg».proof.Proof.Linear1Tile
import proofs.«179826_j42494406426926_2_alg».proof.Proof.Linear1Ref
import Idealize.ShloMosaic.Lib.ValueIdx
import Idealize.ShloMosaic.Lib.Pipeline.Value
import Idealize.ShloMosaic.PureOps.Ideal.Laws

/-! # The tiled first linear layer is the whole-array one, tile by tile

Grid point t = 8 e + k handles expert e and its k-th tile of 256 token rows. The four input blocks the body reads
there are cut from the arrays the region finds: row r of the activation block is token 256 k + r of expert e; the
smoothing-scale block is expert e's row; the quantized weight block is expert e's weight; the weight-step block is
expert e's steps. When those arrays are the whole-array program's activations, smoothing scale, quantized gate-up
weight and weight steps, each entry (r, i) of the gated activation the body forms is the whole-array program's gated
activation at (e, 256 k + r, i): both are the same function of the same four rows. -/

noncomputable section

namespace Cert.KernelIdeal.Bridge.Linear1

open Idealize.ShloMosaic Idealize.ShloMosaic.TcCoe Idealize.ShloMosaic.ValueIdx Idealize.SL.Sem
open Cert.KernelIdeal Cert.KernelIdeal.Gen
open Cert.ReferenceIdeal.Read

variable (V : (c : Dev nD) → (b : Ref sig .tc) → Buf (Elt Ideal) ((c : Thread nD τ).loc b))
variable (x0 x1 : RArr)

/-- The four input index maps over the grid: the activations' block is (e, k, 0), the three per-expert operands' is
    (e, 0, 0), where e = t / 8 and k = t % 8. -/
theorem idx2 : ∀ t : Fin cfg2.N,
    win2_0.index t (0 : Fin 3) = t.val / 8 ∧ win2_0.index t (1 : Fin 3) = t.val % 8 ∧ win2_0.index t (2 : Fin 3) = 0
    ∧ win2_1.index t (0 : Fin 3) = t.val / 8 ∧ win2_1.index t (1 : Fin 3) = 0 ∧ win2_1.index t (2 : Fin 3) = 0
    ∧ win2_2.index t (0 : Fin 3) = t.val / 8 ∧ win2_2.index t (1 : Fin 3) = 0 ∧ win2_2.index t (2 : Fin 3) = 0
    ∧ win2_3.index t (0 : Fin 3) = t.val / 8 ∧ win2_3.index t (1 : Fin 3) = 0 ∧ win2_3.index t (2 : Fin 3) = 0 :=
  (by decide +kernel : ∀ t : Fin grid2.N, _)

/-- Row r of the activation block at point t is token 256 k + r of expert e. -/
theorem xRow_blk (c : Dev nD) (h0 : V c main_arg0 = x0) (t : Fin cfg2.N) (r : Fin 256) (e : Fin 8) (R : Fin 2048)
    (he : e.val = t.val / 8) (hR : R.val = 256 * (t.val % 8) + r.val) :
    xRow (iblk2 V c 0 t) r = refXRow x0 e R := by
  obtain ⟨a0, a1, a2, -⟩ := idx2 t
  funext d
  unfold xRow refXRow iblk2
  rw [View.read_apply]
  show V c main_arg0 (((cfg2.win 0).blk t).view.emb (ix3 (0 : Fin 1) r d)) = _
  rw [h0]
  refine congrArg _ (funext fun a => Fin.ext ?_)
  match a with
  | ⟨0, _⟩ => show win2_0.index t (0 : Fin 3) * 1 + 1 * 0 = e.val; omega
  | ⟨1, _⟩ => show win2_0.index t (1 : Fin 3) * 256 + 1 * r.val = R.val; omega
  | ⟨2, _⟩ => show win2_0.index t (2 : Fin 3) * 2048 + 1 * d.val = d.val; omega

/-- The smoothing-scale block at point t is expert e's row. -/
theorem sRow_blk (c : Dev nD)
    (hs : ∀ (e : Fin 8) (d : Fin 2048), V c main_v8 (ix3 e (0 : Fin 1) d) = val_main_v11 (F := Ideal) x0 x1 (ix2 e d))
    (t : Fin cfg2.N) (e : Fin 8) (he : e.val = t.val / 8) :
    sRow (iblk2 V c 1 t) = refSRow x0 x1 e := by
  obtain ⟨-, -, -, b0, b1, b2, -⟩ := idx2 t
  funext d
  unfold sRow refSRow iblk2
  rw [View.read_apply]
  show V c main_v8 (((cfg2.win 1).blk t).view.emb (ix3 (0 : Fin 1) (0 : Fin 1) d)) = _
  have hi : ((cfg2.win 1).blk t).view.emb (ix3 (0 : Fin 1) (0 : Fin 1) d) = ix3 e (0 : Fin 1) d :=
    funext fun a => Fin.ext (by
      match a with
      | ⟨0, _⟩ => show win2_1.index t (0 : Fin 3) * 1 + 1 * 0 = e.val; omega
      | ⟨1, _⟩ => show win2_1.index t (1 : Fin 3) * 1 + 1 * 0 = 0; omega
      | ⟨2, _⟩ => show win2_1.index t (2 : Fin 3) * 2048 + 1 * d.val = d.val; omega)
  rw [hi, hs]

/-- Row o of the quantized weight block at point t is row o of expert e's quantized weight. -/
theorem wRow_blk (c : Dev nD) (hq : V c main_v9_0 = val_main_v39 (F := Ideal) x0 x1) (t : Fin cfg2.N) (e : Fin 8)
    (he : e.val = t.val / 8) (o : Fin 2048) :
    wRow (iblk2 V c 2 t) o = refWRow x0 x1 e o := by
  obtain ⟨-, -, -, -, -, -, w0, w1, w2, -⟩ := idx2 t
  funext d
  unfold wRow refWRow iblk2
  rw [View.read_apply]
  show V c main_v9_0 (((cfg2.win 2).blk t).view.emb (ix3 (0 : Fin 1) o d)) = _
  rw [hq]
  refine congrArg _ (funext fun a => Fin.ext ?_)
  match a with
  | ⟨0, _⟩ => show win2_2.index t (0 : Fin 3) * 1 + 1 * 0 = e.val; omega
  | ⟨1, _⟩ => show win2_2.index t (1 : Fin 3) * 2048 + 1 * o.val = o.val; omega
  | ⟨2, _⟩ => show win2_2.index t (2 : Fin 3) * 2048 + 1 * d.val = d.val; omega

/-- The weight-step block at point t, at column o, is expert e's step of weight row o. -/
theorem wstep_blk (c : Dev nD)
    (hsc : ∀ (e : Fin 8) (o : Fin 2048), V c main_v9_1 (ix3 e (0 : Fin 1) o) = val_main_v31 (F := Ideal) x0 x1 (ix3 e o (0 : Fin 1)))
    (t : Fin cfg2.N) (e : Fin 8) (he : e.val = t.val / 8) (o : Fin 2048) :
    (iblk2 V c 3 t : Vec Ideal S1x1x2048 .f32) (ix3 (0 : Fin 1) (0 : Fin 1) o)
      = val_main_v31 (F := Ideal) x0 x1 (ix3 e o (0 : Fin 1)) := by
  obtain ⟨-, -, -, -, -, -, -, -, -, s0, s1, s2⟩ := idx2 t
  unfold iblk2
  rw [View.read_apply]
  show V c main_v9_1 (((cfg2.win 3).blk t).view.emb (ix3 (0 : Fin 1) (0 : Fin 1) o)) = _
  have hi : ((cfg2.win 3).blk t).view.emb (ix3 (0 : Fin 1) (0 : Fin 1) o) = ix3 e (0 : Fin 1) o :=
    funext fun a => Fin.ext (by
      match a with
      | ⟨0, _⟩ => show win2_3.index t (0 : Fin 3) * 1 + 1 * 0 = e.val; omega
      | ⟨1, _⟩ => show win2_3.index t (1 : Fin 3) * 1 + 1 * 0 = 0; omega
      | ⟨2, _⟩ => show win2_3.index t (2 : Fin 3) * 2048 + 1 * o.val = o.val; omega)
  rw [hi, hsc]

/-- THE ELEMENT FACT. At grid point t, the gated activation the body forms, read at (row r, column i) of the tile, is
    the whole-array program's gated activation at (expert e, token R, column i), where e = t / 8 and
    R = 256 (t % 8) + r — for ANY contents V at the region's entry whose four operand arrays are the whole-array
    program's activations, smoothing scale, quantized gate-up weight and weight steps. -/
theorem linear1_block_elem (c : Dev nD) (h0 : V c main_arg0 = x0)
    (hs : ∀ (e : Fin 8) (d : Fin 2048), V c main_v8 (ix3 e (0 : Fin 1) d) = val_main_v11 (F := Ideal) x0 x1 (ix2 e d))
    (hq : V c main_v9_0 = val_main_v39 (F := Ideal) x0 x1)
    (hsc : ∀ (e : Fin 8) (o : Fin 2048), V c main_v9_1 (ix3 e (0 : Fin 1) o) = val_main_v31 (F := Ideal) x0 x1 (ix3 e o (0 : Fin 1)))
    (t : Fin cfg2.N) (r : Fin 256) (i : Fin 1024) (e : Fin 8) (R : Fin 2048)
    (he : e.val = t.val / 8) (hR : R.val = 256 * (t.val % 8) + r.val) :
    k2_pay1 (F := Ideal) (k2_pay6 (iblk2 V c 1 t) (iblk2 V c 0 t) (iblk2 V c 2 t) (iblk2 V c 3 t))
        (k2_pay7 (iblk2 V c 1 t) (iblk2 V c 0 t) (iblk2 V c 2 t) (iblk2 V c 3 t)) (ix2 r i)
      = val_main_v50 (F := Ideal) x0 x1 (ix3 e R i) := by
  rw [ref50_apply x0 x1 e R i]
  refine (pay1_apply (iblk2 V c 1 t) (iblk2 V c 0 t) (iblk2 V c 2 t) (iblk2 V c 3 t) r i).trans ?_
  rw [xRow_blk V x0 c h0 t r e R he hR, sRow_blk V x0 x1 c hs t e he,
    wRow_blk V x0 x1 c hq t e he (loCol i), wRow_blk V x0 x1 c hq t e he (hiCol i),
    wstep_blk V x0 x1 c hsc t e he (loCol i), wstep_blk V x0 x1 c hsc t e he (hiCol i)]

end Cert.KernelIdeal.Bridge.Linear1
-- ==== Proof.Glue.lean ====
/-
  The idealized kernel's result is the reference's result.
  Walking the boundaries of the run in order: the first region leaves the two column maxima the reference takes of the
  activations and of the gate/up weight; the host turns them into the first smoothing scale; the first quantizer leaves
  the reference's quantized gate/up weight and its row scales; the second region leaves the reference's SwiGLU
  activations and their column maxima; the third region leaves the column maxima of the down weight; the host turns
  those two into the second smoothing scale; the second quantizer leaves the quantized down weight and its row scales;
  and the last region, finding all of these, leaves the reference's result.
-/
import proofs.«179826_j42494406426926_2_alg».proof.Proof.Boundaries
import proofs.«179826_j42494406426926_2_alg».proof.Proof.HostScales
import proofs.«179826_j42494406426926_2_alg».proof.Proof.Linear2Array
import proofs.«179826_j42494406426926_2_alg».proof.Proof.QuantGateUp
import proofs.«179826_j42494406426926_2_alg».proof.Proof.QuantDown
import proofs.«179826_j42494406426926_2_alg».proof.Proof.AmaxDownWeight
import proofs.«179826_j42494406426926_2_alg».proof.Proof.AmaxInputs
import proofs.«179826_j42494406426926_2_alg».proof.Proof.ActivationArray
import proofs.«179826_j42494406426926_2_alg».proof.Proof.ActAmax
import proofs.«179826_j42494406426926_2_alg».proof.Proof.Linear1Block

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen
open Cert.ReferenceIdeal.Read

variable (m : (ℓ : Loc nD τ sig) → Buf (Elt Ideal) ℓ) (ρ : Dev nD → PrngReg) (c : Dev nD)

/-- The three argument arrays as launched. -/
abbrev argX : (⟨Cert.ReferenceIdeal.S8x2048x2048, .f32⟩ : BufTy).Contents (Elt Ideal) := m ((c : Thread nD τ).loc main_arg0)
abbrev argGU : (⟨Cert.ReferenceIdeal.S8x2048x2048, .f32⟩ : BufTy).Contents (Elt Ideal) := m ((c : Thread nD τ).loc main_arg1)
abbrev argDown : (⟨Cert.ReferenceIdeal.S8x2048x1024, .f32⟩ : BufTy).Contents (Elt Ideal) := m ((c : Thread nD τ).loc main_arg2)

/-- After the first region: the column maxima of the activations and of the gate/up weight. -/
theorem at1_amaxX (e : Fin 8) (d : Fin 2048) :
    (W1 m ρ c (Proc.devRef .tc main_v0_0) : S8x1x2048.Idx → EReal) (ix3 e (0 : Fin 1) d) = val_main_v1 (F := Ideal) (argX m c) (ix2 e d) :=
  (congrFun (W1_arr m ρ c 2) _).trans (amaxAct_array_apply (V0 m ρ) c (argX m c) rfl e d)
theorem at1_amaxGU (e : Fin 8) (d : Fin 2048) :
    (W1 m ρ c (Proc.devRef .tc main_v0_1) : S8x1x2048.Idx → EReal) (ix3 e (0 : Fin 1) d) = val_main_v3 (F := Ideal) (argGU m c) (ix2 e d) :=
  (congrFun (W1_arr m ρ c 3) _).trans (amaxGate_array_apply (V0 m ρ) c (argGU m c) rfl e d)

/-- After the first host stretch: the first smoothing scale. -/
theorem at2_scale (e : Fin 8) (d : Fin 2048) :
    (W2 m ρ c (Proc.devRef .tc main_v8) : S8x1x2048.Idx → EReal) (ix3 e (0 : Fin 1) d) = val_main_v11 (F := Ideal) (argX m c) (argGU m c) (ix2 e d) :=
  host1_apply (W1 m ρ c) (argX m c) (argGU m c) (at1_amaxX m ρ c) (at1_amaxGU m ρ c) e d

/-- After the first quantizer: the quantized gate/up weight and its row scales. -/
theorem at3_weight : (W3 m ρ c (Proc.devRef .tc main_v9_0) : S8x2048x2048.Idx → EReal) = val_main_v39 (F := Ideal) (argX m c) (argGU m c) :=
  (W3_arr m ρ c 2).trans (QuantGateUp.quant_eq_reference (V2 m ρ) c (argX m c) (argGU m c) (W2_arg1 m ρ c) (at2_scale m ρ c))
theorem at3_rowScale (e : Fin 8) (o : Fin 2048) :
    (W3 m ρ c (Proc.devRef .tc main_v9_1) : S8x1x2048.Idx → EReal) (ix3 e (0 : Fin 1) o) = val_main_v31 (F := Ideal) (argX m c) (argGU m c) (ix3 e o (0 : Fin 1)) :=
  (congrFun (W3_arr m ρ c 3) _).trans (QuantGateUp.rowScale_eq_reference (V2 m ρ) c (argX m c) (argGU m c) (W2_arg1 m ρ c) (at2_scale m ρ c) e o)

/-- What the second region's body forms at each grid point: the tile of SwiGLU activations of the point's 256 token rows
    is the reference's, because the region finds the launched activations, the first smoothing scale, and the quantized
    gate/up weight with its row scales. -/
theorem at4_tile : ActAmax.ActTile (V3 m ρ) c (argX m c) (argGU m c) :=
  Linear1.linear1_block_elem (V3 m ρ) (argX m c) (argGU m c) c (W3_arg0 m ρ c)
    (fun e d => (congrFun (W3_scale m ρ c) _).trans (at2_scale m ρ c e d)) (at3_weight m ρ c) (at3_rowScale m ρ c)

/-- After the second region: the SwiGLU activations and their column maxima. -/
theorem at4_act : (W4 m ρ c (Proc.devRef .tc main_v10_0) : S8x2048x1024.Idx → EReal) = val_main_v50 (F := Ideal) (argX m c) (argGU m c) :=
  (W4_arr m ρ c 4).trans (actArr_array (V3 m ρ) c (argX m c) (argGU m c) (at4_tile m ρ c))
theorem at4_actMax (e : Fin 8) (i : Fin 1024) :
    (W4 m ρ c (Proc.devRef .tc main_v10_1) : S8x1x1024.Idx → EReal) (ix3 e (0 : Fin 1) i) = val_main_v52 (F := Ideal) (argX m c) (argGU m c) (ix2 e i) :=
  (congrFun (W4_arr m ρ c 5) _).trans (ActAmax.actMax_array_apply (V3 m ρ) c (argX m c) (argGU m c) (at4_tile m ρ c) e i)

/-- After the third region: the column maxima of the down weight. -/
theorem at5_amaxDown (e : Fin 8) (i : Fin 1024) :
    (W5 m ρ c (Proc.devRef .tc main_v11) : S8x1x1024.Idx → EReal) (ix3 e (0 : Fin 1) i) = val_main_v54 (F := Ideal) (argDown m c) (ix2 e i) :=
  (congrFun (W5_arr m ρ c 1) _).trans (amaxDown_array_apply (V4 m ρ) c (argDown m c) (W4_arg2 m ρ c) e i)

/-- After the second host stretch: the second smoothing scale. -/
theorem at6_scale (e : Fin 8) (i : Fin 1024) :
    (W6 m ρ c (Proc.devRef .tc main_v19) : S8x1x1024.Idx → EReal) (ix3 e (0 : Fin 1) i) = val_main_v62 (F := Ideal) (argX m c) (argGU m c) (argDown m c) (ix2 e i) :=
  host4_apply (W5 m ρ c) (argX m c) (argGU m c) (argDown m c)
    (fun e i => (congrFun (W5_actMax m ρ c) _).trans (at4_actMax m ρ c e i)) (at5_amaxDown m ρ c) e i

/-- After the second quantizer: the quantized down weight and its row scales. -/
theorem at7_weight : (W7 m ρ c (Proc.devRef .tc main_v20_0) : S8x2048x1024.Idx → EReal) = val_main_v90 (F := Ideal) (argX m c) (argGU m c) (argDown m c) :=
  (W7_arr m ρ c 2).trans (QuantDown.quant_eq_reference (V6 m ρ) c (argX m c) (argGU m c) (argDown m c) (W6_arg2 m ρ c) (at6_scale m ρ c))
theorem at7_rowScale (e : Fin 8) (o : Fin 2048) :
    (W7 m ρ c (Proc.devRef .tc main_v20_1) : S8x1x2048.Idx → EReal) (ix3 e (0 : Fin 1) o) = val_main_v82 (F := Ideal) (argX m c) (argGU m c) (argDown m c) (ix3 e o (0 : Fin 1)) :=
  (congrFun (W7_arr m ρ c 3) _).trans (QuantDown.rowScale_eq_reference (V6 m ρ) c (argX m c) (argGU m c) (argDown m c) (W6_arg2 m ρ c) (at6_scale m ρ c) e o)

/-- THE RESULT: after the last region the result buffer holds the reference's result of the launched arguments. -/
theorem result_eq : W8 m ρ c (Proc.devRef .tc main_v21) = val_main_v97 (F := Ideal) (argX m c) (argGU m c) (argDown m c) :=
  (W8_arr m ρ c 4).trans (linear2_array (V7 m ρ) (argX m c) (argGU m c) (argDown m c) c
    ((W7_act m ρ c).trans (at4_act m ρ c))
    (fun e k => (congrFun (W7_scale m ρ c) _).trans (at6_scale m ρ c e k))
    (at7_weight m ρ c) (at7_rowScale m ρ c))

end Cert.KernelIdeal.Bridge

end
-- ==== Proof.lean ====
/-
  A SmoothQuant int8 mixture-of-experts MLP in six kernel regions against its plain reference: the proof of the claim.

  Per expert e (8 of them), with x : [2048, 2048] the tokens, Wgu : [2048, 2048] the gate/up weight and Wd : [2048, 1024]
  the down weight, both programs compute
    s1[d]   = max(sqrt(max(max_t |x[t,d]|, eps) / max(max_o |Wgu[o,d]|, eps)), eps)
    h[t,o]  = (sum_d q(x/s1)[t,d] * q(Wgu*s1)[o,d]) * sc(x/s1)[t] * sc(Wgu*s1)[o]
    a[t,i]  = (h[t,i] * logistic(h[t,i])) * h[t,1024+i]
    s2[i]   = max(sqrt(max(max_t |a[t,i]|, eps) / max(max_d |Wd[d,i]|, eps)), eps)
    out[t,d] = (sum_i q(a/s2)[t,i] * q(Wd*s2)[d,i]) * sc(a/s2)[t] * sc(Wd*s2)[d]
  where, row by row, sc(y)[r] = max(max_k |y[r,k]|, eps) / 127 and q(y)[r,k] = min(127, max(-127, roundeven(y[r,k] / sc(y)[r]))).

  At the ideal instance every float is an extended real and every operation exact, so the two programs differ only in
  arrangement: the kernel works on blocks of 256 rows, and it takes each column maximum block by block, accumulating
  with max from a block of zeros, where the reference takes one maximum from -infinity over all 2048 rows. A fold of max
  over 2048 rows is the fold over 8 tiles of the folds over 256 rows, and the zero is absorbed because an absolute value
  is never negative. Everything else is the same expression read at matching indices; no input needs to be finite.

  The kernel's run is read boundary by boundary (Proof/Glue.lean): each region leaves in its output arrays a stage of
  the reference, given that it found earlier stages in its input arrays. The reference's own run and its stages read at
  an index are the generated modules'.
-/
import proofs.«179826_j42494406426926_2_alg».proof.Defs
import proofs.«179826_j42494406426926_2_alg».proof.Proof.Gen.Kernel
import proofs.«179826_j42494406426926_2_alg».proof.Proof.Gen.Kernel.Skeleton
import proofs.«179826_j42494406426926_2_alg».proof.Proof.Gen.Kernel.Launch
import proofs.«179826_j42494406426926_2_alg».proof.Proof.Gen.Kernel.Points
import proofs.«179826_j42494406426926_2_alg».proof.Proof.Gen.Kernel.Frame
import proofs.«179826_j42494406426926_2_alg».proof.Proof.Gen.KernelIdeal
import proofs.«179826_j42494406426926_2_alg».proof.Proof.Gen.KernelIdeal.Skeleton
import proofs.«179826_j42494406426926_2_alg».proof.Proof.Gen.KernelIdeal.Launch
import proofs.«179826_j42494406426926_2_alg».proof.Proof.Gen.KernelIdeal.Points
import proofs.«179826_j42494406426926_2_alg».proof.Proof.Gen.KernelIdeal.Frame
import proofs.«179826_j42494406426926_2_alg».proof.Proof.Gen.ReferenceIdeal
import proofs.«179826_j42494406426926_2_alg».proof.Proof.Gen.Pre_finite_inputs
import proofs.«179826_j42494406426926_2_alg».proof.Proof.Gen.ReferenceIdeal.Run
import proofs.«179826_j42494406426926_2_alg».proof.Proof.Gen.ReferenceIdeal.Read
import proofs.«179826_j42494406426926_2_alg».proof.Proof.KernelRun
import proofs.«179826_j42494406426926_2_alg».proof.Proof.Glue
import Idealize.ShloMosaic.Adequacy
import Idealize.ShloMosaic.Init

noncomputable section

namespace Cert.Proof

open Idealize.ShloMosaic Idealize.SL.Sem

/-- At the ideal instance the kernel's result buffer ends at the reference's result of the launched arguments (the
    walk through the run's boundaries), and the reference's ends at the same function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v21),
    Cert.KernelIdeal.Bridge.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq, (hagree c).1, (hagree c).2.1, (hagree c).2.2]
  exact (Cert.KernelIdeal.Bridge.result_eq m ρ c).symm

/-- The three programs run and keep their arguments (the kernel's two frames are the generated ones; the reference's
    is its generated run with the result dropped), the ideal pass rewrote nothing, and the idealized kernel agrees with
    the idealized reference. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
